-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v1_0)) (v3 : (c : Dev Cert.KernelIdeal.nD) → Buf (Elt Ideal) ((c.tc : Thread Cert.KernelIdeal.nD Cert.KernelIdeal.τ).loc Cert.KernelIdeal.main_v1_1)) (v4 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v1_0) = v2 c
          ∧ r.2.mem ((c.tc : Thread Cert.KernelIdeal.nD Cert.KernelIdeal.τ).loc Cert.KernelIdeal.main_v1_1) = v3 c
          ∧ r.2.mem ((c.tc : Thread Cert.KernelIdeal.nD Cert.KernelIdeal.τ).loc Cert.KernelIdeal.main_v1_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_v16) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x128 : Shape := ⟨2, ![512, 128]⟩
abbrev S128 : Shape := ⟨1, ![128]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S512x128 .f32) (main_arg5 : FVec F S128 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S4096x512 .f32) (main_arg1 : FVec F S4096x4096 .f32) (main_arg2 : FVec F S4096x4096 .f32) (main_arg3 : FVec F S4096x4096 .f32) (main_arg4 : FVec F S512x128 .f32) (main_arg5 : FVec F S128 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S4096x512 : Shape := ⟨2, ![4096, 512]⟩
abbrev S4096x4096 : Shape := ⟨2, ![4096, 4096]⟩
abbrev S512x128 : Shape := ⟨2, ![512, 128]⟩
abbrev S128 : Shape := ⟨1, ![128]⟩
abbrev S4096x128 : Shape := ⟨2, ![4096, 128]⟩
abbrev S1x128 : Shape := ⟨2, ![1, 128]⟩
abbrev S4096x1 : Shape := ⟨2, ![4096, 1]⟩
abbrev S128x4096 : Shape := ⟨2, ![128, 4096]⟩
abbrev S128x128 : Shape := ⟨2, ![128, 128]⟩
abbrev S128x1 : Shape := ⟨2, ![128, 1]⟩
abbrev S1x4096 : Shape := ⟨2, ![1, 4096]⟩
abbrev S256x4096 : Shape := ⟨2, ![256, 4096]⟩
abbrev S256x1 : Shape := ⟨2, ![256, 1]⟩

abbrev nBuf : Space → Nat
  | .hbm => 16
  | .vmem => 37
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S512x128, .f32⟩
  | .hbm, ⟨5, _⟩ => ⟨S128, .f32⟩
  | .hbm, ⟨6, _⟩ => ⟨S4096x128, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1, .f32⟩
  | .hbm, ⟨11, _⟩ => ⟨S4096x1, .f32⟩
  | .hbm, ⟨12, _⟩ => ⟨S1x4096, .f32⟩
  | .hbm, ⟨13, _⟩ => ⟨S1x4096, .f32⟩
  | .hbm, ⟨14, _⟩ => ⟨S4096x4096, .f32⟩
  | .hbm, ⟨15, _⟩ => ⟨S4096x4096, .f32⟩
  | .local _ .vmem, ⟨0, _⟩ => ⟨S4096x512, .f32⟩
  | .local _ .vmem, ⟨1, _⟩ => ⟨S512x128, .f32⟩
  | .local _ .vmem, ⟨2, _⟩ => ⟨S128, .f32⟩
  | .local _ .vmem, ⟨3, _⟩ => ⟨S4096x128, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x128, .f32⟩
  | .local _ .vmem, ⟨11, _⟩ => ⟨S128x128, .f32⟩
  | .local _ .vmem, ⟨12, _⟩ => ⟨S4096x128, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | .local _ .vmem, ⟨16, _⟩ => ⟨S128x4096, .f32⟩
  | .local _ .vmem, ⟨17, _⟩ => ⟨S128x4096, .f32⟩
  | .local _ .vmem, ⟨18, _⟩ => ⟨S128x4096, .f32⟩
  | .local _ .vmem, ⟨19, _⟩ => ⟨S128x1, .f32⟩
  | .local _ .vmem, ⟨20, _⟩ => ⟨S128x1, .f32⟩
  | .local _ .vmem, ⟨21, _⟩ => ⟨S128x1, .f32⟩
  | .local _ .vmem, ⟨22, _⟩ => ⟨S128x1, .f32⟩
  | .local _ .vmem, ⟨23, _⟩ => ⟨S256x4096, .f32⟩
  | .local _ .vmem, ⟨24, _⟩ => ⟨S256x4096, .f32⟩
  | .local _ .vmem, ⟨25, _⟩ => ⟨S256x4096, .f32⟩
  | .local _ .vmem, ⟨26, _⟩ => ⟨S256x4096, .f32⟩
  | .local _ .vmem, ⟨27, _⟩ => ⟨S256x1, .f32⟩
  | .local _ .vmem, ⟨28, _⟩ => ⟨S256x1, .f32⟩
  | .local _ .vmem, ⟨29, _⟩ => ⟨S1x4096, .f32⟩
  | .local _ .vmem, ⟨30, _⟩ => ⟨S256x1, .f32⟩
  | .local _ .vmem, ⟨31, _⟩ => ⟨S256x1, .f32⟩
  | .local _ .vmem, ⟨32, _⟩ => ⟨S1x4096, .f32⟩
  | .local _ .vmem, ⟨33, _⟩ => ⟨S256x4096, .f32⟩
  | .local _ .vmem, ⟨34, _⟩ => ⟨S256x4096, .f32⟩
  | .local _ .vmem, ⟨35, _⟩ => ⟨S256x4096, .f32⟩
  | .local _ .vmem, ⟨36, _⟩ => ⟨S256x4096, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc2_stg7_1 : Ref sig .tc := ⟨.vmem, 36, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc1_sem8_1 : DmaSem sig := 20
abbrev cc1_sem9_0 : DmaSem sig := 21
abbrev cc1_sem9_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem4_1 : DmaSem sig := 31
abbrev cc2_sem5_0 : DmaSem sig := 32
abbrev cc2_sem6_0 : DmaSem sig := 33
abbrev cc2_sem6_1 : DmaSem sig := 34
abbrev cc2_sem7_0 : DmaSem sig := 35
abbrev cc2_sem7_1 : DmaSem sig := 36

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4096x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S128x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x4096 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x4096 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x4096 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  inb_S4096x512_S4096x512_0_0 : ∀ a, (![0, 0] : Fin 2 → Nat) a + S4096x512.size a ≤ S4096x512.size a
  h_S4096x512 : 0 < S4096x512.numel
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S4096x128_S4096x128 : S4096x128.ShapeCasts S4096x128
  transposes_S4096x128_p1_0_S128x4096 : S4096x128.Transposes [1, 0] S128x4096
  inb_S128x4096_S128x4096_0_0 : ∀ a, (![0, 0] : Fin 2 → Nat) a + S128x4096.size a ≤ S128x4096.size a
  h_S128x4096 : 0 < S128x4096.numel
  natLt_1_32 : 1 < 32
  reduces_S128x4096_S128 : S128x4096.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S4096x1_S1x4096 : S4096x1.ShapeCasts S1x4096
  iota_S256x4096_d0_w32 : S256x4096.Iotas .tc 32 [0]
  iota_S256x4096_d1_w32 : S256x4096.Iotas .tc 32 [1]
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  dot_S4096x512_S512x128_S4096x128_1_0_0_1_n_n_wf : DotDims.WF S4096x512 S512x128 S4096x128 [1] [0] [0] [1] [] []
  dot_S128x128_S128x4096_S128x4096_1_0_0_1_n_n_wf : DotDims.WF S128x128 S128x4096 S128x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .f32 = 32 ∨ (Rect.block (s := S4096x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x128.size a
  hwx0_3 : ∀ i : grid0.Coords, EltTy.bits .f32 = 32 ∨ (Rect.block (s := S4096x128) S4096x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S4096x4096.size a
  hwx1_0 : ∀ i : grid1.Coords, EltTy.bits .f32 = 32 ∨ (Rect.block (s := S4096x4096) S128x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x4096.size a ≤ S4096x4096.size a
  hwx1_1 : ∀ i : grid1.Coords, EltTy.bits .f32 = 32 ∨ (Rect.block (s := S4096x4096) S128x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4096.size a ≤ S4096x4096.size a
  hwx1_2 : ∀ i : grid1.Coords, EltTy.bits .f32 = 32 ∨ (Rect.block (s := S4096x4096) S128x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S4096x128.size a
  hwx1_3 : ∀ i : grid1.Coords, EltTy.bits .f32 = 32 ∨ (Rect.block (s := S4096x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x128.size a ≤ S4096x128.size a
  hwx1_4 : ∀ i : grid1.Coords, EltTy.bits .f32 = 32 ∨ (Rect.block (s := S4096x128) S4096x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x4096.size a ≤ S4096x4096.size a
  hwx1_5 : ∀ i : grid1.Coords, EltTy.bits .f32 = 32 ∨ (Rect.block (s := S4096x4096) S128x4096.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x4096.size a ≤ S4096x4096.size a
  hwx1_6 : ∀ i : grid1.Coords, EltTy.bits .f32 = 32 ∨ (Rect.block (s := S4096x4096) S128x4096.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x4096.size a ≤ S4096x4096.size a
  hwx1_7 : ∀ i : grid1.Coords, EltTy.bits .f32 = 32 ∨ (Rect.block (s := S4096x4096) S128x4096.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S128x1.size a ≤ S4096x1.size a
  hwx1_8 : ∀ i : grid1.Coords, EltTy.bits .f32 = 32 ∨ (Rect.block (s := S4096x1) S128x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S128x1.size a ≤ S4096x1.size a
  hwx1_9 : ∀ i : grid1.Coords, EltTy.bits .f32 = 32 ∨ (Rect.block (s := S4096x1) S128x1.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S4096x4096.size a
  hwx2_0 : ∀ i : grid2.Coords, EltTy.bits .f32 = 32 ∨ (Rect.block (s := S4096x4096) S256x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x4096.size a ≤ S4096x4096.size a
  hwx2_1 : ∀ i : grid2.Coords, EltTy.bits .f32 = 32 ∨ (Rect.block (s := S4096x4096) S256x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1.size a ≤ S4096x1.size a
  hwx2_2 : ∀ i : grid2.Coords, EltTy.bits .f32 = 32 ∨ (Rect.block (s := S4096x1) S256x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x4096.size a ≤ S1x4096.size a
  hwx2_3 : ∀ i : grid2.Coords, EltTy.bits .f32 = 32 ∨ (Rect.block (s := S1x4096) S1x4096.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x1.size a ≤ S4096x1.size a
  hwx2_4 : ∀ i : grid2.Coords, EltTy.bits .f32 = 32 ∨ (Rect.block (s := S4096x1) S256x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x4096.size a ≤ S1x4096.size a
  hwx2_5 : ∀ i : grid2.Coords, EltTy.bits .f32 = 32 ∨ (Rect.block (s := S1x4096) S1x4096.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x4096.size a ≤ S4096x4096.size a
  hwx2_6 : ∀ i : grid2.Coords, EltTy.bits .f32 = 32 ∨ (Rect.block (s := S4096x4096) S256x4096.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S256x4096.size a ≤ S4096x4096.size a
  hwx2_7 : ∀ i : grid2.Coords, EltTy.bits .f32 = 32 ∨ (Rect.block (s := S4096x4096) S256x4096.size (cc2_transform_7 i) (hinb2_7 i)).WholeWords (EltTy.packing .f32)

variable [Facts₀]

def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S128x128_S128x4096_S128x4096_1_0_0_1_n_n : DotDims S128x128 S128x4096 S128x4096 where
  lhsContracting := [1]
  rhsContracting := [0]
  lhsNonContracting := [0]
  rhsNonContracting := [1]
  lhsBatch := []
  rhsBatch := []
  wf := dot_S128x128_S128x4096_S128x4096_1_0_0_1_n_n_wf

abbrev win0_0 : Pipeline.Window sig grid0 :=
  Pipeline.Window.ofSpec (Memref.whole main_arg0) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S128x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S4096x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1_0) S128x4096.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1_1) S128x4096.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v1_2) S128x4096.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v1_3) S128x1.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v1_4) S128x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v1_0) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_1) S256x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1_3) S256x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x4096.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v1_4) S256x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v3) S1x4096.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v4_0) S256x4096.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v4_1) S256x4096.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S512x128 : Shape := ⟨2, ![512, 128]⟩
abbrev S128 : Shape := ⟨1, ![128]⟩
abbrev S4096x128 : Shape := ⟨2, ![4096, 128]⟩
abbrev S1x128 : Shape := ⟨2, ![1, 128]⟩
abbrev S_ : Shape := ⟨0, ![]⟩
abbrev S128x4096 : Shape := ⟨2, ![128, 4096]⟩
abbrev S4096 : Shape := ⟨1, ![4096]⟩
abbrev S4096x1 : Shape := ⟨2, ![4096, 1]⟩
abbrev S1x4096 : Shape := ⟨2, ![1, 4096]⟩

abbrev nBuf : Space → Nat
  | .hbm => 94
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S512x128, .f32⟩
  | .hbm, ⟨5, _⟩ => ⟨S128, .f32⟩
  | .hbm, ⟨6, _⟩ => ⟨S4096x128, .f32⟩
  | .hbm, ⟨7, _⟩ => ⟨S1x128, .f32⟩
  | .hbm, ⟨8, _⟩ => ⟨S4096x128, .f32⟩
  | .hbm, ⟨9, _⟩ => ⟨S4096x128, .f32⟩
  | .hbm, ⟨10, _⟩ => ⟨S_, .f32⟩
  | .hbm, ⟨11, _⟩ => ⟨S4096x128, .f32⟩
  | .hbm, ⟨12, _⟩ => ⟨S4096x128, .f32⟩
  | .hbm, ⟨13, _⟩ => ⟨S128x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .i1⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .i1⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .i1⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .i32⟩
  | .hbm, ⟨57, _⟩ => ⟨S4096x4096, .i32⟩
  | .hbm, ⟨58, _⟩ => ⟨S_, .i32⟩
  | .hbm, ⟨59, _⟩ => ⟨S4096x4096, .i32⟩
  | .hbm, ⟨60, _⟩ => ⟨S4096x4096, .i32⟩
  | .hbm, ⟨61, _⟩ => ⟨S4096x4096, .i1⟩
  | .hbm, ⟨62, _⟩ => ⟨S4096x4096, .f32⟩
  | .hbm, ⟨63, _⟩ => ⟨S4096x4096, .f32⟩
  | .hbm, ⟨64, _⟩ => ⟨S_, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096, .f32⟩
  | .hbm, ⟨70, _⟩ => ⟨S4096x1, .f32⟩
  | .hbm, ⟨71, _⟩ => ⟨S4096x4096, .f32⟩
  | .hbm, ⟨72, _⟩ => ⟨S4096x4096, .f32⟩
  | .hbm, ⟨73, _⟩ => ⟨S1x4096, .f32⟩
  | .hbm, ⟨74, _⟩ => ⟨S4096x4096, .f32⟩
  | .hbm, ⟨75, _⟩ => ⟨S4096x4096, .f32⟩
  | .hbm, ⟨76, _⟩ => ⟨S4096x4096, .f32⟩
  | .hbm, ⟨77, _⟩ => ⟨S_, .f32⟩
  | .hbm, ⟨78, _⟩ => ⟨S4096, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S4096, .f32⟩
  | .hbm, ⟨83, _⟩ => ⟨S4096x1, .f32⟩
  | .hbm, ⟨84, _⟩ => ⟨S4096x4096, .f32⟩
  | .hbm, ⟨85, _⟩ => ⟨S4096x4096, .f32⟩
  | .hbm, ⟨86, _⟩ => ⟨S1x4096, .f32⟩
  | .hbm, ⟨87, _⟩ => ⟨S4096x4096, .f32⟩
  | .hbm, ⟨88, _⟩ => ⟨S4096x4096, .f32⟩
  | .hbm, ⟨89, _⟩ => ⟨S4096x4096, .f32⟩
  | .hbm, ⟨90, _⟩ => ⟨S_, .f32⟩
  | .hbm, ⟨91, _⟩ => ⟨S4096x4096, .f32⟩
  | .hbm, ⟨92, _⟩ => ⟨S4096x4096, .f32⟩
  | .hbm, ⟨93, _⟩ => ⟨S4096x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  transposes_S4096x128_S128x4096_1_0 : S4096x128.Transposes [1, 0] S128x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x512_S512x128_S4096x128_1_0_0_1_n_n_wf : DotDims.WF S4096x512 S512x128 S4096x128 [1] [0] [0] [1] [] []
  dot_S4096x128_S128x4096_S4096x4096_1_0_0_1_n_n_wf : DotDims.WF S4096x128 S128x4096 S4096x4096 [1] [0] [0] [1] [] []

variable [Facts₀]

def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.K.R0.lean ====
/-
  Region 0 (the embedding kernel, one grid point): the ingredients of its frame, at any float instance and at any
  contents V of the core's buffers when the region is entered.

  The kernel has three input windows (the features, the weight matrix and the bias, each one whole-array block) and
  one output window (the embedding, one whole-array block). Its body loads the three inputs, and stores into the
  output's staging buffer the relu of the affine map, one store over the whole buffer. So after the body each input's
  staging buffer holds its block as fetched and the output's holds that one payload; the region's invariant is the
  plain one (the scoped buffers no window stages and the generator register, untouched); nothing is owed.
-/
import proofs.«116308_j1889785610729_2_alg».proof.Proof.Gen.Kernel.Launch
import proofs.«116308_j1889785610729_2_alg».proof.Proof.Gen.Kernel.Skeleton
import proofs.«116308_j1889785610729_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole embedding buffer as a rectangle. -/
abbrev rEmb : Rect S4096x128 := Rect.unit (s := S4096x128) ![0, 0] S4096x128.size inb_S4096x128_S4096x128_0_0

/-- The inputs' whole buffers as rectangles. -/
abbrev rFeat : Rect S4096x512 := Rect.unit (s := S4096x512) ![0, 0] S4096x512.size inb_S4096x512_S4096x512_0_0
abbrev rWeight : Rect S512x128 := Rect.unit (s := S512x128) ![0, 0] S512x128.size inb_S512x128_S512x128_0_0
abbrev rBias : Rect S128 := Rect.unit (s := S128) ![0] S128.size inb_S128_S128_0

/-- The output's staging buffer after the body: its one store, over the whole buffer, of the payload of the inputs
    (each read through its whole rectangle). -/
def out0_3 (x0 : Vec F S4096x512 .f32) (x1 : Vec F S512x128 .f32) (x2 : Vec F S128 .f32) : Vec F S4096x128 .f32 :=
  View.canon [⟨rEmb, k0_pay1 (View.ld x0 rFeat) (View.ld x1 rWeight) (View.ld x2 rBias)⟩]

theorem cover0_3 (p0 : Vec F S4096x128 .f32) (y : S4096x128.Idx) :
    ∃ pc ∈ ([⟨rEmb, p0⟩] : List (View.Piece (Elt F) S4096x128 .f32)), y ∈ pc.1.set :=
  View.cover_of_tiled [⟨rEmb, p0⟩] S4096x128.size (by rfl) y

set_option maxHeartbeats 1000000 in
/-- The body on whole staging memrefs: the inputs' are read and kept, the output's ends at the payload. -/
theorem sound_kernel0 (c : Dev nD) (E : Set ℕ) (i : grid0.Coords)
    (arg1 : Memref sig .tc .vmem S4096x512 .f32) (harg1 : arg1.IsWhole) (arg2 : Memref sig .tc .vmem S512x128 .f32) (harg2 : arg2.IsWhole)
    (arg3 : Memref sig .tc .vmem S128 .f32) (harg3 : arg3.IsWhole) (arg4 : Memref sig .tc .vmem S4096x128 .f32) (harg4 : arg4.IsWhole)
    (x0 : Vec F S4096x512 .f32) (x1 : Vec F S512x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__emb_kernel i arg1 harg1 arg2 harg2 arg3 harg3 arg4 harg4) K := by
  simp only [cc0__emb_kernel_eq_skeleton]; unfold cc0__emb_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The proof data of region 0 on core c: the arrays as the region finds them; after the body each input's buffer at
    its block and the output's at the payload of the input blocks; the plain invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's run applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.K.R1Body.lean ====
import proofs.«116308_j1889785610729_2_alg».proof.Proof.Gen.Kernel.Launch
import proofs.«116308_j1889785610729_2_alg».proof.Proof.Gen.Kernel.Skeleton
import proofs.«116308_j1889785610729_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided by a structural recursion one step per coordinate
-- of the long axis
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call's kernel on whole staging buffers

The body reads five staging buffers whole — three 128×4096 tiles (windows 0, 1, 2), the 128×128 tile of the
embedding (window 3) and the whole 4096×128 embedding (window 4) — and then overwrites five staging buffers whole
(windows 5 … 9), each with a value computed from those five reads alone. -/

/-! ## The rectangles the body reads and writes: each is a whole buffer -/

/-- A whole 128×4096 tile. -/
abbrev tileRect : Rect S128x4096 := Rect.unit (s := S128x4096) ![0, 0] S128x4096.size inb_S128x4096_S128x4096_0_0
/-- The whole 128×128 tile of the embedding. -/
abbrev embTileRect : Rect S128x128 := Rect.unit (s := S128x128) ![0, 0] S128x128.size inb_S128x128_S128x128_0_0
/-- The whole 4096×128 embedding. -/
abbrev embRect : Rect S4096x128 := Rect.unit (s := S4096x128) ![0, 0] S4096x128.size inb_S4096x128_S4096x128_0_0
/-- A whole 128×1 column of row sums. -/
abbrev colRect : Rect S128x1 := Rect.unit (s := S128x1) ![0, 0] S128x1.size inb_S128x1_S128x1_0_0

/-! ## What the body leaves in each output window's buffer

Each output buffer receives one store over its whole extent, so its contents afterwards are that store's payload,
a function of the five blocks read (the payloads take the two embedding reads first, then the three tiles). -/

/-- Window 5 after the body. -/
def out1_5 (x0 x1 x2 : Vec F S128x4096 .f32) (x3 : Vec F S128x128 .f32) (x4 : Vec F S4096x128 .f32) : Vec F S128x4096 .f32 :=
  View.canon [⟨tileRect, k1_pay6 (View.ld x3 embTileRect) (View.ld x4 embRect) (View.ld x0 tileRect) (View.ld x1 tileRect) (View.ld x2 tileRect)⟩]
/-- Window 6 after the body. -/
def out1_6 (x0 x1 x2 : Vec F S128x4096 .f32) (x3 : Vec F S128x128 .f32) (x4 : Vec F S4096x128 .f32) : Vec F S128x4096 .f32 :=
  View.canon [⟨tileRect, k1_pay7 (View.ld x3 embTileRect) (View.ld x4 embRect) (View.ld x0 tileRect) (View.ld x1 tileRect) (View.ld x2 tileRect)⟩]
/-- Window 7 after the body: it depends on the first two tiles only. -/
def out1_7 (x0 x1 x2 : Vec F S128x4096 .f32) (x3 : Vec F S128x128 .f32) (x4 : Vec F S4096x128 .f32) : Vec F S128x4096 .f32 :=
  View.canon [⟨tileRect, k1_pay4 (View.ld x0 tileRect) (View.ld x1 tileRect)⟩]
/-- Window 8 after the body: the row sums of what window 5 receives. -/
def out1_8 (x0 x1 x2 : Vec F S128x4096 .f32) (x3 : Vec F S128x128 .f32) (x4 : Vec F S4096x128 .f32) : Vec F S128x1 .f32 :=
  View.canon [⟨colRect, k1_pay1 (k1_pay6 (View.ld x3 embTileRect) (View.ld x4 embRect) (View.ld x0 tileRect) (View.ld x1 tileRect) (View.ld x2 tileRect))⟩]
/-- Window 9 after the body: the row sums of what window 6 receives. -/
def out1_9 (x0 x1 x2 : Vec F S128x4096 .f32) (x3 : Vec F S128x128 .f32) (x4 : Vec F S4096x128 .f32) : Vec F S128x1 .f32 :=
  View.canon [⟨colRect, k1_pay2 (k1_pay7 (View.ld x3 embTileRect) (View.ld x4 embRect) (View.ld x0 tileRect) (View.ld x1 tileRect) (View.ld x2 tileRect))⟩]

/-- A single store over the whole 128×4096 buffer covers it: the rectangle has the buffer's own extents. -/
theorem cover_tile (p : Vec F S128x4096 .f32) (y : S128x4096.Idx) :
    ∃ pc ∈ ([⟨tileRect, p⟩] : List (View.Piece (Elt F) S128x4096 .f32)), y ∈ pc.1.set :=
  View.cover_of_tiled [⟨tileRect, p⟩] S128x4096.size (by rfl) y

/-- A single store over the whole 128×1 buffer covers it. -/
theorem cover_col (p : Vec F S128x1 .f32) (y : S128x1.Idx) :
    ∃ pc ∈ ([⟨colRect, p⟩] : List (View.Piece (Elt F) S128x1 .f32)), y ∈ pc.1.set :=
  View.cover_of_tiled [⟨colRect, p⟩] S128x1.size (by rfl) y

/-! ## The body's triple -/

set_option maxHeartbeats 4000000 in
/-- The kernel body on whole staging buffers — the five inputs' at read contents x0 … x4, the five outputs' at
    anything — runs to a state holding the inputs' as they were and each output's at its `out1_k` of the inputs:
    the printed functions are sequences of whole-buffer loads and stores over the payloads, which are stepped one
    by one, through the call of the part that does the five reads. -/
theorem sound_kernel1 (c : Dev nD) (E : Set ℕ) (i : grid1.Coords) (arg1 : Memref sig .tc .vmem S128x4096 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x128 .f32) (harg4 : arg4.IsWhole) (arg5 : Memref sig .tc .vmem S4096x128 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S128x1 .f32) (harg9 : arg9.IsWhole) (arg10 : Memref sig .tc .vmem S128x1 .f32) (harg10 : arg10.IsWhole)
    (x0 x1 x2 : Vec F S128x4096 .f32) (x3 : Vec F S128x128 .f32) (x4 : Vec F S4096x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare (out1_5 x0 x1 x2 x3 x4)
          ∗ owns (c : Thread nD τ) arg7 fullShare (out1_6 x0 x1 x2 x3 x4)
          ∗ owns (c : Thread nD τ) arg8 fullShare (out1_7 x0 x1 x2 x3 x4)
          ∗ owns (c : Thread nD τ) arg9 fullShare (out1_8 x0 x1 x2 x3 x4)
          ∗ owns (c : Thread nD τ) arg10 fullShare (out1_9 x0 x1 x2 x3 x4)) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10) K := by
  simp only [cc1__stage2_kernel_eq_skeleton]; unfold cc1__stage2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover_tile _)
  isplitl [H6]
  · iexists _; isplitr
    swap; · iexact H6
    ipureintro
    try dsimp only
    exact View.read_writes_eq_canon _ _ _ (cover_tile _)
  isplitl [H7]
  · iexists _; isplitr
    swap; · iexact H7
    ipureintro
    try dsimp only
    exact View.read_writes_eq_canon _ _ _ (cover_tile _)
  isplitl [H8]
  · iexists _; isplitr
    swap; · iexact H8
    ipureintro
    try dsimp only
    exact View.read_writes_eq_canon _ _ _ (cover_col _)
  iexists _; isplitr
  swap; · iexact H9
  ipureintro
  try dsimp only
  exact View.read_writes_eq_canon _ _ _ (cover_col _)

end Cert.Kernel.Frame
-- ==== Proof.K.R1.lean ====
import proofs.«116308_j1889785610729_2_alg».proof.Proof.K.R1Body

-- membership in a rectangle of these extents is decided by a structural recursion one step per coordinate
-- of the long axis
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call as a pipeline: the proof data and the body obligation

Everything here is stated at a parameter `V`: the core's buffer contents when the region is entered. -/

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the first 128×4096 tile): its current staging buffer holds its block at every point, fetched there or
    not, for any proof data whose array is the entry contents (`hA`) and whose body leaves the block in place
    (`hafter`): unfetched, the block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the second 128×4096 tile): its current staging buffer holds its block at every point, fetched there or
    not, for any proof data whose array is the entry contents (`hA`) and whose body leaves the block in place
    (`hafter`): unfetched, the block index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the third 128×4096 tile): its current staging buffer holds its block at every point, fetched there or
    not, for any proof data whose array is the entry contents (`hA`) and whose body leaves the block in place
    (`hafter`): unfetched, the block index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the 128×128 tile of the embedding): its current staging buffer holds its block at every point, fetched there or
    not, for any proof data whose array is the entry contents (`hA`) and whose body leaves the block in place
    (`hafter`): unfetched, the block index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the whole embedding (fetched at the first point only)): its current staging buffer holds its block at every point, fetched there or
    not, for any proof data whose array is the entry contents (`hA`) and whose body leaves the block in place
    (`hafter`): unfetched, the block index has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The proof data -/

/-- The share of each input array the pipeline holds. The embedding is behind two windows (its 128-row tile and
    the whole array): they hold the two complementary halves of it, which together are the whole; every other
    input array is behind one window, which holds it whole. (An output array is held whole whatever is said
    here.) -/
def share1 : Fin cfg1.W → PosShare TreeShare
  | ⟨0, _⟩ => fullShare
  | ⟨1, _⟩ => fullShare
  | ⟨2, _⟩ => fullShare
  | ⟨3, _⟩ => fullShare.left
  | ⟨4, _⟩ => fullShare.right
  | ⟨5, _⟩ => fullShare
  | ⟨6, _⟩ => fullShare
  | ⟨7, _⟩ => fullShare
  | ⟨8, _⟩ => fullShare
  | ⟨9, _⟩ => fullShare

/-- The proof data of the second call on core `c`: the arrays as the region finds them; after the body at point
    `t` each input's buffer still at its block and each output's at its `out1_k` of the five input blocks; the
    invariant that of a body touching nothing else (the scoped rest and the generator register pass through);
    nothing owed; the input arrays at the shares `share1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t) (iblk1 V c 2 t) (iblk1 V c 3 t) (iblk1 V c 4 t)
    | ⟨8, _⟩ => out1_8 (iblk1 V c 0 t) (iblk1 V c 1 t) (iblk1 V c 2 t) (iblk1 V c 3 t) (iblk1 V c 4 t)
    | ⟨9, _⟩ => out1_9 (iblk1 V c 0 t) (iblk1 V c 1 t) (iblk1 V c 2 t) (iblk1 V c 3 t) (iblk1 V c 4 t)
  Φ _ := Pipeline.ΦA spec1 c
  q := share1
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at any point: the inputs' buffers hold their blocks, so the kernel's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Frame
-- ==== Proof.K.R2.lean ====
/-
  Region 2 (the normalisation kernel, 16 grid points of 256 rows): the ingredients of its frame, at any float instance
  and at any contents V of the core's buffers when the region is entered.

  Six input windows — the two weight matrices (a 256-row block each), the two degree columns (a 256-row block each)
  and the two degree rows (whole, fetched once and resident) — and two output windows (a 256-row block each). The body
  loads the six inputs and stores one payload over each output's whole staging buffer; the payloads read the grid
  coordinate (the identity's entries in the block depend on which rows the block holds). The invariant is the plain
  one; nothing is owed.
-/
import proofs.«116308_j1889785610729_2_alg».proof.Proof.Gen.Kernel.Launch
import proofs.«116308_j1889785610729_2_alg».proof.Proof.Gen.Kernel.Skeleton
import proofs.«116308_j1889785610729_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole buffers as rectangles. -/
abbrev rBlk : Rect S256x4096 := Rect.unit (s := S256x4096) ![0, 0] S256x4096.size inb_S256x4096_S256x4096_0_0
abbrev rCol : Rect S256x1 := Rect.unit (s := S256x1) ![0, 0] S256x1.size inb_S256x1_S256x1_0_0
abbrev rRow : Rect S1x4096 := Rect.unit (s := S1x4096) ![0, 0] S1x4096.size inb_S1x4096_S1x4096_0_0

/-- The first output's staging buffer after the body, from the grid coordinate and the input blocks. -/
def out2_6 (i : grid2.Coords) (x0 : Vec F S256x4096 .f32) (x2 : Vec F S256x1 .f32) (x3 : Vec F S1x4096 .f32) : Vec F S256x4096 .f32 :=
  View.canon [⟨rBlk, k2_pay6 i (View.ld x0 rBlk) (View.ld x2 rCol) (View.ld x3 rRow)⟩]

/-- The second output's. -/
def out2_7 (i : grid2.Coords) (x0 x1 : Vec F S256x4096 .f32) (x4 : Vec F S256x1 .f32) (x5 : Vec F S1x4096 .f32) : Vec F S256x4096 .f32 :=
  View.canon [⟨rBlk, k2_pay1 (k2_pay2 (F := F) i) (k2_pay5 (View.ld x0 rBlk) (View.ld x1 rBlk)) (k2_pay7 i (View.ld x1 rBlk) (View.ld x4 rCol)) (k2_pay8 (View.ld x5 rRow))⟩]

theorem cover2 (p0 : Vec F S256x4096 .f32) (y : S256x4096.Idx) :
    ∃ pc ∈ ([⟨rBlk, p0⟩] : List (View.Piece (Elt F) S256x4096 .f32)), y ∈ pc.1.set :=
  View.cover_of_tiled [⟨rBlk, p0⟩] S256x4096.size (by rfl) y

set_option maxHeartbeats 2000000 in
/-- The body on whole staging memrefs: the inputs' are read and kept, each output's ends at its payload. -/
theorem sound_kernel2 (c : Dev nD) (E : Set ℕ) (i : grid2.Coords)
    (arg1 : Memref sig .tc .vmem S256x4096 .f32) (harg1 : arg1.IsWhole) (arg2 : Memref sig .tc .vmem S256x4096 .f32) (harg2 : arg2.IsWhole)
    (arg3 : Memref sig .tc .vmem S256x1 .f32) (harg3 : arg3.IsWhole) (arg4 : Memref sig .tc .vmem S1x4096 .f32) (harg4 : arg4.IsWhole)
    (arg5 : Memref sig .tc .vmem S256x1 .f32) (harg5 : arg5.IsWhole) (arg6 : Memref sig .tc .vmem S1x4096 .f32) (harg6 : arg6.IsWhole)
    (arg7 : Memref sig .tc .vmem S256x4096 .f32) (harg7 : arg7.IsWhole) (arg8 : Memref sig .tc .vmem S256x4096 .f32) (harg8 : arg8.IsWhole)
    (x0 x1 : Vec F S256x4096 .f32) (x2 : Vec F S256x1 .f32) (x3 : Vec F S1x4096 .f32) (x4 : Vec F S256x1 .f32) (x5 : Vec F S1x4096 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 i x0 x2 x3) ∗ owns (c : Thread nD τ) arg8 fullShare (out2_7 i x0 x1 x4 x5)) -∗ K ⟨⟩))
      ⊢ wp frame (wpE (defs₀ (F := F)) Variants.none c none) E (cc2__stage3_kernel i arg1 harg1 arg2 harg2 arg3 harg3 arg4 harg4 arg5 harg5 arg6 harg6 arg7 harg7 arg8 harg8) K := by
  simp only [cc2__stage3_kernel_eq_skeleton]; unfold cc2__stage3_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2 _)
  iexists _; isplitr
  swap; · iexact H7
  ipureintro
  exact View.read_writes_eq_canon _ _ _ (cover2 _)

/-! ## The proof data -/

/-- The proof data of region 2 on core c: the arrays as the region finds them; after the body at point t each input's
    buffer at its block and each output's at its payload of the point's coordinates and input blocks; the plain
    invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (grid2.coords t) (iblk2 V c 0 t) (iblk2 V c 2 t) (iblk2 V c 3 t)
    | ⟨7, _⟩ => out2_7 (grid2.coords t) (iblk2 V c 0 t) (iblk2 V c 1 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (grid2.coords t) (iblk2 V c 0 t) (iblk2 V c 2 t) (iblk2 V c 3 t) := by dsimp only [dat2]
theorem after2_7 (c : Dev nD) (t : Fin cfg2.N) :
    (dat2 V c).after 7 t = out2_7 (grid2.coords t) (iblk2 V c 0 t) (iblk2 V c 1 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the body's run applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.K.Vals.lean ====
/-
  The contents of a core's buffers at each boundary of the program's @main (region 0, region 1, two reshapes on the
  host, region 2), as a fold from the launch memory: per region its output arrays at what its write-backs leave and
  every other buffer untouched, then the two reshapes' results. Region 1 reads one array (the embedding) through two
  windows; an input array is never written, so both windows end at the array's entry contents and the update at the
  region's arrays is still well defined there. Every buffer that no region's output window and no reshape writes ends
  as launched.
-/
import proofs.«116308_j1889785610729_2_alg».proof.Proof.K.R0
import proofs.«116308_j1889785610729_2_alg».proof.Proof.K.R1
import proofs.«116308_j1889785610729_2_alg».proof.Proof.K.R2

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A valuation updated at a region's arrays, when two windows may be on one array -/

/-- A dependent function read through an equation of its arguments. -/
theorem cast_val_eq {Val : EltTy → Type} {b b' : DevRef τ sig} (f : (b : DevRef τ sig) → b.ty.Contents Val) (e : b = b') :
    cast (congrArg (fun b' : DevRef τ sig => b'.ty.Contents Val) e) (f b) = f b' := by
  subst e; rfl

/-- The updated valuation at a window's array is the window's contents, when every window on the same array has the
    same contents (read through the equation of the references). -/
theorem withArrays_arr_of {Val : EltTy → Type} {gr W : Nat} (win : Fin W → Pipeline.WinSpec sig gr) (c : Dev nD) (V : Valuation τ sig Val)
    (A : (w : Fin W) → Buf Val ((win w).arr.view.loc (c.tc : Thread nD τ))) (w : Fin W)
    (h : ∀ w' (e : Proc.devRef .tc (Pipeline.arrRef win w') = Proc.devRef (τ := τ) .tc (Pipeline.arrRef win w)),
      cast (congrArg (fun b' : DevRef τ sig => b'.ty.Contents Val) e) (A w') = A w) :
    Pipeline.withArrays win c V A (Proc.devRef .tc (Pipeline.arrRef win w)) = A w := by
  unfold Pipeline.withArrays
  have h0 : ∃ w', Proc.devRef .tc (Pipeline.arrRef win w') = Proc.devRef (τ := τ) .tc (Pipeline.arrRef win w) := ⟨w, rfl⟩
  rw [dif_pos h0]
  exact h _ h0.choose_spec

/-- The updated valuation keeps a buffer whose every window (if any) ends at the buffer's old contents. -/
theorem withArrays_keep {Val : EltTy → Type} {gr W : Nat} (win : Fin W → Pipeline.WinSpec sig gr) (c : Dev nD) (V : Valuation τ sig Val)
    (A : (w : Fin W) → Buf Val ((win w).arr.view.loc (c.tc : Thread nD τ))) (b : Ref sig .tc)
    (h : ∀ w, Pipeline.arrRef win w = b → A w = V (Proc.devRef .tc (Pipeline.arrRef win w))) :
    Pipeline.withArrays win c V A (Proc.devRef .tc b) = V (Proc.devRef .tc b) := by
  unfold Pipeline.withArrays
  split
  · rename_i hex
    have e := hex.choose_spec
    rw [h _ (Proc.devRef_injective _ e)]
    exact cast_val_eq V e
  · rfl

variable (m : (ℓ : Loc nD τ sig) → Buf (Elt F) ℓ) (ρ : Dev nD → PrngReg)

/-! ## The buffer contents at each boundary -/

/-- Core c's buffers at launch (region 0's entry). -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b
/-- After region 0 (region 1's entry): the embedding array at what the write-back leaves. -/
def W1 (c : Dev nD) : Valuation τ sig (Elt F) :=
  Pipeline.withArrays spec0 c (W0 m ρ c) fun w => (dat0 (U0 m ρ) c).arrAt w cfg0.N
abbrev U1 : (c : Dev nD) → (b : Ref sig .tc) → Buf (Elt F) ((c : Thread nD τ).loc b) := fun c b => W1 m ρ c b
/-- After region 1: its five output arrays at what the write-backs leave. -/
def W2 (c : Dev nD) : Valuation τ sig (Elt F) :=
  Pipeline.withArrays spec1 c (W1 m ρ c) fun w => (dat1 (U1 m ρ) c).arrAt w cfg1.N
abbrev U2 : (c : Dev nD) → (b : Ref sig .tc) → Buf (Elt F) ((c : Thread nD τ).loc b) := fun c b => W2 m ρ c b
/-- After the two reshapes (region 2's entry). -/
abbrev W3 : Dev nD → Valuation τ sig (Elt F) := fun c => StableHlo.after hostOps2 (W2 m ρ c)
abbrev U3 : (c : Dev nD) → (b : Ref sig .tc) → Buf (Elt F) ((c : Thread nD τ).loc b) := fun c b => W3 m ρ c b
/-- After region 2 (the end): its two output arrays at what the write-backs leave. -/
def W4 (c : Dev nD) : Valuation τ sig (Elt F) :=
  Pipeline.withArrays spec2 c (W3 m ρ c) fun w => (dat2 (U3 m ρ) c).arrAt w cfg2.N
abbrev U4 : (c : Dev nD) → (b : Ref sig .tc) → Buf (Elt F) ((c : Thread nD τ).loc b) := fun c b => W4 m ρ c b

/-! ### Region 0's exit -/

theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)
/-- Region 0 writes only the embedding's array. -/
theorem W1_keep (c : Dev nD) (b : Ref sig .tc) (hb : Pipeline.arrRef spec0 3 ≠ b) :
    W1 m ρ c (Proc.devRef .tc b) = W0 m ρ c (Proc.devRef .tc b) := by
  unfold W1
  refine withArrays_keep spec0 c _ _ b fun w e => ?_
  match w, e with
  | ⟨0, _⟩, _ => exact ((dat0 (U0 m ρ) c).arrAt_in 0 rfl _).trans (A_eq0 (U0 m ρ) c 0)
  | ⟨1, _⟩, _ => exact ((dat0 (U0 m ρ) c).arrAt_in 1 rfl _).trans (A_eq0 (U0 m ρ) c 1)
  | ⟨2, _⟩, _ => exact ((dat0 (U0 m ρ) c).arrAt_in 2 rfl _).trans (A_eq0 (U0 m ρ) c 2)
  | ⟨3, _⟩, e => exact absurd e hb

/-! ### Region 1's exit -/

/-- Two windows of region 1 on one array are the same window, or the embedding's tile and whole windows. -/
theorem arr1_cases : ∀ w w' : Fin 10, Pipeline.arrRef spec1 w' = Pipeline.arrRef spec1 w →
    w' = w ∨ (w' = 3 ∧ w = 4) ∨ (w' = 4 ∧ w = 3) := by decide

theorem arrAt1_3 (c : Dev nD) : (dat1 (U1 m ρ) c).arrAt 3 cfg1.N = U1 m ρ c (Pipeline.arrRef spec1 3) :=
  ((dat1 (U1 m ρ) c).arrAt_in 3 rfl _).trans (A_eq1 (U1 m ρ) c 3)
theorem arrAt1_4 (c : Dev nD) : (dat1 (U1 m ρ) c).arrAt 4 cfg1.N = U1 m ρ c (Pipeline.arrRef spec1 4) :=
  ((dat1 (U1 m ρ) c).arrAt_in 4 rfl _).trans (A_eq1 (U1 m ρ) c 4)

theorem W2_arr (c : Dev nD) (w : Fin cfg1.W) :
    W2 m ρ c (Proc.devRef .tc (Pipeline.arrRef spec1 w)) = (dat1 (U1 m ρ) c).arrAt w cfg1.N := by
  unfold W2
  refine withArrays_arr_of spec1 c _ _ w fun w' e => ?_
  rcases arr1_cases w w' (Proc.devRef_injective _ e) with h | ⟨h, h'⟩ | ⟨h, h'⟩
  · subst h; rfl
  · subst h; subst h'
    rw [arrAt1_3, arrAt1_4]; exact cast_val_eq (W1 m ρ c) e
  · subst h; subst h'
    rw [arrAt1_3, arrAt1_4]; exact cast_val_eq (W1 m ρ c) e
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
theorem hF1 (c : Dev nD) (w : Fin cfg1.W) : (dat1 (U1 m ρ) c).arrAt w cfg1.N = U2 m ρ c (Pipeline.arrRef spec1 w) :=
  (W2_arr m ρ c w).symm
theorem hrest1 (c : Dev nD) : ∀ b, b ∉ Finset.univ.image (Pipeline.arrRef spec1) → U2 m ρ c b = U1 m ρ c b :=
  fun b hb => W2_of_ne m ρ c b fun w e => hb (Finset.mem_image.mpr ⟨w, Finset.mem_univ _, e⟩)
/-- Region 1 writes only its five output arrays. -/
theorem W2_keep (c : Dev nD) (b : Ref sig .tc) (h5 : Pipeline.arrRef spec1 5 ≠ b) (h6 : Pipeline.arrRef spec1 6 ≠ b)
    (h7 : Pipeline.arrRef spec1 7 ≠ b) (h8 : Pipeline.arrRef spec1 8 ≠ b) (h9 : Pipeline.arrRef spec1 9 ≠ b) :
    W2 m ρ c (Proc.devRef .tc b) = W1 m ρ c (Proc.devRef .tc b) := by
  unfold W2
  refine withArrays_keep spec1 c _ _ b fun w e => ?_
  match w, e with
  | ⟨0, _⟩, _ => exact ((dat1 (U1 m ρ) c).arrAt_in 0 rfl _).trans (A_eq1 (U1 m ρ) c 0)
  | ⟨1, _⟩, _ => exact ((dat1 (U1 m ρ) c).arrAt_in 1 rfl _).trans (A_eq1 (U1 m ρ) c 1)
  | ⟨2, _⟩, _ => exact ((dat1 (U1 m ρ) c).arrAt_in 2 rfl _).trans (A_eq1 (U1 m ρ) c 2)
  | ⟨3, _⟩, _ => exact ((dat1 (U1 m ρ) c).arrAt_in 3 rfl _).trans (A_eq1 (U1 m ρ) c 3)
  | ⟨4, _⟩, _ => exact ((dat1 (U1 m ρ) c).arrAt_in 4 rfl _).trans (A_eq1 (U1 m ρ) c 4)
  | ⟨5, _⟩, e => exact absurd e h5
  | ⟨6, _⟩, e => exact absurd e h6
  | ⟨7, _⟩, e => exact absurd e h7
  | ⟨8, _⟩, e => exact absurd e h8
  | ⟨9, _⟩, e => exact absurd e h9

/-! ### The reshapes, and region 2's exit -/

/-- The reshapes write only their two results. -/
theorem W3_keep (c : Dev nD) (b : Ref sig .tc) (h2 : b ≠ main_v2) (h3 : b ≠ main_v3) :
    W3 m ρ c (Proc.devRef .tc b) = W2 m ρ c (Proc.devRef .tc b) :=
  StableHlo.after_of_forall_not_mem (b := Proc.devRef .tc b) _ _ (List.forall_iff_forall_mem.mp (by
    simp only [hostOps2, List.Forall, StableHlo.reshape_writes, Finset.mem_singleton]
    exact ⟨StableHlo.devRef_ne_of_ne h2, StableHlo.devRef_ne_of_ne h3⟩))

theorem W4_arr (c : Dev nD) (w : Fin cfg2.W) :
    W4 m ρ c (Proc.devRef .tc (Pipeline.arrRef spec2 w)) = (dat2 (U3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem hF2 (c : Dev nD) (w : Fin cfg2.W) : (dat2 (U3 m ρ) c).arrAt w cfg2.N = U4 m ρ c (Pipeline.arrRef spec2 w) :=
  (W4_arr m ρ c w).symm
theorem hrest2 (c : Dev nD) : ∀ b, b ∉ Finset.univ.image (Pipeline.arrRef spec2) → U4 m ρ c b = U3 m ρ c b :=
  fun b hb => W4_of_ne m ρ c b fun w e => hb (Finset.mem_image.mpr ⟨w, Finset.mem_univ _, e⟩)
/-- Region 2 writes only its two output arrays. -/
theorem W4_keep (c : Dev nD) (b : Ref sig .tc) (h6 : Pipeline.arrRef spec2 6 ≠ b) (h7 : Pipeline.arrRef spec2 7 ≠ b) :
    W4 m ρ c (Proc.devRef .tc b) = W3 m ρ c (Proc.devRef .tc b) := by
  unfold W4
  refine withArrays_keep spec2 c _ _ b fun w e => ?_
  match w, e with
  | ⟨0, _⟩, _ => exact ((dat2 (U3 m ρ) c).arrAt_in 0 rfl _).trans (A_eq2 (U3 m ρ) c 0)
  | ⟨1, _⟩, _ => exact ((dat2 (U3 m ρ) c).arrAt_in 1 rfl _).trans (A_eq2 (U3 m ρ) c 1)
  | ⟨2, _⟩, _ => exact ((dat2 (U3 m ρ) c).arrAt_in 2 rfl _).trans (A_eq2 (U3 m ρ) c 2)
  | ⟨3, _⟩, _ => exact ((dat2 (U3 m ρ) c).arrAt_in 3 rfl _).trans (A_eq2 (U3 m ρ) c 3)
  | ⟨4, _⟩, _ => exact ((dat2 (U3 m ρ) c).arrAt_in 4 rfl _).trans (A_eq2 (U3 m ρ) c 4)
  | ⟨5, _⟩, _ => exact ((dat2 (U3 m ρ) c).arrAt_in 5 rfl _).trans (A_eq2 (U3 m ρ) c 5)
  | ⟨6, _⟩, e => exact absurd e h6
  | ⟨7, _⟩, e => exact absurd e h7

/-- A buffer no region writes and no reshape writes ends as launched. -/
theorem W4_launch (c : Dev nD) (b : Ref sig .tc) (h0 : Pipeline.arrRef spec0 3 ≠ b)
    (h15 : Pipeline.arrRef spec1 5 ≠ b) (h16 : Pipeline.arrRef spec1 6 ≠ b) (h17 : Pipeline.arrRef spec1 7 ≠ b)
    (h18 : Pipeline.arrRef spec1 8 ≠ b) (h19 : Pipeline.arrRef spec1 9 ≠ b) (hv2 : b ≠ main_v2) (hv3 : b ≠ main_v3)
    (h26 : Pipeline.arrRef spec2 6 ≠ b) (h27 : Pipeline.arrRef spec2 7 ≠ b) :
    W4 m ρ c (Proc.devRef .tc b) = m ((c : Thread nD τ).loc b) :=
  (W4_keep m ρ c b h26 h27).trans <| (W3_keep m ρ c b hv2 hv3).trans <|
    (W2_keep m ρ c b h15 h16 h17 h18 h19).trans <| (W1_keep m ρ c b h0).trans rfl

end Cert.Kernel.Frame

end
-- ==== Proof.K.R1Arrays.lean ====
import proofs.«116308_j1889785610729_2_alg».proof.Proof.K.R1

-- membership in a rectangle of these extents is decided by a structural recursion one step per coordinate
-- of the long axis
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call's arrays among the core's unscoped buffers

The call's ten windows are on NINE buffers: the embedding is behind two input windows (its 128-row tile and the whole
array). The pipeline holds each window's array separately, so the embedding's one buffer is split between the two
windows, each holding one of two complementary halves of it (`share1`); a points-to at the whole is the two at the
halves, both ways. Entering the region takes the nine buffers out of the core's unscoped buffers and deals them to
the ten windows; leaving it puts them back. -/

section Region
variable (V : (c : Dev nD) → (b : Ref sig .tc) → Buf (Elt F) ((c : Thread nD τ).loc b))

/-! ## The share each window's array is held at -/

theorem share1_0 (c : Dev nD) : (dat1 V c).share 0 = fullShare := rfl
theorem share1_1 (c : Dev nD) : (dat1 V c).share 1 = fullShare := rfl
theorem share1_2 (c : Dev nD) : (dat1 V c).share 2 = fullShare := rfl
theorem share1_3 (c : Dev nD) : (dat1 V c).share 3 = fullShare.left := rfl
theorem share1_4 (c : Dev nD) : (dat1 V c).share 4 = fullShare.right := rfl
theorem share1_5 (c : Dev nD) : (dat1 V c).share 5 = fullShare := rfl
theorem share1_6 (c : Dev nD) : (dat1 V c).share 6 = fullShare := rfl
theorem share1_7 (c : Dev nD) : (dat1 V c).share 7 = fullShare := rfl
theorem share1_8 (c : Dev nD) : (dat1 V c).share 8 = fullShare := rfl
theorem share1_9 (c : Dev nD) : (dat1 V c).share 9 = fullShare := rfl

/-! ## The two sides, listed -/

/-- The distinct buffers behind the ten windows' arrays, each whole at contents `W`: nine of them. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg1) ↦{fullShare} W main_arg1)
        ∗ (((c : Thread nD τ).loc main_arg2) ↦{fullShare} W main_arg2)
        ∗ (((c : Thread nD τ).loc main_arg3) ↦{fullShare} W main_arg3)
        ∗ (((c : Thread nD τ).loc main_v0) ↦{fullShare} W main_v0)
        ∗ (((c : Thread nD τ).loc main_v1_0) ↦{fullShare} W main_v1_0)
        ∗ (((c : Thread nD τ).loc main_v1_1) ↦{fullShare} W main_v1_1)
        ∗ (((c : Thread nD τ).loc main_v1_2) ↦{fullShare} W main_v1_2)
        ∗ (((c : Thread nD τ).loc main_v1_3) ↦{fullShare} W main_v1_3)
        ∗ (((c : Thread nD τ).loc main_v1_4) ↦{fullShare} W main_v1_4)) := by
  unfold Pipeline.arrBufs
  exact bigSep_eq_bigSepL_of_eq [main_arg1, main_arg2, main_arg3, main_v0, main_v1_0, main_v1_1, main_v1_2, main_v1_3, main_v1_4] (by decide) (by decide) _

/-- The pipeline's arrays at contents read off a valuation `W` (`hG`), window by window: ten points-tos on the
    nine buffers, the embedding's twice, at the two halves (each array is a whole buffer, so the elements it
    places are all of the buffer's). -/
theorem arrays1_eq (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    ((dat1 V c).arrays G : sProp 𝕄)
      = iprop((((c : Thread nD τ).loc main_arg1) ↦{fullShare} W main_arg1)
        ∗ (((c : Thread nD τ).loc main_arg2) ↦{fullShare} W main_arg2)
        ∗ (((c : Thread nD τ).loc main_arg3) ↦{fullShare} W main_arg3)
        ∗ (((c : Thread nD τ).loc main_v0) ↦{fullShare.left} W main_v0)
        ∗ (((c : Thread nD τ).loc main_v0) ↦{fullShare.right} W main_v0)
        ∗ (((c : Thread nD τ).loc main_v1_0) ↦{fullShare} W main_v1_0)
        ∗ (((c : Thread nD τ).loc main_v1_1) ↦{fullShare} W main_v1_1)
        ∗ (((c : Thread nD τ).loc main_v1_2) ↦{fullShare} W main_v1_2)
        ∗ (((c : Thread nD τ).loc main_v1_3) ↦{fullShare} W main_v1_3)
        ∗ (((c : Thread nD τ).loc main_v1_4) ↦{fullShare} W main_v1_4)) := by
  unfold Dat.arrays
  rw [bigSep_W1]
  simp only [View.set_whole, hG, share1_0, share1_1, share1_2, share1_3, share1_4, share1_5, share1_6, share1_7, share1_8, share1_9]

/-! ## Dealing the buffers to the windows, and collecting them -/

/-- The nine buffers whole are the ten windows' arrays: the embedding's whole share is halved. -/
theorem arrays1_of_arrBufs1 (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    (Pipeline.arrBufs (Ix := Unit) (Name := ℕ) (U := UR sig nD τ) (Lvl := ℕ) spec1 c W : sProp 𝕄) ⊢ (dat1 V c).arrays G := by
  rw [arrBufs1_eq, arrays1_eq V c W G hG]
  iintro ⟨Ha1, Ha2, Ha3, Hv0, Ho0, Ho1, Ho2, Ho3, Ho4⟩
  ihave Hs := (pointsTo_share (PosShare.mem_left_op_right fullShare)).1 $$ Hv0
  icases Hs with ⟨Hl, Hr⟩
  isplitl [Ha1]; · iexact Ha1
  isplitl [Ha2]; · iexact Ha2
  isplitl [Ha3]; · iexact Ha3
  isplitl [Hl]; · iexact Hl
  isplitl [Hr]; · iexact Hr
  isplitl [Ho0]; · iexact Ho0
  isplitl [Ho1]; · iexact Ho1
  isplitl [Ho2]; · iexact Ho2
  isplitl [Ho3]; · iexact Ho3
  iexact Ho4

/-- The ten windows' arrays are the nine buffers whole: the embedding's two halves are joined. -/
theorem arrBufs1_of_arrays1 (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    ((dat1 V c).arrays G : sProp 𝕄) ⊢ Pipeline.arrBufs (Ix := Unit) (Name := ℕ) (U := UR sig nD τ) (Lvl := ℕ) spec1 c W := by
  rw [arrBufs1_eq, arrays1_eq V c W G hG]
  iintro ⟨Ha1, Ha2, Ha3, Hl, Hr, Ho0, Ho1, Ho2, Ho3, Ho4⟩
  isplitl [Ha1]; · iexact Ha1
  isplitl [Ha2]; · iexact Ha2
  isplitl [Ha3]; · iexact Ha3
  isplitl [Hl Hr]
  · iapply (pointsTo_share (PosShare.mem_left_op_right fullShare)).2
    isplitl [Hl]; · iexact Hl
    iexact Hr
  isplitl [Ho0]; · iexact Ho0
  isplitl [Ho1]; · iexact Ho1
  isplitl [Ho2]; · iexact Ho2
  isplitl [Ho3]; · iexact Ho3
  iexact Ho4

/-! ## Entry and exit -/

/-- ENTRY: the core's unscoped buffers at the entry contents are the pipeline's arrays at the proof data's entry
    contents and the unscoped rest. -/
theorem entry1 (c : Dev nD) :
    (unscopedBufs c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ cfgs 1 winFacts₀1.arr_unscoped c (V c)]
  exact sep_mono (arrays1_of_arrBufs1 V c (V c) _ fun w => by rw [show (dat1 V c).arrAt w 0 = (dat1 V c).A w from rfl, A_eq1]) .rfl

/-- EXIT: the pipeline's arrays at what its write-backs leave and the unscoped rest are the core's unscoped buffers
    at any valuation `V'` that has the arrays at those contents and agrees with the entry contents off them. -/
theorem exit1 (c : Dev nD) (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c V' : sProp 𝕄) := by
  rw [Pipeline.unscopedBufs_split₀ cfgs 1 winFacts₀1.arr_unscoped c V']
  refine sep_mono (arrBufs1_of_arrays1 V c V' _ hF) (Entails.of_eq ?_)
  unfold Pipeline.unscopedRest
  exact bigSep_congr fun b hb => by rw [hrest b (Finset.mem_sdiff.mp hb).2]

/-- An input window's array is never written: at every point it holds the entry contents. In particular the two
    windows on the embedding both end at the embedding's entry contents. -/
theorem arrAt1_in (c : Dev nD) (w : Fin cfg1.W) (hin : (cfg1.win w).isOut = false) (n : ℕ) :
    (dat1 V c).arrAt w n = V c (Pipeline.arrRef spec1 w) :=
  ((dat1 V c).arrAt_in w hin n).trans (A_eq1 V c w)

end Region

end Cert.Kernel.Frame
-- ==== Proof.K.Run.lean ====
/-
  The run of the whole program: its @main is region 0, region 1, two reshapes on the host, region 2. At any float
  instance, from any memory with zero counters, every weakly fair execution terminates, nothing faulting, and the
  final memory holds every unscoped buffer of each core at the last boundary's valuation.

  Each region is a segment whose thread state is "every unscoped buffer of the core at the boundary's valuation, the
  generator register at some state, nothing owed". At a region's entry the windows' arrays are split out of the
  unscoped buffers and at its exit put back at the valuation updated at the arrays. Region 1 reads one array (the
  embedding) through two windows, so there the two windows hold complementary halves of the array's permission; an
  input array is never written, so both windows end at the entry contents and the halves rejoin.
-/
import proofs.«116308_j1889785610729_2_alg».proof.Proof.K.Vals
import proofs.«116308_j1889785610729_2_alg».proof.Proof.K.R1Arrays

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pallas_call has a prefetched table. -/
abbrev adm' : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm' p) c
  | ⟨0, _⟩ => fun c => dat0 (U0 m ρ) c
  | ⟨1, _⟩ => fun c => dat1 (U1 m ρ) c
  | ⟨2, _⟩ => fun c => dat2 (U3 m ρ) c
abbrev 𝒱' : Variants := Variants.none
/-- No core owes another anything: no level is assigned. -/
abbrev L' : GSem nD τ sig → Finset Unit := fun _ => ∅
abbrev lv' : GSem nD τ sig → Unit → ℕ := fun _ _ => 0
/-- What rides beside the buffers through every segment: the generator register at some state, nothing owed. -/
abbrev R' (c : Dev nD) : sProp 𝕄 := iprop((∃ r, prngReg c r) ∗ ∃ W, owes (c : Thread nD τ) (0 : CellTallies nD τ sig Unit) W)

theorem hostOps2_fresh' : (hostOps2 : List (HloOp τ sig (Elt F))).Forall fun op => op.fresh = ∅ := by
  simp only [List.Forall]; repeat' constructor

/-- The two reshapes as a segment over the unscoped buffers from region 1's exit contents. -/
abbrev hseg2 : Pipeline.HostSeg (Name := ℕ) (U := UR sig nD τ) (pcfgs (F := F)) defs₀ 𝒱' L' lv' :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh') op h) (W2 m ρ) R'

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes: every unscoped buffer at the last valuation, the register at some state. -/
abbrev Tend (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: its arrays split out of the unscoped buffers at entry and put back at the exit
    contents; the generator register into the plain invariant and out; nothing owed; no semaphore of the kernel's own. -/
def reg0 : Pipeline.RegionSeg (pcfgs (F := F)) adm' (pdats m ρ) () defs₀ 𝒱' L' lv' 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L' lv' 0 fun _ _ => rfl
  pre c := iprop(StableHlo.held (c : Thread nD τ) (Pipeline.ucRefs τ sig) (W0 m ρ c) ∗ R' c)
  post c := iprop(StableHlo.held (c : Thread nD τ) (Pipeline.ucRefs τ sig) (W1 m ρ c) ∗ R' c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at entry and put back at the exit
    contents; the generator register into the plain invariant and out; nothing owed; no semaphore of the kernel's own. -/
def reg1 : Pipeline.RegionSeg (pcfgs (F := F)) adm' (pdats m ρ) () defs₀ 𝒱' L' lv' 1 where
  win := winFacts₀1
  block_pos := block_pos1
  stage_whole := stage_whole1
  K := PEmpty
  osem k := k.elim
  ho := Pipeline.OwnSemFacts.none _
  hbody c := (body_obligation1 (U1 m ρ) c).loose
  hwaits := Pipeline.hwaits_of_owed_zero _ _ _ _ L' lv' 1 fun _ _ => rfl
  pre c := iprop(StableHlo.held (c : Thread nD τ) (Pipeline.ucRefs τ sig) (W1 m ρ c) ∗ R' c)
  post c := iprop(StableHlo.held (c : Thread nD τ) (Pipeline.ucRefs τ sig) (W2 m ρ c) ∗ R' c)
  X c := iprop(∃ r, prngReg c r)
  Y c := iprop(∃ r, prngReg c r)
  Z c := Pipeline.unscopedRest (Ix := Unit) (Name := ℕ) (U := UR sig nD τ) (Lvl := ℕ) spec1 c (U1 m ρ c)
  hentry c := by
    rw [Pipeline.ownSems0_none]
    have hsplit : (unscopedBufs c (U1 m ρ c) : sProp 𝕄) ⊢ iprop((pdats m ρ 1 c).arrays ((pdats m ρ 1 c).arrAt · 0)
        ∗ Pipeline.unscopedRest (Ix := Unit) (Name := ℕ) (U := UR sig nD τ) (Lvl := ℕ) spec1 c (U1 m ρ c)) := entry1 (U1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
        ∗ Pipeline.unscopedRest (Ix := Unit) (Name := ℕ) (U := UR sig nD τ) (Lvl := ℕ) spec1 c (U1 m ρ c)) ⊢ (unscopedBufs c (U2 m ρ c) : sProp 𝕄) :=
      exit1 (U1 m ρ) c (U2 m ρ c) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers at entry and put back at the exit
    contents; the generator register into the plain invariant and out; nothing owed; no semaphore of the kernel's own. -/
def reg2 : Pipeline.RegionSeg (pcfgs (F := F)) adm' (pdats m ρ) () defs₀ 𝒱' L' lv' 2 where
  win := launch2.win.to₀
  block_pos := launch2.block_pos
  stage_whole := launch2.stage_whole
  K := PEmpty
  osem k := k.elim
  ho := Pipeline.OwnSemFacts.none _
  hbody c := (body_obligation2 (U3 m ρ) c).loose
  hwaits := Pipeline.hwaits_of_owed_zero _ _ _ _ L' lv' 2 fun _ _ => rfl
  pre c := iprop(StableHlo.held (c : Thread nD τ) (Pipeline.ucRefs τ sig) (W3 m ρ c) ∗ R' c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (U3 m ρ c) (U4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱' L' lv') :=
  [ .region (reg0 m ρ), .region (reg1 m ρ), .host (hseg2 m ρ), .region (reg2 m ρ) ]

/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱' L' lv' m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R' c)) (Tₙ := Tend m ρ)
    (hch := ⟨fun _ => .rfl, fun _ => .rfl, fun _ => .rfl, fun _ => .rfl, fun _ => .rfl⟩)
    (hinit := by
      refine Pipeline.initEach L' lv' fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
    (h c _ (mem_uc main_arg0 (by decide))).trans (W4_launch m ρ c main_arg0 (by decide) (by decide) (by decide) (by decide) (by decide) (by decide) (by decide) (by decide) (by decide) (by decide)),
    (h c _ (mem_uc main_arg1 (by decide))).trans (W4_launch m ρ c main_arg1 (by decide) (by decide) (by decide) (by decide) (by decide) (by decide) (by decide) (by decide) (by decide) (by decide)),
    (h c _ (mem_uc main_arg2 (by decide))).trans (W4_launch m ρ c main_arg2 (by decide) (by decide) (by decide) (by decide) (by decide) (by decide) (by decide) (by decide) (by decide) (by decide)),
    (h c _ (mem_uc main_arg3 (by decide))).trans (W4_launch m ρ c main_arg3 (by decide) (by decide) (by decide) (by decide) (by decide) (by decide) (by decide) (by decide) (by decide) (by decide)),
    (h c _ (mem_uc main_arg4 (by decide))).trans (W4_launch m ρ c main_arg4 (by decide) (by decide) (by decide) (by decide) (by decide) (by decide) (by decide) (by decide) (by decide) (by decide)),
    (h c _ (mem_uc main_arg5 (by decide))).trans (W4_launch m ρ c main_arg5 (by decide) (by decide) (by decide) (by decide) (by decide) (by decide) (by decide) (by decide) (by decide) (by decide))⟩)
    (run_all m ρ)

end Cert.Kernel.Frame

end
-- ==== Proof.KI.R0.lean ====
/-
  Region 0 (the embedding kernel, one grid point): the ingredients of its frame, at any float instance and at any
  contents V of the core's buffers when the region is entered.

  The kernel has three input windows (the features, the weight matrix and the bias, each one whole-array block) and
  one output window (the embedding, one whole-array block). Its body loads the three inputs, and stores into the
  output's staging buffer the relu of the affine map, one store over the whole buffer. So after the body each input's
  staging buffer holds its block as fetched and the output's holds that one payload; the region's invariant is the
  plain one (the scoped buffers no window stages and the generator register, untouched); nothing is owed.
-/
import proofs.«116308_j1889785610729_2_alg».proof.Proof.Gen.KernelIdeal.Launch
import proofs.«116308_j1889785610729_2_alg».proof.Proof.Gen.KernelIdeal.Skeleton
import proofs.«116308_j1889785610729_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole embedding buffer as a rectangle. -/
abbrev rEmb : Rect S4096x128 := Rect.unit (s := S4096x128) ![0, 0] S4096x128.size inb_S4096x128_S4096x128_0_0

/-- The inputs' whole buffers as rectangles. -/
abbrev rFeat : Rect S4096x512 := Rect.unit (s := S4096x512) ![0, 0] S4096x512.size inb_S4096x512_S4096x512_0_0
abbrev rWeight : Rect S512x128 := Rect.unit (s := S512x128) ![0, 0] S512x128.size inb_S512x128_S512x128_0_0
abbrev rBias : Rect S128 := Rect.unit (s := S128) ![0] S128.size inb_S128_S128_0

/-- The output's staging buffer after the body: its one store, over the whole buffer, of the payload of the inputs
    (each read through its whole rectangle). -/
def out0_3 (x0 : Vec F S4096x512 .f32) (x1 : Vec F S512x128 .f32) (x2 : Vec F S128 .f32) : Vec F S4096x128 .f32 :=
  View.canon [⟨rEmb, k0_pay1 (View.ld x0 rFeat) (View.ld x1 rWeight) (View.ld x2 rBias)⟩]

theorem cover0_3 (p0 : Vec F S4096x128 .f32) (y : S4096x128.Idx) :
    ∃ pc ∈ ([⟨rEmb, p0⟩] : List (View.Piece (Elt F) S4096x128 .f32)), y ∈ pc.1.set :=
  View.cover_of_tiled [⟨rEmb, p0⟩] S4096x128.size (by rfl) y

set_option maxHeartbeats 1000000 in
/-- The body on whole staging memrefs: the inputs' are read and kept, the output's ends at the payload. -/
theorem sound_kernel0 (c : Dev nD) (E : Set ℕ) (i : grid0.Coords)
    (arg1 : Memref sig .tc .vmem S4096x512 .f32) (harg1 : arg1.IsWhole) (arg2 : Memref sig .tc .vmem S512x128 .f32) (harg2 : arg2.IsWhole)
    (arg3 : Memref sig .tc .vmem S128 .f32) (harg3 : arg3.IsWhole) (arg4 : Memref sig .tc .vmem S4096x128 .f32) (harg4 : arg4.IsWhole)
    (x0 : Vec F S4096x512 .f32) (x1 : Vec F S512x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__emb_kernel i arg1 harg1 arg2 harg2 arg3 harg3 arg4 harg4) K := by
  simp only [cc0__emb_kernel_eq_skeleton]; unfold cc0__emb_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The proof data of region 0 on core c: the arrays as the region finds them; after the body each input's buffer at
    its block and the output's at the payload of the input blocks; the plain invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's run applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.R1Body.lean ====
import proofs.«116308_j1889785610729_2_alg».proof.Proof.Gen.KernelIdeal.Launch
import proofs.«116308_j1889785610729_2_alg».proof.Proof.Gen.KernelIdeal.Skeleton
import proofs.«116308_j1889785610729_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided by a structural recursion one step per coordinate
-- of the long axis
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call's kernel on whole staging buffers

The body reads five staging buffers whole — three 128×4096 tiles (windows 0, 1, 2), the 128×128 tile of the
embedding (window 3) and the whole 4096×128 embedding (window 4) — and then overwrites five staging buffers whole
(windows 5 … 9), each with a value computed from those five reads alone. -/

/-! ## The rectangles the body reads and writes: each is a whole buffer -/

/-- A whole 128×4096 tile. -/
abbrev tileRect : Rect S128x4096 := Rect.unit (s := S128x4096) ![0, 0] S128x4096.size inb_S128x4096_S128x4096_0_0
/-- The whole 128×128 tile of the embedding. -/
abbrev embTileRect : Rect S128x128 := Rect.unit (s := S128x128) ![0, 0] S128x128.size inb_S128x128_S128x128_0_0
/-- The whole 4096×128 embedding. -/
abbrev embRect : Rect S4096x128 := Rect.unit (s := S4096x128) ![0, 0] S4096x128.size inb_S4096x128_S4096x128_0_0
/-- A whole 128×1 column of row sums. -/
abbrev colRect : Rect S128x1 := Rect.unit (s := S128x1) ![0, 0] S128x1.size inb_S128x1_S128x1_0_0

/-! ## What the body leaves in each output window's buffer

Each output buffer receives one store over its whole extent, so its contents afterwards are that store's payload,
a function of the five blocks read (the payloads take the two embedding reads first, then the three tiles). -/

/-- Window 5 after the body. -/
def out1_5 (x0 x1 x2 : Vec F S128x4096 .f32) (x3 : Vec F S128x128 .f32) (x4 : Vec F S4096x128 .f32) : Vec F S128x4096 .f32 :=
  View.canon [⟨tileRect, k1_pay6 (View.ld x3 embTileRect) (View.ld x4 embRect) (View.ld x0 tileRect) (View.ld x1 tileRect) (View.ld x2 tileRect)⟩]
/-- Window 6 after the body. -/
def out1_6 (x0 x1 x2 : Vec F S128x4096 .f32) (x3 : Vec F S128x128 .f32) (x4 : Vec F S4096x128 .f32) : Vec F S128x4096 .f32 :=
  View.canon [⟨tileRect, k1_pay7 (View.ld x3 embTileRect) (View.ld x4 embRect) (View.ld x0 tileRect) (View.ld x1 tileRect) (View.ld x2 tileRect)⟩]
/-- Window 7 after the body: it depends on the first two tiles only. -/
def out1_7 (x0 x1 x2 : Vec F S128x4096 .f32) (x3 : Vec F S128x128 .f32) (x4 : Vec F S4096x128 .f32) : Vec F S128x4096 .f32 :=
  View.canon [⟨tileRect, k1_pay4 (View.ld x0 tileRect) (View.ld x1 tileRect)⟩]
/-- Window 8 after the body: the row sums of what window 5 receives. -/
def out1_8 (x0 x1 x2 : Vec F S128x4096 .f32) (x3 : Vec F S128x128 .f32) (x4 : Vec F S4096x128 .f32) : Vec F S128x1 .f32 :=
  View.canon [⟨colRect, k1_pay1 (k1_pay6 (View.ld x3 embTileRect) (View.ld x4 embRect) (View.ld x0 tileRect) (View.ld x1 tileRect) (View.ld x2 tileRect))⟩]
/-- Window 9 after the body: the row sums of what window 6 receives. -/
def out1_9 (x0 x1 x2 : Vec F S128x4096 .f32) (x3 : Vec F S128x128 .f32) (x4 : Vec F S4096x128 .f32) : Vec F S128x1 .f32 :=
  View.canon [⟨colRect, k1_pay2 (k1_pay7 (View.ld x3 embTileRect) (View.ld x4 embRect) (View.ld x0 tileRect) (View.ld x1 tileRect) (View.ld x2 tileRect))⟩]

/-- A single store over the whole 128×4096 buffer covers it: the rectangle has the buffer's own extents. -/
theorem cover_tile (p : Vec F S128x4096 .f32) (y : S128x4096.Idx) :
    ∃ pc ∈ ([⟨tileRect, p⟩] : List (View.Piece (Elt F) S128x4096 .f32)), y ∈ pc.1.set :=
  View.cover_of_tiled [⟨tileRect, p⟩] S128x4096.size (by rfl) y

/-- A single store over the whole 128×1 buffer covers it. -/
theorem cover_col (p : Vec F S128x1 .f32) (y : S128x1.Idx) :
    ∃ pc ∈ ([⟨colRect, p⟩] : List (View.Piece (Elt F) S128x1 .f32)), y ∈ pc.1.set :=
  View.cover_of_tiled [⟨colRect, p⟩] S128x1.size (by rfl) y

/-! ## The body's triple -/

set_option maxHeartbeats 4000000 in
/-- The kernel body on whole staging buffers — the five inputs' at read contents x0 … x4, the five outputs' at
    anything — runs to a state holding the inputs' as they were and each output's at its `out1_k` of the inputs:
    the printed functions are sequences of whole-buffer loads and stores over the payloads, which are stepped one
    by one, through the call of the part that does the five reads. -/
theorem sound_kernel1 (c : Dev nD) (E : Set ℕ) (i : grid1.Coords) (arg1 : Memref sig .tc .vmem S128x4096 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x128 .f32) (harg4 : arg4.IsWhole) (arg5 : Memref sig .tc .vmem S4096x128 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S128x1 .f32) (harg9 : arg9.IsWhole) (arg10 : Memref sig .tc .vmem S128x1 .f32) (harg10 : arg10.IsWhole)
    (x0 x1 x2 : Vec F S128x4096 .f32) (x3 : Vec F S128x128 .f32) (x4 : Vec F S4096x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare (out1_5 x0 x1 x2 x3 x4)
          ∗ owns (c : Thread nD τ) arg7 fullShare (out1_6 x0 x1 x2 x3 x4)
          ∗ owns (c : Thread nD τ) arg8 fullShare (out1_7 x0 x1 x2 x3 x4)
          ∗ owns (c : Thread nD τ) arg9 fullShare (out1_8 x0 x1 x2 x3 x4)
          ∗ owns (c : Thread nD τ) arg10 fullShare (out1_9 x0 x1 x2 x3 x4)) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10) K := by
  simp only [cc1__stage2_kernel_eq_skeleton]; unfold cc1__stage2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover_tile _)
  isplitl [H6]
  · iexists _; isplitr
    swap; · iexact H6
    ipureintro
    try dsimp only
    exact View.read_writes_eq_canon _ _ _ (cover_tile _)
  isplitl [H7]
  · iexists _; isplitr
    swap; · iexact H7
    ipureintro
    try dsimp only
    exact View.read_writes_eq_canon _ _ _ (cover_tile _)
  isplitl [H8]
  · iexists _; isplitr
    swap; · iexact H8
    ipureintro
    try dsimp only
    exact View.read_writes_eq_canon _ _ _ (cover_col _)
  iexists _; isplitr
  swap; · iexact H9
  ipureintro
  try dsimp only
  exact View.read_writes_eq_canon _ _ _ (cover_col _)

end Cert.KernelIdeal.Frame
-- ==== Proof.KI.R1.lean ====
import proofs.«116308_j1889785610729_2_alg».proof.Proof.KI.R1Body

-- membership in a rectangle of these extents is decided by a structural recursion one step per coordinate
-- of the long axis
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call as a pipeline: the proof data and the body obligation

Everything here is stated at a parameter `V`: the core's buffer contents when the region is entered. -/

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the first 128×4096 tile): its current staging buffer holds its block at every point, fetched there or
    not, for any proof data whose array is the entry contents (`hA`) and whose body leaves the block in place
    (`hafter`): unfetched, the block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the second 128×4096 tile): its current staging buffer holds its block at every point, fetched there or
    not, for any proof data whose array is the entry contents (`hA`) and whose body leaves the block in place
    (`hafter`): unfetched, the block index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the third 128×4096 tile): its current staging buffer holds its block at every point, fetched there or
    not, for any proof data whose array is the entry contents (`hA`) and whose body leaves the block in place
    (`hafter`): unfetched, the block index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the 128×128 tile of the embedding): its current staging buffer holds its block at every point, fetched there or
    not, for any proof data whose array is the entry contents (`hA`) and whose body leaves the block in place
    (`hafter`): unfetched, the block index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the whole embedding (fetched at the first point only)): its current staging buffer holds its block at every point, fetched there or
    not, for any proof data whose array is the entry contents (`hA`) and whose body leaves the block in place
    (`hafter`): unfetched, the block index has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The proof data -/

/-- The share of each input array the pipeline holds. The embedding is behind two windows (its 128-row tile and
    the whole array): they hold the two complementary halves of it, which together are the whole; every other
    input array is behind one window, which holds it whole. (An output array is held whole whatever is said
    here.) -/
def share1 : Fin cfg1.W → PosShare TreeShare
  | ⟨0, _⟩ => fullShare
  | ⟨1, _⟩ => fullShare
  | ⟨2, _⟩ => fullShare
  | ⟨3, _⟩ => fullShare.left
  | ⟨4, _⟩ => fullShare.right
  | ⟨5, _⟩ => fullShare
  | ⟨6, _⟩ => fullShare
  | ⟨7, _⟩ => fullShare
  | ⟨8, _⟩ => fullShare
  | ⟨9, _⟩ => fullShare

/-- The proof data of the second call on core `c`: the arrays as the region finds them; after the body at point
    `t` each input's buffer still at its block and each output's at its `out1_k` of the five input blocks; the
    invariant that of a body touching nothing else (the scoped rest and the generator register pass through);
    nothing owed; the input arrays at the shares `share1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t) (iblk1 V c 2 t) (iblk1 V c 3 t) (iblk1 V c 4 t)
    | ⟨8, _⟩ => out1_8 (iblk1 V c 0 t) (iblk1 V c 1 t) (iblk1 V c 2 t) (iblk1 V c 3 t) (iblk1 V c 4 t)
    | ⟨9, _⟩ => out1_9 (iblk1 V c 0 t) (iblk1 V c 1 t) (iblk1 V c 2 t) (iblk1 V c 3 t) (iblk1 V c 4 t)
  Φ _ := Pipeline.ΦA spec1 c
  q := share1
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at any point: the inputs' buffers hold their blocks, so the kernel's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Frame
-- ==== Proof.KI.R2.lean ====
/-
  Region 2 (the normalisation kernel, 16 grid points of 256 rows): the ingredients of its frame, at any float instance
  and at any contents V of the core's buffers when the region is entered.

  Six input windows — the two weight matrices (a 256-row block each), the two degree columns (a 256-row block each)
  and the two degree rows (whole, fetched once and resident) — and two output windows (a 256-row block each). The body
  loads the six inputs and stores one payload over each output's whole staging buffer; the payloads read the grid
  coordinate (the identity's entries in the block depend on which rows the block holds). The invariant is the plain
  one; nothing is owed.
-/
import proofs.«116308_j1889785610729_2_alg».proof.Proof.Gen.KernelIdeal.Launch
import proofs.«116308_j1889785610729_2_alg».proof.Proof.Gen.KernelIdeal.Skeleton
import proofs.«116308_j1889785610729_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole buffers as rectangles. -/
abbrev rBlk : Rect S256x4096 := Rect.unit (s := S256x4096) ![0, 0] S256x4096.size inb_S256x4096_S256x4096_0_0
abbrev rCol : Rect S256x1 := Rect.unit (s := S256x1) ![0, 0] S256x1.size inb_S256x1_S256x1_0_0
abbrev rRow : Rect S1x4096 := Rect.unit (s := S1x4096) ![0, 0] S1x4096.size inb_S1x4096_S1x4096_0_0

/-- The first output's staging buffer after the body, from the grid coordinate and the input blocks. -/
def out2_6 (i : grid2.Coords) (x0 : Vec F S256x4096 .f32) (x2 : Vec F S256x1 .f32) (x3 : Vec F S1x4096 .f32) : Vec F S256x4096 .f32 :=
  View.canon [⟨rBlk, k2_pay6 i (View.ld x0 rBlk) (View.ld x2 rCol) (View.ld x3 rRow)⟩]

/-- The second output's. -/
def out2_7 (i : grid2.Coords) (x0 x1 : Vec F S256x4096 .f32) (x4 : Vec F S256x1 .f32) (x5 : Vec F S1x4096 .f32) : Vec F S256x4096 .f32 :=
  View.canon [⟨rBlk, k2_pay1 (k2_pay2 (F := F) i) (k2_pay5 (View.ld x0 rBlk) (View.ld x1 rBlk)) (k2_pay7 i (View.ld x1 rBlk) (View.ld x4 rCol)) (k2_pay8 (View.ld x5 rRow))⟩]

theorem cover2 (p0 : Vec F S256x4096 .f32) (y : S256x4096.Idx) :
    ∃ pc ∈ ([⟨rBlk, p0⟩] : List (View.Piece (Elt F) S256x4096 .f32)), y ∈ pc.1.set :=
  View.cover_of_tiled [⟨rBlk, p0⟩] S256x4096.size (by rfl) y

set_option maxHeartbeats 2000000 in
/-- The body on whole staging memrefs: the inputs' are read and kept, each output's ends at its payload. -/
theorem sound_kernel2 (c : Dev nD) (E : Set ℕ) (i : grid2.Coords)
    (arg1 : Memref sig .tc .vmem S256x4096 .f32) (harg1 : arg1.IsWhole) (arg2 : Memref sig .tc .vmem S256x4096 .f32) (harg2 : arg2.IsWhole)
    (arg3 : Memref sig .tc .vmem S256x1 .f32) (harg3 : arg3.IsWhole) (arg4 : Memref sig .tc .vmem S1x4096 .f32) (harg4 : arg4.IsWhole)
    (arg5 : Memref sig .tc .vmem S256x1 .f32) (harg5 : arg5.IsWhole) (arg6 : Memref sig .tc .vmem S1x4096 .f32) (harg6 : arg6.IsWhole)
    (arg7 : Memref sig .tc .vmem S256x4096 .f32) (harg7 : arg7.IsWhole) (arg8 : Memref sig .tc .vmem S256x4096 .f32) (harg8 : arg8.IsWhole)
    (x0 x1 : Vec F S256x4096 .f32) (x2 : Vec F S256x1 .f32) (x3 : Vec F S1x4096 .f32) (x4 : Vec F S256x1 .f32) (x5 : Vec F S1x4096 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 i x0 x2 x3) ∗ owns (c : Thread nD τ) arg8 fullShare (out2_7 i x0 x1 x4 x5)) -∗ K ⟨⟩))
      ⊢ wp frame (wpE (defs₀ (F := F)) Variants.none c none) E (cc2__stage3_kernel i arg1 harg1 arg2 harg2 arg3 harg3 arg4 harg4 arg5 harg5 arg6 harg6 arg7 harg7 arg8 harg8) K := by
  simp only [cc2__stage3_kernel_eq_skeleton]; unfold cc2__stage3_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2 _)
  iexists _; isplitr
  swap; · iexact H7
  ipureintro
  exact View.read_writes_eq_canon _ _ _ (cover2 _)

/-! ## The proof data -/

/-- The proof data of region 2 on core c: the arrays as the region finds them; after the body at point t each input's
    buffer at its block and each output's at its payload of the point's coordinates and input blocks; the plain
    invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (grid2.coords t) (iblk2 V c 0 t) (iblk2 V c 2 t) (iblk2 V c 3 t)
    | ⟨7, _⟩ => out2_7 (grid2.coords t) (iblk2 V c 0 t) (iblk2 V c 1 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (grid2.coords t) (iblk2 V c 0 t) (iblk2 V c 2 t) (iblk2 V c 3 t) := by dsimp only [dat2]
theorem after2_7 (c : Dev nD) (t : Fin cfg2.N) :
    (dat2 V c).after 7 t = out2_7 (grid2.coords t) (iblk2 V c 0 t) (iblk2 V c 1 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the body's run applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KI.Vals.lean ====
/-
  The contents of a core's buffers at each boundary of the program's @main (region 0, region 1, two reshapes on the
  host, region 2), as a fold from the launch memory: per region its output arrays at what its write-backs leave and
  every other buffer untouched, then the two reshapes' results. Region 1 reads one array (the embedding) through two
  windows; an input array is never written, so both windows end at the array's entry contents and the update at the
  region's arrays is still well defined there. Every buffer that no region's output window and no reshape writes ends
  as launched.
-/
import proofs.«116308_j1889785610729_2_alg».proof.Proof.KI.R0
import proofs.«116308_j1889785610729_2_alg».proof.Proof.KI.R1
import proofs.«116308_j1889785610729_2_alg».proof.Proof.KI.R2

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A valuation updated at a region's arrays, when two windows may be on one array -/

/-- A dependent function read through an equation of its arguments. -/
theorem cast_val_eq {Val : EltTy → Type} {b b' : DevRef τ sig} (f : (b : DevRef τ sig) → b.ty.Contents Val) (e : b = b') :
    cast (congrArg (fun b' : DevRef τ sig => b'.ty.Contents Val) e) (f b) = f b' := by
  subst e; rfl

/-- The updated valuation at a window's array is the window's contents, when every window on the same array has the
    same contents (read through the equation of the references). -/
theorem withArrays_arr_of {Val : EltTy → Type} {gr W : Nat} (win : Fin W → Pipeline.WinSpec sig gr) (c : Dev nD) (V : Valuation τ sig Val)
    (A : (w : Fin W) → Buf Val ((win w).arr.view.loc (c.tc : Thread nD τ))) (w : Fin W)
    (h : ∀ w' (e : Proc.devRef .tc (Pipeline.arrRef win w') = Proc.devRef (τ := τ) .tc (Pipeline.arrRef win w)),
      cast (congrArg (fun b' : DevRef τ sig => b'.ty.Contents Val) e) (A w') = A w) :
    Pipeline.withArrays win c V A (Proc.devRef .tc (Pipeline.arrRef win w)) = A w := by
  unfold Pipeline.withArrays
  have h0 : ∃ w', Proc.devRef .tc (Pipeline.arrRef win w') = Proc.devRef (τ := τ) .tc (Pipeline.arrRef win w) := ⟨w, rfl⟩
  rw [dif_pos h0]
  exact h _ h0.choose_spec

/-- The updated valuation keeps a buffer whose every window (if any) ends at the buffer's old contents. -/
theorem withArrays_keep {Val : EltTy → Type} {gr W : Nat} (win : Fin W → Pipeline.WinSpec sig gr) (c : Dev nD) (V : Valuation τ sig Val)
    (A : (w : Fin W) → Buf Val ((win w).arr.view.loc (c.tc : Thread nD τ))) (b : Ref sig .tc)
    (h : ∀ w, Pipeline.arrRef win w = b → A w = V (Proc.devRef .tc (Pipeline.arrRef win w))) :
    Pipeline.withArrays win c V A (Proc.devRef .tc b) = V (Proc.devRef .tc b) := by
  unfold Pipeline.withArrays
  split
  · rename_i hex
    have e := hex.choose_spec
    rw [h _ (Proc.devRef_injective _ e)]
    exact cast_val_eq V e
  · rfl

variable (m : (ℓ : Loc nD τ sig) → Buf (Elt F) ℓ) (ρ : Dev nD → PrngReg)

/-! ## The buffer contents at each boundary -/

/-- Core c's buffers at launch (region 0's entry). -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b
/-- After region 0 (region 1's entry): the embedding array at what the write-back leaves. -/
def W1 (c : Dev nD) : Valuation τ sig (Elt F) :=
  Pipeline.withArrays spec0 c (W0 m ρ c) fun w => (dat0 (U0 m ρ) c).arrAt w cfg0.N
abbrev U1 : (c : Dev nD) → (b : Ref sig .tc) → Buf (Elt F) ((c : Thread nD τ).loc b) := fun c b => W1 m ρ c b
/-- After region 1: its five output arrays at what the write-backs leave. -/
def W2 (c : Dev nD) : Valuation τ sig (Elt F) :=
  Pipeline.withArrays spec1 c (W1 m ρ c) fun w => (dat1 (U1 m ρ) c).arrAt w cfg1.N
abbrev U2 : (c : Dev nD) → (b : Ref sig .tc) → Buf (Elt F) ((c : Thread nD τ).loc b) := fun c b => W2 m ρ c b
/-- After the two reshapes (region 2's entry). -/
abbrev W3 : Dev nD → Valuation τ sig (Elt F) := fun c => StableHlo.after hostOps2 (W2 m ρ c)
abbrev U3 : (c : Dev nD) → (b : Ref sig .tc) → Buf (Elt F) ((c : Thread nD τ).loc b) := fun c b => W3 m ρ c b
/-- After region 2 (the end): its two output arrays at what the write-backs leave. -/
def W4 (c : Dev nD) : Valuation τ sig (Elt F) :=
  Pipeline.withArrays spec2 c (W3 m ρ c) fun w => (dat2 (U3 m ρ) c).arrAt w cfg2.N
abbrev U4 : (c : Dev nD) → (b : Ref sig .tc) → Buf (Elt F) ((c : Thread nD τ).loc b) := fun c b => W4 m ρ c b

/-! ### Region 0's exit -/

theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)
/-- Region 0 writes only the embedding's array. -/
theorem W1_keep (c : Dev nD) (b : Ref sig .tc) (hb : Pipeline.arrRef spec0 3 ≠ b) :
    W1 m ρ c (Proc.devRef .tc b) = W0 m ρ c (Proc.devRef .tc b) := by
  unfold W1
  refine withArrays_keep spec0 c _ _ b fun w e => ?_
  match w, e with
  | ⟨0, _⟩, _ => exact ((dat0 (U0 m ρ) c).arrAt_in 0 rfl _).trans (A_eq0 (U0 m ρ) c 0)
  | ⟨1, _⟩, _ => exact ((dat0 (U0 m ρ) c).arrAt_in 1 rfl _).trans (A_eq0 (U0 m ρ) c 1)
  | ⟨2, _⟩, _ => exact ((dat0 (U0 m ρ) c).arrAt_in 2 rfl _).trans (A_eq0 (U0 m ρ) c 2)
  | ⟨3, _⟩, e => exact absurd e hb

/-! ### Region 1's exit -/

/-- Two windows of region 1 on one array are the same window, or the embedding's tile and whole windows. -/
theorem arr1_cases : ∀ w w' : Fin 10, Pipeline.arrRef spec1 w' = Pipeline.arrRef spec1 w →
    w' = w ∨ (w' = 3 ∧ w = 4) ∨ (w' = 4 ∧ w = 3) := by decide

theorem arrAt1_3 (c : Dev nD) : (dat1 (U1 m ρ) c).arrAt 3 cfg1.N = U1 m ρ c (Pipeline.arrRef spec1 3) :=
  ((dat1 (U1 m ρ) c).arrAt_in 3 rfl _).trans (A_eq1 (U1 m ρ) c 3)
theorem arrAt1_4 (c : Dev nD) : (dat1 (U1 m ρ) c).arrAt 4 cfg1.N = U1 m ρ c (Pipeline.arrRef spec1 4) :=
  ((dat1 (U1 m ρ) c).arrAt_in 4 rfl _).trans (A_eq1 (U1 m ρ) c 4)

theorem W2_arr (c : Dev nD) (w : Fin cfg1.W) :
    W2 m ρ c (Proc.devRef .tc (Pipeline.arrRef spec1 w)) = (dat1 (U1 m ρ) c).arrAt w cfg1.N := by
  unfold W2
  refine withArrays_arr_of spec1 c _ _ w fun w' e => ?_
  rcases arr1_cases w w' (Proc.devRef_injective _ e) with h | ⟨h, h'⟩ | ⟨h, h'⟩
  · subst h; rfl
  · subst h; subst h'
    rw [arrAt1_3, arrAt1_4]; exact cast_val_eq (W1 m ρ c) e
  · subst h; subst h'
    rw [arrAt1_3, arrAt1_4]; exact cast_val_eq (W1 m ρ c) e
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
theorem hF1 (c : Dev nD) (w : Fin cfg1.W) : (dat1 (U1 m ρ) c).arrAt w cfg1.N = U2 m ρ c (Pipeline.arrRef spec1 w) :=
  (W2_arr m ρ c w).symm
theorem hrest1 (c : Dev nD) : ∀ b, b ∉ Finset.univ.image (Pipeline.arrRef spec1) → U2 m ρ c b = U1 m ρ c b :=
  fun b hb => W2_of_ne m ρ c b fun w e => hb (Finset.mem_image.mpr ⟨w, Finset.mem_univ _, e⟩)
/-- Region 1 writes only its five output arrays. -/
theorem W2_keep (c : Dev nD) (b : Ref sig .tc) (h5 : Pipeline.arrRef spec1 5 ≠ b) (h6 : Pipeline.arrRef spec1 6 ≠ b)
    (h7 : Pipeline.arrRef spec1 7 ≠ b) (h8 : Pipeline.arrRef spec1 8 ≠ b) (h9 : Pipeline.arrRef spec1 9 ≠ b) :
    W2 m ρ c (Proc.devRef .tc b) = W1 m ρ c (Proc.devRef .tc b) := by
  unfold W2
  refine withArrays_keep spec1 c _ _ b fun w e => ?_
  match w, e with
  | ⟨0, _⟩, _ => exact ((dat1 (U1 m ρ) c).arrAt_in 0 rfl _).trans (A_eq1 (U1 m ρ) c 0)
  | ⟨1, _⟩, _ => exact ((dat1 (U1 m ρ) c).arrAt_in 1 rfl _).trans (A_eq1 (U1 m ρ) c 1)
  | ⟨2, _⟩, _ => exact ((dat1 (U1 m ρ) c).arrAt_in 2 rfl _).trans (A_eq1 (U1 m ρ) c 2)
  | ⟨3, _⟩, _ => exact ((dat1 (U1 m ρ) c).arrAt_in 3 rfl _).trans (A_eq1 (U1 m ρ) c 3)
  | ⟨4, _⟩, _ => exact ((dat1 (U1 m ρ) c).arrAt_in 4 rfl _).trans (A_eq1 (U1 m ρ) c 4)
  | ⟨5, _⟩, e => exact absurd e h5
  | ⟨6, _⟩, e => exact absurd e h6
  | ⟨7, _⟩, e => exact absurd e h7
  | ⟨8, _⟩, e => exact absurd e h8
  | ⟨9, _⟩, e => exact absurd e h9

/-! ### The reshapes, and region 2's exit -/

/-- The reshapes write only their two results. -/
theorem W3_keep (c : Dev nD) (b : Ref sig .tc) (h2 : b ≠ main_v2) (h3 : b ≠ main_v3) :
    W3 m ρ c (Proc.devRef .tc b) = W2 m ρ c (Proc.devRef .tc b) :=
  StableHlo.after_of_forall_not_mem (b := Proc.devRef .tc b) _ _ (List.forall_iff_forall_mem.mp (by
    simp only [hostOps2, List.Forall, StableHlo.reshape_writes, Finset.mem_singleton]
    exact ⟨StableHlo.devRef_ne_of_ne h2, StableHlo.devRef_ne_of_ne h3⟩))

theorem W4_arr (c : Dev nD) (w : Fin cfg2.W) :
    W4 m ρ c (Proc.devRef .tc (Pipeline.arrRef spec2 w)) = (dat2 (U3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem hF2 (c : Dev nD) (w : Fin cfg2.W) : (dat2 (U3 m ρ) c).arrAt w cfg2.N = U4 m ρ c (Pipeline.arrRef spec2 w) :=
  (W4_arr m ρ c w).symm
theorem hrest2 (c : Dev nD) : ∀ b, b ∉ Finset.univ.image (Pipeline.arrRef spec2) → U4 m ρ c b = U3 m ρ c b :=
  fun b hb => W4_of_ne m ρ c b fun w e => hb (Finset.mem_image.mpr ⟨w, Finset.mem_univ _, e⟩)
/-- Region 2 writes only its two output arrays. -/
theorem W4_keep (c : Dev nD) (b : Ref sig .tc) (h6 : Pipeline.arrRef spec2 6 ≠ b) (h7 : Pipeline.arrRef spec2 7 ≠ b) :
    W4 m ρ c (Proc.devRef .tc b) = W3 m ρ c (Proc.devRef .tc b) := by
  unfold W4
  refine withArrays_keep spec2 c _ _ b fun w e => ?_
  match w, e with
  | ⟨0, _⟩, _ => exact ((dat2 (U3 m ρ) c).arrAt_in 0 rfl _).trans (A_eq2 (U3 m ρ) c 0)
  | ⟨1, _⟩, _ => exact ((dat2 (U3 m ρ) c).arrAt_in 1 rfl _).trans (A_eq2 (U3 m ρ) c 1)
  | ⟨2, _⟩, _ => exact ((dat2 (U3 m ρ) c).arrAt_in 2 rfl _).trans (A_eq2 (U3 m ρ) c 2)
  | ⟨3, _⟩, _ => exact ((dat2 (U3 m ρ) c).arrAt_in 3 rfl _).trans (A_eq2 (U3 m ρ) c 3)
  | ⟨4, _⟩, _ => exact ((dat2 (U3 m ρ) c).arrAt_in 4 rfl _).trans (A_eq2 (U3 m ρ) c 4)
  | ⟨5, _⟩, _ => exact ((dat2 (U3 m ρ) c).arrAt_in 5 rfl _).trans (A_eq2 (U3 m ρ) c 5)
  | ⟨6, _⟩, e => exact absurd e h6
  | ⟨7, _⟩, e => exact absurd e h7

/-- A buffer no region writes and no reshape writes ends as launched. -/
theorem W4_launch (c : Dev nD) (b : Ref sig .tc) (h0 : Pipeline.arrRef spec0 3 ≠ b)
    (h15 : Pipeline.arrRef spec1 5 ≠ b) (h16 : Pipeline.arrRef spec1 6 ≠ b) (h17 : Pipeline.arrRef spec1 7 ≠ b)
    (h18 : Pipeline.arrRef spec1 8 ≠ b) (h19 : Pipeline.arrRef spec1 9 ≠ b) (hv2 : b ≠ main_v2) (hv3 : b ≠ main_v3)
    (h26 : Pipeline.arrRef spec2 6 ≠ b) (h27 : Pipeline.arrRef spec2 7 ≠ b) :
    W4 m ρ c (Proc.devRef .tc b) = m ((c : Thread nD τ).loc b) :=
  (W4_keep m ρ c b h26 h27).trans <| (W3_keep m ρ c b hv2 hv3).trans <|
    (W2_keep m ρ c b h15 h16 h17 h18 h19).trans <| (W1_keep m ρ c b h0).trans rfl

end Cert.KernelIdeal.Frame

end
-- ==== Proof.KI.R1Arrays.lean ====
import proofs.«116308_j1889785610729_2_alg».proof.Proof.KI.R1

-- membership in a rectangle of these extents is decided by a structural recursion one step per coordinate
-- of the long axis
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call's arrays among the core's unscoped buffers

The call's ten windows are on NINE buffers: the embedding is behind two input windows (its 128-row tile and the whole
array). The pipeline holds each window's array separately, so the embedding's one buffer is split between the two
windows, each holding one of two complementary halves of it (`share1`); a points-to at the whole is the two at the
halves, both ways. Entering the region takes the nine buffers out of the core's unscoped buffers and deals them to
the ten windows; leaving it puts them back. -/

section Region
variable (V : (c : Dev nD) → (b : Ref sig .tc) → Buf (Elt F) ((c : Thread nD τ).loc b))

/-! ## The share each window's array is held at -/

theorem share1_0 (c : Dev nD) : (dat1 V c).share 0 = fullShare := rfl
theorem share1_1 (c : Dev nD) : (dat1 V c).share 1 = fullShare := rfl
theorem share1_2 (c : Dev nD) : (dat1 V c).share 2 = fullShare := rfl
theorem share1_3 (c : Dev nD) : (dat1 V c).share 3 = fullShare.left := rfl
theorem share1_4 (c : Dev nD) : (dat1 V c).share 4 = fullShare.right := rfl
theorem share1_5 (c : Dev nD) : (dat1 V c).share 5 = fullShare := rfl
theorem share1_6 (c : Dev nD) : (dat1 V c).share 6 = fullShare := rfl
theorem share1_7 (c : Dev nD) : (dat1 V c).share 7 = fullShare := rfl
theorem share1_8 (c : Dev nD) : (dat1 V c).share 8 = fullShare := rfl
theorem share1_9 (c : Dev nD) : (dat1 V c).share 9 = fullShare := rfl

/-! ## The two sides, listed -/

/-- The distinct buffers behind the ten windows' arrays, each whole at contents `W`: nine of them. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg1) ↦{fullShare} W main_arg1)
        ∗ (((c : Thread nD τ).loc main_arg2) ↦{fullShare} W main_arg2)
        ∗ (((c : Thread nD τ).loc main_arg3) ↦{fullShare} W main_arg3)
        ∗ (((c : Thread nD τ).loc main_v0) ↦{fullShare} W main_v0)
        ∗ (((c : Thread nD τ).loc main_v1_0) ↦{fullShare} W main_v1_0)
        ∗ (((c : Thread nD τ).loc main_v1_1) ↦{fullShare} W main_v1_1)
        ∗ (((c : Thread nD τ).loc main_v1_2) ↦{fullShare} W main_v1_2)
        ∗ (((c : Thread nD τ).loc main_v1_3) ↦{fullShare} W main_v1_3)
        ∗ (((c : Thread nD τ).loc main_v1_4) ↦{fullShare} W main_v1_4)) := by
  unfold Pipeline.arrBufs
  exact bigSep_eq_bigSepL_of_eq [main_arg1, main_arg2, main_arg3, main_v0, main_v1_0, main_v1_1, main_v1_2, main_v1_3, main_v1_4] (by decide) (by decide) _

/-- The pipeline's arrays at contents read off a valuation `W` (`hG`), window by window: ten points-tos on the
    nine buffers, the embedding's twice, at the two halves (each array is a whole buffer, so the elements it
    places are all of the buffer's). -/
theorem arrays1_eq (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    ((dat1 V c).arrays G : sProp 𝕄)
      = iprop((((c : Thread nD τ).loc main_arg1) ↦{fullShare} W main_arg1)
        ∗ (((c : Thread nD τ).loc main_arg2) ↦{fullShare} W main_arg2)
        ∗ (((c : Thread nD τ).loc main_arg3) ↦{fullShare} W main_arg3)
        ∗ (((c : Thread nD τ).loc main_v0) ↦{fullShare.left} W main_v0)
        ∗ (((c : Thread nD τ).loc main_v0) ↦{fullShare.right} W main_v0)
        ∗ (((c : Thread nD τ).loc main_v1_0) ↦{fullShare} W main_v1_0)
        ∗ (((c : Thread nD τ).loc main_v1_1) ↦{fullShare} W main_v1_1)
        ∗ (((c : Thread nD τ).loc main_v1_2) ↦{fullShare} W main_v1_2)
        ∗ (((c : Thread nD τ).loc main_v1_3) ↦{fullShare} W main_v1_3)
        ∗ (((c : Thread nD τ).loc main_v1_4) ↦{fullShare} W main_v1_4)) := by
  unfold Dat.arrays
  rw [bigSep_W1]
  simp only [View.set_whole, hG, share1_0, share1_1, share1_2, share1_3, share1_4, share1_5, share1_6, share1_7, share1_8, share1_9]

/-! ## Dealing the buffers to the windows, and collecting them -/

/-- The nine buffers whole are the ten windows' arrays: the embedding's whole share is halved. -/
theorem arrays1_of_arrBufs1 (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    (Pipeline.arrBufs (Ix := Unit) (Name := ℕ) (U := UR sig nD τ) (Lvl := ℕ) spec1 c W : sProp 𝕄) ⊢ (dat1 V c).arrays G := by
  rw [arrBufs1_eq, arrays1_eq V c W G hG]
  iintro ⟨Ha1, Ha2, Ha3, Hv0, Ho0, Ho1, Ho2, Ho3, Ho4⟩
  ihave Hs := (pointsTo_share (PosShare.mem_left_op_right fullShare)).1 $$ Hv0
  icases Hs with ⟨Hl, Hr⟩
  isplitl [Ha1]; · iexact Ha1
  isplitl [Ha2]; · iexact Ha2
  isplitl [Ha3]; · iexact Ha3
  isplitl [Hl]; · iexact Hl
  isplitl [Hr]; · iexact Hr
  isplitl [Ho0]; · iexact Ho0
  isplitl [Ho1]; · iexact Ho1
  isplitl [Ho2]; · iexact Ho2
  isplitl [Ho3]; · iexact Ho3
  iexact Ho4

/-- The ten windows' arrays are the nine buffers whole: the embedding's two halves are joined. -/
theorem arrBufs1_of_arrays1 (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    ((dat1 V c).arrays G : sProp 𝕄) ⊢ Pipeline.arrBufs (Ix := Unit) (Name := ℕ) (U := UR sig nD τ) (Lvl := ℕ) spec1 c W := by
  rw [arrBufs1_eq, arrays1_eq V c W G hG]
  iintro ⟨Ha1, Ha2, Ha3, Hl, Hr, Ho0, Ho1, Ho2, Ho3, Ho4⟩
  isplitl [Ha1]; · iexact Ha1
  isplitl [Ha2]; · iexact Ha2
  isplitl [Ha3]; · iexact Ha3
  isplitl [Hl Hr]
  · iapply (pointsTo_share (PosShare.mem_left_op_right fullShare)).2
    isplitl [Hl]; · iexact Hl
    iexact Hr
  isplitl [Ho0]; · iexact Ho0
  isplitl [Ho1]; · iexact Ho1
  isplitl [Ho2]; · iexact Ho2
  isplitl [Ho3]; · iexact Ho3
  iexact Ho4

/-! ## Entry and exit -/

/-- ENTRY: the core's unscoped buffers at the entry contents are the pipeline's arrays at the proof data's entry
    contents and the unscoped rest. -/
theorem entry1 (c : Dev nD) :
    (unscopedBufs c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ cfgs 1 winFacts₀1.arr_unscoped c (V c)]
  exact sep_mono (arrays1_of_arrBufs1 V c (V c) _ fun w => by rw [show (dat1 V c).arrAt w 0 = (dat1 V c).A w from rfl, A_eq1]) .rfl

/-- EXIT: the pipeline's arrays at what its write-backs leave and the unscoped rest are the core's unscoped buffers
    at any valuation `V'` that has the arrays at those contents and agrees with the entry contents off them. -/
theorem exit1 (c : Dev nD) (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c V' : sProp 𝕄) := by
  rw [Pipeline.unscopedBufs_split₀ cfgs 1 winFacts₀1.arr_unscoped c V']
  refine sep_mono (arrBufs1_of_arrays1 V c V' _ hF) (Entails.of_eq ?_)
  unfold Pipeline.unscopedRest
  exact bigSep_congr fun b hb => by rw [hrest b (Finset.mem_sdiff.mp hb).2]

/-- An input window's array is never written: at every point it holds the entry contents. In particular the two
    windows on the embedding both end at the embedding's entry contents. -/
theorem arrAt1_in (c : Dev nD) (w : Fin cfg1.W) (hin : (cfg1.win w).isOut = false) (n : ℕ) :
    (dat1 V c).arrAt w n = V c (Pipeline.arrRef spec1 w) :=
  ((dat1 V c).arrAt_in w hin n).trans (A_eq1 V c w)

end Region

end Cert.KernelIdeal.Frame
-- ==== Proof.KI.Run.lean ====
/-
  The run of the whole program: its @main is region 0, region 1, two reshapes on the host, region 2. At any float
  instance, from any memory with zero counters, every weakly fair execution terminates, nothing faulting, and the
  final memory holds every unscoped buffer of each core at the last boundary's valuation.

  Each region is a segment whose thread state is "every unscoped buffer of the core at the boundary's valuation, the
  generator register at some state, nothing owed". At a region's entry the windows' arrays are split out of the
  unscoped buffers and at its exit put back at the valuation updated at the arrays. Region 1 reads one array (the
  embedding) through two windows, so there the two windows hold complementary halves of the array's permission; an
  input array is never written, so both windows end at the entry contents and the halves rejoin.
-/
import proofs.«116308_j1889785610729_2_alg».proof.Proof.KI.Vals
import proofs.«116308_j1889785610729_2_alg».proof.Proof.KI.R1Arrays

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pallas_call has a prefetched table. -/
abbrev adm' : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm' p) c
  | ⟨0, _⟩ => fun c => dat0 (U0 m ρ) c
  | ⟨1, _⟩ => fun c => dat1 (U1 m ρ) c
  | ⟨2, _⟩ => fun c => dat2 (U3 m ρ) c
abbrev 𝒱' : Variants := Variants.none
/-- No core owes another anything: no level is assigned. -/
abbrev L' : GSem nD τ sig → Finset Unit := fun _ => ∅
abbrev lv' : GSem nD τ sig → Unit → ℕ := fun _ _ => 0
/-- What rides beside the buffers through every segment: the generator register at some state, nothing owed. -/
abbrev R' (c : Dev nD) : sProp 𝕄 := iprop((∃ r, prngReg c r) ∗ ∃ W, owes (c : Thread nD τ) (0 : CellTallies nD τ sig Unit) W)

theorem hostOps2_fresh' : (hostOps2 : List (HloOp τ sig (Elt F))).Forall fun op => op.fresh = ∅ := by
  simp only [List.Forall]; repeat' constructor

/-- The two reshapes as a segment over the unscoped buffers from region 1's exit contents. -/
abbrev hseg2 : Pipeline.HostSeg (Name := ℕ) (U := UR sig nD τ) (pcfgs (F := F)) defs₀ 𝒱' L' lv' :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh') op h) (W2 m ρ) R'

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes: every unscoped buffer at the last valuation, the register at some state. -/
abbrev Tend (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: its arrays split out of the unscoped buffers at entry and put back at the exit
    contents; the generator register into the plain invariant and out; nothing owed; no semaphore of the kernel's own. -/
def reg0 : Pipeline.RegionSeg (pcfgs (F := F)) adm' (pdats m ρ) () defs₀ 𝒱' L' lv' 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L' lv' 0 fun _ _ => rfl
  pre c := iprop(StableHlo.held (c : Thread nD τ) (Pipeline.ucRefs τ sig) (W0 m ρ c) ∗ R' c)
  post c := iprop(StableHlo.held (c : Thread nD τ) (Pipeline.ucRefs τ sig) (W1 m ρ c) ∗ R' c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at entry and put back at the exit
    contents; the generator register into the plain invariant and out; nothing owed; no semaphore of the kernel's own. -/
def reg1 : Pipeline.RegionSeg (pcfgs (F := F)) adm' (pdats m ρ) () defs₀ 𝒱' L' lv' 1 where
  win := winFacts₀1
  block_pos := block_pos1
  stage_whole := stage_whole1
  K := PEmpty
  osem k := k.elim
  ho := Pipeline.OwnSemFacts.none _
  hbody c := (body_obligation1 (U1 m ρ) c).loose
  hwaits := Pipeline.hwaits_of_owed_zero _ _ _ _ L' lv' 1 fun _ _ => rfl
  pre c := iprop(StableHlo.held (c : Thread nD τ) (Pipeline.ucRefs τ sig) (W1 m ρ c) ∗ R' c)
  post c := iprop(StableHlo.held (c : Thread nD τ) (Pipeline.ucRefs τ sig) (W2 m ρ c) ∗ R' c)
  X c := iprop(∃ r, prngReg c r)
  Y c := iprop(∃ r, prngReg c r)
  Z c := Pipeline.unscopedRest (Ix := Unit) (Name := ℕ) (U := UR sig nD τ) (Lvl := ℕ) spec1 c (U1 m ρ c)
  hentry c := by
    rw [Pipeline.ownSems0_none]
    have hsplit : (unscopedBufs c (U1 m ρ c) : sProp 𝕄) ⊢ iprop((pdats m ρ 1 c).arrays ((pdats m ρ 1 c).arrAt · 0)
        ∗ Pipeline.unscopedRest (Ix := Unit) (Name := ℕ) (U := UR sig nD τ) (Lvl := ℕ) spec1 c (U1 m ρ c)) := entry1 (U1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
        ∗ Pipeline.unscopedRest (Ix := Unit) (Name := ℕ) (U := UR sig nD τ) (Lvl := ℕ) spec1 c (U1 m ρ c)) ⊢ (unscopedBufs c (U2 m ρ c) : sProp 𝕄) :=
      exit1 (U1 m ρ) c (U2 m ρ c) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers at entry and put back at the exit
    contents; the generator register into the plain invariant and out; nothing owed; no semaphore of the kernel's own. -/
def reg2 : Pipeline.RegionSeg (pcfgs (F := F)) adm' (pdats m ρ) () defs₀ 𝒱' L' lv' 2 where
  win := launch2.win.to₀
  block_pos := launch2.block_pos
  stage_whole := launch2.stage_whole
  K := PEmpty
  osem k := k.elim
  ho := Pipeline.OwnSemFacts.none _
  hbody c := (body_obligation2 (U3 m ρ) c).loose
  hwaits := Pipeline.hwaits_of_owed_zero _ _ _ _ L' lv' 2 fun _ _ => rfl
  pre c := iprop(StableHlo.held (c : Thread nD τ) (Pipeline.ucRefs τ sig) (W3 m ρ c) ∗ R' c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (U3 m ρ c) (U4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱' L' lv') :=
  [ .region (reg0 m ρ), .region (reg1 m ρ), .host (hseg2 m ρ), .region (reg2 m ρ) ]

/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱' L' lv' m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R' c)) (Tₙ := Tend m ρ)
    (hch := ⟨fun _ => .rfl, fun _ => .rfl, fun _ => .rfl, fun _ => .rfl, fun _ => .rfl⟩)
    (hinit := by
      refine Pipeline.initEach L' lv' fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
    (h c _ (mem_uc main_arg0 (by decide))).trans (W4_launch m ρ c main_arg0 (by decide) (by decide) (by decide) (by decide) (by decide) (by decide) (by decide) (by decide) (by decide) (by decide)),
    (h c _ (mem_uc main_arg1 (by decide))).trans (W4_launch m ρ c main_arg1 (by decide) (by decide) (by decide) (by decide) (by decide) (by decide) (by decide) (by decide) (by decide) (by decide)),
    (h c _ (mem_uc main_arg2 (by decide))).trans (W4_launch m ρ c main_arg2 (by decide) (by decide) (by decide) (by decide) (by decide) (by decide) (by decide) (by decide) (by decide) (by decide)),
    (h c _ (mem_uc main_arg3 (by decide))).trans (W4_launch m ρ c main_arg3 (by decide) (by decide) (by decide) (by decide) (by decide) (by decide) (by decide) (by decide) (by decide) (by decide)),
    (h c _ (mem_uc main_arg4 (by decide))).trans (W4_launch m ρ c main_arg4 (by decide) (by decide) (by decide) (by decide) (by decide) (by decide) (by decide) (by decide) (by decide) (by decide)),
    (h c _ (mem_uc main_arg5 (by decide))).trans (W4_launch m ρ c main_arg5 (by decide) (by decide) (by decide) (by decide) (by decide) (by decide) (by decide) (by decide) (by decide) (by decide))⟩)
    (run_all m ρ)

end Cert.KernelIdeal.Frame

end
-- ==== Proof.LibCompareBit.lean ====
/-
  A comparison's bit as a float, at the ideal instance.

  A float comparison yields a one-bit word, and a program turns that word into a float in one of two ways: on the
  host the one-bit word is converted as an unsigned integer (a convert from i1 to a float type); in a kernel it is
  zero-extended to 32 bits and the result converted as a signed integer (an extension followed by a signed
  conversion). At the ideal instance both are the extended real 1 when the comparison holds and 0 when it does not
  (`cmpBit`), for every predicate and every float type: a one-bit word is 0 or 1, and zero-extending either to 32
  bits leaves a nonnegative word whose signed and unsigned readings agree.
-/
import Idealize.ShloMosaic.PureOps.Ideal
import Idealize.ShloMosaic.PureOps.Ideal.Laws

noncomputable section

namespace Idealize.ShloMosaic.CompareBit

open Idealize.ShloMosaic

/-- The bit of the comparison p u v as the extended real 1 or 0: the comparison's one-bit word read unsigned. -/
def cmpBit (p : CmpFPredicate) (u v : EReal) : EReal := (((Ideal.cmp p u v).toNat : ℝ) : EReal)

/-- A one-bit word zero-extended to 32 bits and read signed is the word read unsigned. -/
theorem bit_signed_eq (b : BitVec 1) : ((((b.setWidth 32).toInt : ℤ) : ℝ) : EReal) = (((b.toNat : ℕ) : ℝ) : EReal) := by
  have h : (b.setWidth 32).toInt = ((b.toNat : ℕ) : ℤ) := by
    rcases BitVec.eq_zero_or_eq_one b with rfl | rfl <;> decide
  rw [h, Int.cast_natCast]

/-- A kernel's spelling of the bit: compare, zero-extend to 32 bits, convert as a signed integer. -/
theorem signed {φ ψ : FTy} (p : CmpFPredicate) (u v : EReal) :
    FloatOps.sitofp (F := Ideal) φ ((FloatOps.cmpf (F := Ideal) (φ := ψ) p u v).setWidth 32) = cmpBit p u v :=
  bit_signed_eq _

/-- The host's spelling of the bit: compare, convert the one-bit word as an unsigned integer. -/
theorem unsigned {φ ψ : FTy} (p : CmpFPredicate) (u v : EReal) :
    FloatOps.uitofp (F := Ideal) φ (FloatOps.cmpf (F := Ideal) (φ := ψ) p u v) = cmpBit p u v := rfl

end Idealize.ShloMosaic.CompareBit

end
-- ==== Proof.Spec.lean ====
/-
  The five results as functions of the six argument arrays, on the extended reals, index by index.

  With e = max(f·W + b, 0) the node embedding (a 4096 × 128 array), s(r,c) = Σ_h e(r,h)·e(c,h) the pair score,
  n(x) the bit of x ≠ 0 as a number, q = n(adj) + n(adj2) the edge multiplicity and k the bit of q > 0 (the union
  of the two supports), the gate is σ = logistic((log ε − log(1 + (0 − ε)) + s·q) / 1) with ε = c₁·u + c₂, and

    w_lp = σ·k,   w_hp = (1 − σ)·k,
    d_lp(r) = Σ_c w_lp(r,c) + 1,   d_hp(r) = Σ_c w_hp(r,c) + 1,
    adj_lp(r,c) = (w_lp(r,c) + δ(r,c)) · rsqrt(d_lp(r) + η) · rsqrt(d_lp(c) + η),
    adj_hp(r,c) = δ(r,c) − (w_hp(r,c) + δ(r,c)) · rsqrt(d_hp(r) + η) · rsqrt(d_hp(c) + η) · (w_lp(r,c) + w_hp(r,c)) · α.

  The arrangement is the one a row-blocked evaluation uses: the degree is the row sum of w plus one (rather than the
  row sum of w + δ), and the edge mask in adj_hp is recovered as w_lp + w_hp. Two laws join it to the other
  arrangement: Σ_c (w(r,c) + δ(r,c)) = Σ_c w(r,c) + 1, a rearrangement of a finite sum in a commutative monoid,
  and σ·k + (1 − σ)·k = k, which holds because a logistic value is a real number and k is 0 or 1.
  Float literals stay the words the programs spell; only 0 and 1 are ever evaluated.
-/
import Idealize.ShloMosaic.PureOps.Ideal
import Idealize.ShloMosaic.PureOps.Ideal.Laws
import Idealize.ShloMosaic.Lib.ValueIdx
import proofs.«116308_j1889785610729_2_alg».proof.Proof.LibCompareBit

noncomputable section

namespace Cert.EdgeSpec

open Idealize.ShloMosaic Idealize.ShloMosaic.CompareBit

/-- An a × b array of extended reals by coordinates. -/
abbrev Mat (a b : ℕ) : Type := Fin a → Fin b → EReal

/-- The literal words of the two programs. -/
abbrev w0 : EReal := Ideal.ofBits .f32 0x00000000#32
abbrev w1 : EReal := Ideal.ofBits .f32 0x3F800000#32
abbrev wc1 : EReal := Ideal.ofBits .f32 0xBF7FF2E5#32
abbrev wc2 : EReal := Ideal.ofBits .f32 0x3F7FF972#32
abbrev wEta : EReal := Ideal.ofBits .f32 0x2EDBE6FF#32
abbrev wAlpha : EReal := Ideal.ofBits .f32 0x3DCCCCCD#32

theorem w0_eq : w0 = 0 := by simp [w0, Ideal.ofBits, Ideal.ieee]
theorem w1_eq : w1 = 1 := by simp [w1, Ideal.ofBits, Ideal.ieee, -EReal.coe_mul]; norm_num

/-- The node embedding: relu of the affine map. -/
def emb (f : Mat 4096 512) (W : Mat 512 128) (b : Fin 128 → EReal) : Mat 4096 128 :=
  fun r h => max ((∑ k : Fin 512, f r k * W k h) + b h) w0

/-- The pair score: the inner product of two nodes' embeddings. -/
def score (e : Mat 4096 128) : Mat 4096 4096 := fun r c => ∑ h : Fin 128, e r h * e c h

/-- The edge multiplicity: how many of the two adjacencies hold the pair. -/
def mult (a a2 : Mat 4096 4096) : Mat 4096 4096 := fun r c => cmpBit .one (a r c) w0 + cmpBit .one (a2 r c) w0

/-- The edge mask: the pair is in at least one adjacency. -/
def mask (a a2 : Mat 4096 4096) : Mat 4096 4096 := fun r c => cmpBit .ogt (mult a a2 r c) w0

/-- The noise, moved into [c₁ + c₂, c₂]. -/
def eps (u : Mat 4096 4096) : Mat 4096 4096 := fun r c => wc1 * u r c + wc2

/-- The gate's argument. -/
def gate (e : Mat 4096 128) (a a2 u : Mat 4096 4096) : Mat 4096 4096 := fun r c =>
  Ideal.div ((Ideal.log (eps u r c) - Ideal.log1p (w0 - eps u r c)) + score e r c * mult a a2 r c) w1

/-- The gate. -/
def sg (e : Mat 4096 128) (a a2 u : Mat 4096 4096) : Mat 4096 4096 := fun r c => Ideal.logistic (gate e a a2 u r c)

def wlp (e : Mat 4096 128) (a a2 u : Mat 4096 4096) : Mat 4096 4096 := fun r c => sg e a a2 u r c * mask a a2 r c
def whp (e : Mat 4096 128) (a a2 u : Mat 4096 4096) : Mat 4096 4096 := fun r c => (w1 - sg e a a2 u r c) * mask a a2 r c

/-- The degree of a weight matrix with the self loop: the row sum plus one. -/
def deg (w : Mat 4096 4096) : Fin 4096 → EReal := fun r => (∑ c : Fin 4096, w r c) + w1

/-- The identity matrix's entry. -/
def delta (r c : Fin 4096) : EReal := if r = c then 1 else 0

/-- Symmetric normalisation of w + δ by the degrees d. -/
def symNorm (w : Mat 4096 4096) (d : Fin 4096 → EReal) : Mat 4096 4096 := fun r c =>
  ((w r c + delta r c) * Ideal.rsqrt (d r + wEta)) * Ideal.rsqrt (d c + wEta)

def adjLp (e : Mat 4096 128) (a a2 u : Mat 4096 4096) : Mat 4096 4096 :=
  symNorm (wlp e a a2 u) (deg (wlp e a a2 u))

def adjHp (e : Mat 4096 128) (a a2 u : Mat 4096 4096) : Mat 4096 4096 := fun r c =>
  delta r c - ((symNorm (whp e a a2 u) (deg (whp e a a2 u)) r c) * (wlp e a a2 u r c + whp e a a2 u r c)) * wAlpha

/-! ## Arrays and coordinates -/

open Idealize.ShloMosaic.ValueIdx

/-- A rank-2 array of extended reals by coordinates, a rank-1 array by its coordinate, and back. -/
def toMat {a b : ℕ} (x : (⟨2, ![a, b]⟩ : Shape).Idx → EReal) : Mat a b := fun r c => x (ix2 r c)
def toVec {a : ℕ} (x : (⟨1, ![a]⟩ : Shape).Idx → EReal) : Fin a → EReal := fun r => x (ix1 r)
def ofMat {a b : ℕ} (g : Mat a b) : (⟨2, ![a, b]⟩ : Shape).Idx → EReal := fun i => g (i 0) (i 1)

theorem ofMat_ix2 {a b : ℕ} (g : Mat a b) (r : Fin a) (c : Fin b) : ofMat g (ix2 r c) = g r c := rfl
theorem toMat_ofMat {a b : ℕ} (g : Mat a b) : toMat (ofMat g) = g := rfl
theorem ofMat_toMat {a b : ℕ} (x : (⟨2, ![a, b]⟩ : Shape).Idx → EReal) : ofMat (toMat x) = x := by
  funext i; rw [eq_ix2 i]; rfl

/-- The embedding of the argument arrays, as an array. -/
def embArr (f : (⟨2, ![4096, 512]⟩ : Shape).Idx → EReal) (W : (⟨2, ![512, 128]⟩ : Shape).Idx → EReal)
    (b : (⟨1, ![128]⟩ : Shape).Idx → EReal) : (⟨2, ![4096, 128]⟩ : Shape).Idx → EReal :=
  ofMat (emb (toMat f) (toMat W) (toVec b))

section Results
variable (f : (⟨2, ![4096, 512]⟩ : Shape).Idx → EReal) (a a2 u : (⟨2, ![4096, 4096]⟩ : Shape).Idx → EReal)
  (W : (⟨2, ![512, 128]⟩ : Shape).Idx → EReal) (b : (⟨1, ![128]⟩ : Shape).Idx → EReal)

/-- The five results as arrays, from the six argument arrays (in the programs' argument order: features, adj,
    adj_two_order, eps_rand, W1, b1). -/
def resAdjLp : (⟨2, ![4096, 4096]⟩ : Shape).Idx → EReal :=
  ofMat (adjLp (emb (toMat f) (toMat W) (toVec b)) (toMat a) (toMat a2) (toMat u))
def resAdjHp : (⟨2, ![4096, 4096]⟩ : Shape).Idx → EReal :=
  ofMat (adjHp (emb (toMat f) (toMat W) (toVec b)) (toMat a) (toMat a2) (toMat u))
def resWlp : (⟨2, ![4096, 4096]⟩ : Shape).Idx → EReal :=
  ofMat (wlp (emb (toMat f) (toMat W) (toVec b)) (toMat a) (toMat a2) (toMat u))
def resWhp : (⟨2, ![4096, 4096]⟩ : Shape).Idx → EReal :=
  ofMat (whp (emb (toMat f) (toMat W) (toVec b)) (toMat a) (toMat a2) (toMat u))
def resMask : (⟨2, ![4096, 4096]⟩ : Shape).Idx → EReal :=
  ofMat (mask (toMat a) (toMat a2))
end Results

end Cert.EdgeSpec

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.Pay0.lean ====
/-
  The first kernel's stored value read at an index, on the extended reals: the product of the feature block with the
  weight block into a zero accumulator, plus the bias spread over the rows, cut below at zero.
-/
import proofs.«116308_j1889785610729_2_alg».proof.Proof.Gen.KernelIdeal.Skeleton
import proofs.«116308_j1889785610729_2_alg».proof.Proof.Spec
import proofs.«116308_j1889785610729_2_alg».proof.Proof.LibMatmulRows
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen Cert.EdgeSpec

/-- The free axes of the product's dimension numbers: the left operand's axis 0 follows the result's axis 0. -/
theorem dot0_lhs_free (i : S4096x128.Idx) (q : dot_S4096x512_S512x128_S4096x128_1_0_0_1_n_n.contr.Idx) :
    (dot_S4096x512_S512x128_S4096x128_1_0_0_1_n_n.lhsIdx i q 0).val = (i 0).val := by
  unfold DotDims.lhsIdx
  rw [dif_neg (show ¬(0 : Fin S4096x512.rank) ∈ dot_S4096x512_S512x128_S4096x128_1_0_0_1_n_n.lhsBatch by decide),
    dif_pos (show (0 : Fin S4096x512.rank) ∈ dot_S4096x512_S512x128_S4096x128_1_0_0_1_n_n.lhsNonContracting by decide)]
  rfl

/-- The right operand's axis 1 follows the result's axis 1. -/
theorem dot0_rhs_free (i : S4096x128.Idx) (q : dot_S4096x512_S512x128_S4096x128_1_0_0_1_n_n.contr.Idx) :
    (dot_S4096x512_S512x128_S4096x128_1_0_0_1_n_n.rhsIdx i q 1).val = (i 1).val := by
  unfold DotDims.rhsIdx
  rw [dif_neg (show ¬(1 : Fin S512x128.rank) ∈ dot_S4096x512_S512x128_S4096x128_1_0_0_1_n_n.rhsBatch by decide),
    dif_pos (show (1 : Fin S512x128.rank) ∈ dot_S4096x512_S512x128_S4096x128_1_0_0_1_n_n.rhsNonContracting by decide)]
  rfl

/-- The stored value at row r and column h: the row of features against the column of weights, plus the bias at h,
    cut below at zero. The bias reaches every row through a one-row reshape and a row broadcast. -/
theorem k0_pay1_at (v0 : Vec Ideal S4096x512 .f32) (v1 : Vec Ideal S512x128 .f32) (v2 : Vec Ideal S128 .f32)
    (r : Fin 4096) (h : Fin 128) :
    k0_pay1 (F := Ideal) v0 v1 v2 (ix2 r h) = emb (toMat v0) (toMat v1) (toVec v2) r h := by
  unfold k0_pay1
  rw [maximumf_apply, addf_apply, broadcast_apply, broadcastTo_1b_ab_apply, shapeCast_a_1a_apply]
  refine congrArg (fun x => max (x + v2 (ix1 h)) _) ?_
  exact MatmulRows.matmul_zero_apply (φ₁ := .f32) (φ₂ := .f32) dot_S4096x512_S512x128_S4096x128_1_0_0_1_n_n none rfl rfl rfl rfl
    dot0_lhs_free dot0_rhs_free v0 v1 (ix2 r h)

end Cert.KernelIdeal.Pay

end
-- ==== Proof.KV0.lean ====
/-
  What the embedding array holds after region 0, on the extended reals, as one function of the three argument arrays
  as the region finds them. The region has one grid point and every window's block is its whole array, so each input
  block is its array and the one block written back is the whole result: the relu of the affine map, entry by entry.
-/
import proofs.«116308_j1889785610729_2_alg».proof.Proof.KI.R0
import proofs.«116308_j1889785610729_2_alg».proof.Proof.Pay0
import proofs.«116308_j1889785610729_2_alg».proof.Proof.Spec
import Idealize.ShloMosaic.Lib.Pipeline.Value
import Idealize.ShloMosaic.Lib.ValueIdx

noncomputable section

namespace Cert.KernelIdeal.KV

open Cert.KernelIdeal Cert.KernelIdeal.Gen Cert.KernelIdeal.Frame Cert.KernelIdeal.Pay Cert.EdgeSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps at the one grid point: every block index is zero. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0 :=
  (by decide +kernel : ∀ t : Fin grid0.N, _)

/-- The feature window's block is the feature array. -/
theorem iblk0_0_eq (c : Dev nD) (t : Fin cfg0.N) : (iblk0 V c 0 t : Vec Ideal S4096x512 .f32) = V c main_arg0 := by
  obtain ⟨e0, e1, -⟩ := idx_facts0 t
  funext j
  unfold iblk0
  rw [View.read_apply]
  show V c main_arg0 _ = V c main_arg0 _
  refine congrArg (V c main_arg0) (funext fun a => Fin.ext ?_)
  match a with
  | ⟨0, _⟩ => show win0_0.index t (0 : Fin 2) * 4096 + 1 * (j 0).val = (j 0).val; rw [e0]; omega
  | ⟨1, _⟩ => show win0_0.index t (1 : Fin 2) * 512 + 1 * (j 1).val = (j 1).val; rw [e1]; omega

/-- The weight window's block is the weight array. -/
theorem iblk0_1_eq (c : Dev nD) (t : Fin cfg0.N) : (iblk0 V c 1 t : Vec Ideal S512x128 .f32) = V c main_arg4 := by
  obtain ⟨-, -, e0, e1, -⟩ := idx_facts0 t
  funext j
  unfold iblk0
  rw [View.read_apply]
  show V c main_arg4 _ = V c main_arg4 _
  refine congrArg (V c main_arg4) (funext fun a => Fin.ext ?_)
  match a with
  | ⟨0, _⟩ => show win0_1.index t (0 : Fin 2) * 512 + 1 * (j 0).val = (j 0).val; rw [e0]; omega
  | ⟨1, _⟩ => show win0_1.index t (1 : Fin 2) * 128 + 1 * (j 1).val = (j 1).val; rw [e1]; omega

/-- The bias window's block is the bias array. -/
theorem iblk0_2_eq (c : Dev nD) (t : Fin cfg0.N) : (iblk0 V c 2 t : Vec Ideal S128 .f32) = V c main_arg5 := by
  obtain ⟨-, -, -, -, e0, -⟩ := idx_facts0 t
  funext j
  unfold iblk0
  rw [View.read_apply]
  show V c main_arg5 _ = V c main_arg5 _
  refine congrArg (V c main_arg5) (funext fun a => Fin.ext ?_)
  match a with
  | ⟨0, _⟩ => show win0_2.index t (0 : Fin 1) * 128 + 1 * (j 0).val = (j 0).val; rw [e0]; omega

/-- The one block written back is the whole of the embedding of the argument arrays. -/
theorem flushed0_3_eq (c : Dev nD) (t : Fin cfg0.N) :
    (dat0 (F := Ideal) V c).flushed 3 t
      = ((cfg0.win 3).blk t).view.read (Elt Ideal) (embArr (V c main_arg0) (V c main_arg4) (V c main_arg5)) := by
  show (cfg0.win 3).cut (grid0.coords t) ((dat0 V c).after 3 t) = _
  rw [after0_3]
  unfold out0_3
  rw [View.canon_unit_zero hz2]
  simp only [View.ld_unit_zero (S := S4096x512) hz2, View.ld_unit_zero (S := S512x128) hz2, View.ld_unit_zero (S := S128) hz1]
  rw [iblk0_0_eq, iblk0_1_eq, iblk0_2_eq]
  obtain ⟨-, -, -, -, -, e0, e1⟩ := idx_facts0 t
  funext j
  obtain ⟨r, h, rfl⟩ : ∃ (r : Fin 4096) (h : Fin 128), j = ix2 r h := ⟨j 0, j 1, eq_ix2 j⟩
  rw [View.read_apply]
  show k0_pay1 (F := Ideal) (V c main_arg0) (V c main_arg4) (V c main_arg5) (ix2 r h) = _
  rw [k0_pay1_at]
  have he : ((cfg0.win 3).blk t).view.emb (ix2 r h) = (ix2 r h : S4096x128.Idx) := by
    funext a
    apply Fin.ext
    match a with
    | ⟨0, _⟩ => show win0_3.index t (0 : Fin 2) * 4096 + 1 * r.val = r.val; rw [e0]; omega
    | ⟨1, _⟩ => show win0_3.index t (1 : Fin 2) * 128 + 1 * h.val = h.val; rw [e1]; omega
  exact (congrArg (embArr (V c main_arg0) (V c main_arg4) (V c main_arg5)) he).symm

/-- Every entry of the embedding array is in the one point's block. -/
theorem cover0_3 (i : S4096x128.Idx) :
    ∃ t : Fin cfg0.N, (cfg0.win 3).flush t = true ∧ i ∈ ((cfg0.win 3).blk t).view.set := by
  have h0 : (i 0).val < 4096 := (i 0).isLt
  have h1 : (i 1).val < 128 := (i 1).isLt
  obtain ⟨-, -, -, -, -, e0, e1⟩ := idx_facts0 t0_0
  refine ⟨t0_0, flush0_3 t0_0, ?_⟩
  show i ∈ ((View.whole main_v0).slice (win0_3.rect t0_0)).set
  rw [View.set_slice_whole, Rect.mem_set_unit]
  intro a
  match a with
  | ⟨0, _⟩ =>
    show win0_3.index t0_0 (0 : Fin 2) * 4096 ≤ (i 0).val ∧ (i 0).val < win0_3.index t0_0 (0 : Fin 2) * 4096 + 4096
    rw [e0]; omega
  | ⟨1, _⟩ =>
    show win0_3.index t0_0 (1 : Fin 2) * 128 ≤ (i 1).val ∧ (i 1).val < win0_3.index t0_0 (1 : Fin 2) * 128 + 128
    rw [e1]; omega

/-- The embedding array after region 0: the relu of the affine map of the three argument arrays, entry by entry. -/
theorem arrAt0_3 (c : Dev nD) :
    (dat0 (F := Ideal) V c).arrAt 3 cfg0.N = embArr (V c main_arg0) (V c main_arg4) (V c main_arg5) :=
  (dat0 (F := Ideal) V c).arrAt_eq_of_cover 3 (embArr (V c main_arg0) (V c main_arg4) (V c main_arg5))
    (fun t _ => flushed0_3_eq V c t) cover0_3

end Cert.KernelIdeal.KV

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.LibReduceAt.lean ====
/-
  Reductions over one axis read at an index of the result, at the ideal instance, with the reduced index named by
  its coordinates.

  For an a by b array: a row's sum, a row's minimum and a column's maximum (a kernel's vector reductions) are the sum,
  the fold of min and the fold of max over the coordinate that was reduced away, of the array's entries at (i, j).
  For an n by a by b array the host's one-operand reduce with a commutative associative operation, along the last axis
  or along the middle axis, is likewise the fold from its initial value over that coordinate of the entries at
  (n, i, j). The folds are over the whole finite type of the reduced coordinate, in no particular order.
-/
import Idealize.ShloMosaic.PureOps.Ideal.Laws
import Idealize.ShloMosaic.PureOps.Reduce
import Idealize.ShloMosaic.Lib.ValueIdx

noncomputable section

namespace Idealize.ShloMosaic.ReduceAt

open Idealize.ShloMosaic Idealize.ShloMosaic.ValueIdx

variable {a b n : ℕ} {φ : FTy}

/-! ### Rank 2: the index put back by a reduction along the columns' axis, or along the rows' axis -/

theorem lift_along_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

theorem lift_along_col (h : (⟨2, ![a, b]⟩ : Shape).Reduces [(0 : Fin 2)] ⟨1, ![b]⟩) (j : Fin b) (i : Fin a) :
    h.lift (ix1 j) i = ix2 i j := by
  funext ax
  apply Fin.ext
  match ax with
  | ⟨0, _⟩ => rfl
  | ⟨1, _⟩ => rfl

/-- A row's sum. -/
theorem row_sum_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.add.neutral φ hφ)
    (i : Fin a) :
    multiReduction .add [(1 : Fin 2)] ⟨1, ![a]⟩ v acc h hφ hacc (ix1 i) = ∑ j : Fin b, v (ix2 i j) :=
  (Ideal.multiReduction_add_single v acc h hφ hacc (ix1 i)).trans
    (Finset.sum_congr rfl fun j _ => congrArg v (lift_along_row h i j))

/-- A column's sum. -/
theorem col_sum_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.add.neutral φ hφ)
    (j : Fin b) :
    multiReduction .add [(0 : Fin 2)] ⟨1, ![b]⟩ v acc h hφ hacc (ix1 j) = ∑ i : Fin a, v (ix2 i j) :=
  (Ideal.multiReduction_add_single v acc h hφ hacc (ix1 j)).trans
    (Finset.sum_congr rfl fun i _ => congrArg v (lift_along_col h j i))

/-- A row's minimum, from the accumulator's value. -/
theorem row_min_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.minimumf.neutral φ hφ)
    (i : Fin a) :
    multiReduction .minimumf [(1 : Fin 2)] ⟨1, ![a]⟩ v acc h hφ hacc (ix1 i)
      = (Finset.univ : Finset (Fin b)).fold min (Ideal.ofBits φ acc) (fun j => v (ix2 i j)) := by
  rw [multiReduction_minimumf_eq_fold, h.fold_filter_drop_single]
  have e : (v ∘ h.lift (ix1 i)) = fun j : Fin b => v (ix2 i j) := funext fun j => congrArg v (lift_along_row h i j)
  rw [e]
  rfl

/-- A column's maximum, from the accumulator's value. -/
theorem col_max_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.maximumf.neutral φ hφ)
    (j : Fin b) :
    multiReduction .maximumf [(0 : Fin 2)] ⟨1, ![b]⟩ v acc h hφ hacc (ix1 j)
      = (Finset.univ : Finset (Fin a)).fold max (Ideal.ofBits φ acc) (fun i => v (ix2 i j)) := by
  rw [Ideal.multiReduction_maximumf_single]
  have e : (v ∘ h.lift (ix1 j)) = fun i : Fin a => v (ix2 i j) := funext fun i => congrArg v (lift_along_col h j i)
  rw [e]
  rfl

/-! ### Rank 3: the host's reduce along the last axis, or along the middle axis -/

theorem lift_along_last (h : (⟨3, ![n, a, b]⟩ : Shape).Reduces [(2 : Fin 3)] ⟨2, ![n, a]⟩) (p : Fin n) (i : Fin a) (j : Fin b) :
    h.lift (ix2 p i) j = ix3 p i j := by
  funext ax
  apply Fin.ext
  match ax with
  | ⟨0, _⟩ => rfl
  | ⟨1, _⟩ => rfl
  | ⟨2, _⟩ => rfl

theorem lift_along_middle (h : (⟨3, ![n, a, b]⟩ : Shape).Reduces [(1 : Fin 3)] ⟨2, ![n, b]⟩) (p : Fin n) (j : Fin b) (i : Fin a) :
    h.lift (ix2 p j) i = ix3 p i j := by
  funext ax
  apply Fin.ext
  match ax with
  | ⟨0, _⟩ => rfl
  | ⟨1, _⟩ => rfl
  | ⟨2, _⟩ => rfl

/-- The host's reduce along the last axis. -/
theorem host_reduce_last_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(2 : Fin 3)] ⟨2, ![n, a]⟩) (hu : 0 < u.numel)
    (h : (⟨3, ![n, a, b]⟩ : Shape).Reduces [(2 : Fin 3)] ⟨2, ![n, a]⟩) (p : Fin n) (i : Fin a) :
    Host.reduce f x init h' hu (ix2 p i)
      = (Finset.univ : Finset (Fin b)).fold f (init (Shape.Idx.first hu)) (fun j => x (ix3 p i j)) := by
  rw [Host.reduce_eq_fold, Shape.ReducesTo.drop_eq_drop h' h, h.fold_filter_drop_single]
  have e : (x ∘ h.lift (ix2 p i)) = fun j : Fin b => x (ix3 p i j) := funext fun j => congrArg x (lift_along_last h p i j)
  rw [e]
  rfl

/-- The host's reduce along the middle axis. -/
theorem host_reduce_middle_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(1 : Fin 3)] ⟨2, ![n, b]⟩) (hu : 0 < u.numel)
    (h : (⟨3, ![n, a, b]⟩ : Shape).Reduces [(1 : Fin 3)] ⟨2, ![n, b]⟩) (p : Fin n) (j : Fin b) :
    Host.reduce f x init h' hu (ix2 p j)
      = (Finset.univ : Finset (Fin a)).fold f (init (Shape.Idx.first hu)) (fun i => x (ix3 p i j)) := by
  rw [Host.reduce_eq_fold, Shape.ReducesTo.drop_eq_drop h' h, h.fold_filter_drop_single]
  have e : (x ∘ h.lift (ix2 p j)) = fun i : Fin a => x (ix3 p i j) := funext fun i => congrArg x (lift_along_middle h p j i)
  rw [e]
  rfl

end Idealize.ShloMosaic.ReduceAt

end
-- ==== Proof.Pay1.lean ====
/-
  The second kernel's values read at an index, on the extended reals, for one block of 128 rows of the 4096: the edge
  multiplicity and mask from the two adjacency blocks, the pair score as the row tile's product with the transposed
  embedding, the gate and its logistic, the two weights, and the two degree columns as row sums plus one.
-/
import proofs.«116308_j1889785610729_2_alg».proof.Proof.Gen.KernelIdeal.Skeleton
import proofs.«116308_j1889785610729_2_alg».proof.Proof.Spec
import proofs.«116308_j1889785610729_2_alg».proof.Proof.LibCompareBit
import proofs.«116308_j1889785610729_2_alg».proof.Proof.LibKeepdims
import proofs.«116308_j1889785610729_2_alg».proof.Proof.LibMatmulRows
import proofs.«116308_j1889785610729_2_alg».proof.Proof.LibReduceAt
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.Pay

open Idealize.ShloMosaic Idealize.ShloMosaic.ValueIdx Cert.KernelIdeal Cert.KernelIdeal.Gen Cert.EdgeSpec

/-- The row of the whole array that row p of a block of 128 rows starting at row o holds. -/
def rowAt (o : ℕ) (ho : o + 128 ≤ 4096) (p : Fin 128) : Fin 4096 :=
  ⟨o + p.val, by have := p.isLt; omega⟩

/-- The free axes of the score product's dimension numbers: the left operand's axis 0 follows the result's axis 0. -/
theorem dot1_lhs_free (i : S128x4096.Idx) (q : dot_S128x128_S128x4096_S128x4096_1_0_0_1_n_n.contr.Idx) :
    (dot_S128x128_S128x4096_S128x4096_1_0_0_1_n_n.lhsIdx i q 0).val = (i 0).val := by
  unfold DotDims.lhsIdx
  rw [dif_neg (show ¬(0 : Fin S128x128.rank) ∈ dot_S128x128_S128x4096_S128x4096_1_0_0_1_n_n.lhsBatch by decide),
    dif_pos (show (0 : Fin S128x128.rank) ∈ dot_S128x128_S128x4096_S128x4096_1_0_0_1_n_n.lhsNonContracting by decide)]
  rfl

/-- The right operand's axis 1 follows the result's axis 1. -/
theorem dot1_rhs_free (i : S128x4096.Idx) (q : dot_S128x128_S128x4096_S128x4096_1_0_0_1_n_n.contr.Idx) :
    (dot_S128x128_S128x4096_S128x4096_1_0_0_1_n_n.rhsIdx i q 1).val = (i 1).val := by
  unfold DotDims.rhsIdx
  rw [dif_neg (show ¬(1 : Fin S128x4096.rank) ∈ dot_S128x128_S128x4096_S128x4096_1_0_0_1_n_n.rhsBatch by decide),
    dif_pos (show (1 : Fin S128x4096.rank) ∈ dot_S128x128_S128x4096_S128x4096_1_0_0_1_n_n.rhsNonContracting by decide)]
  rfl

/-- The edge multiplicity of a block, from the block's own entries: the two "is not zero" bits added. -/
theorem k1_pay3_apply (v6 v7 : Vec Ideal S128x4096 .f32) (p : Fin 128) (c : Fin 4096) :
    k1_pay3 (F := Ideal) v6 v7 (ix2 p c)
      = CompareBit.cmpBit .one (v6 (ix2 p c)) w0 + CompareBit.cmpBit .one (v7 (ix2 p c)) w0 := by
  unfold k1_pay3
  rw [addf_apply, sitofp_apply, sitofp_apply, extui_apply, extui_apply, cmpf_apply, cmpf_apply, broadcast_apply]
  exact congrArg₂ (· + ·) (CompareBit.signed .one (v6 (ix2 p c)) w0) (CompareBit.signed .one (v7 (ix2 p c)) w0)

section Block
variable (o : ℕ) (ho : o + 128 ≤ 4096)

/-- The edge multiplicity at the block's row. -/
theorem k1_pay3_at (v6 v7 : Vec Ideal S128x4096 .f32) (A A2 : Mat 4096 4096)
    (h6 : ∀ p c, v6 (ix2 p c) = A (rowAt o ho p) c) (h7 : ∀ p c, v7 (ix2 p c) = A2 (rowAt o ho p) c)
    (p : Fin 128) (c : Fin 4096) :
    k1_pay3 (F := Ideal) v6 v7 (ix2 p c) = mult A A2 (rowAt o ho p) c := by
  rw [k1_pay3_apply, h6, h7]
  rfl

/-- The edge mask at the block's row: the bit of the multiplicity being positive. -/
theorem k1_pay4_at (v6 v7 : Vec Ideal S128x4096 .f32) (A A2 : Mat 4096 4096)
    (h6 : ∀ p c, v6 (ix2 p c) = A (rowAt o ho p) c) (h7 : ∀ p c, v7 (ix2 p c) = A2 (rowAt o ho p) c)
    (p : Fin 128) (c : Fin 4096) :
    k1_pay4 (F := Ideal) v6 v7 (ix2 p c) = mask A A2 (rowAt o ho p) c := by
  unfold k1_pay4
  rw [sitofp_apply, extui_apply, cmpf_apply, broadcast_apply, k1_pay3_at o ho v6 v7 A A2 h6 h7]
  exact CompareBit.signed .ogt (mult A A2 (rowAt o ho p) c) w0

/-- The pair score at the block's row: the row tile times the transposed embedding, into a zero accumulator. -/
theorem score_at (v0 : Vec Ideal S128x128 .f32) (v2 : Vec Ideal S4096x128 .f32) (e : Mat 4096 128)
    (h0 : ∀ p h, v0 (ix2 p h) = e (rowAt o ho p) h) (h2 : ∀ r h, v2 (ix2 r h) = e r h)
    (p : Fin 128) (c : Fin 4096) :
    matmul dot_S128x128_S128x4096_S128x4096_1_0_0_1_n_n none
        (shapeCast S128x128 v0 shapeCasts_S128x128_S128x128 : FVec Ideal S128x128 .f32)
        (transpose S128x4096 [1, 0] (shapeCast S4096x128 v2 shapeCasts_S4096x128_S4096x128)
          transposes_S4096x128_p1_0_S128x4096 : FVec Ideal S128x4096 .f32)
        (constant (F := Ideal) S128x4096 .f32 0x00000000#32) (ix2 p c)
      = score e (rowAt o ho p) c := by
  refine MatmulRows.matmul_zero_rows (φ₁ := .f32) (φ₂ := .f32) dot_S128x128_S128x4096_S128x4096_1_0_0_1_n_n none
    rfl rfl rfl rfl dot1_lhs_free dot1_rhs_free _ _ (ix2 p c) (fun k => e (rowAt o ho p) k) (fun k => e c k) ?_ ?_
  · intro k
    rw [shapeCast_self]
    exact h0 p k
  · intro k
    refine (transpose_ix2_apply _ _ k c).trans ?_
    rw [shapeCast_self]
    exact h2 c k

/-- The gate's logistic at the block's row. -/
theorem k1_pay5_at (v0 : Vec Ideal S128x128 .f32) (v2 : Vec Ideal S4096x128 .f32) (v6 v7 v22 : Vec Ideal S128x4096 .f32)
    (e : Mat 4096 128) (A A2 U : Mat 4096 4096)
    (h0 : ∀ p h, v0 (ix2 p h) = e (rowAt o ho p) h) (h2 : ∀ r h, v2 (ix2 r h) = e r h)
    (h6 : ∀ p c, v6 (ix2 p c) = A (rowAt o ho p) c) (h7 : ∀ p c, v7 (ix2 p c) = A2 (rowAt o ho p) c)
    (h22 : ∀ p c, v22 (ix2 p c) = U (rowAt o ho p) c) (p : Fin 128) (c : Fin 4096) :
    k1_pay5 (F := Ideal) v0 v2 v6 v7 v22 (ix2 p c) = sg e A A2 U (rowAt o ho p) c := by
  unfold k1_pay5
  have hs := score_at o ho v0 v2 e h0 h2 p c
  have hm := k1_pay3_at o ho v6 v7 A A2 h6 h7 p c
  have hu := h22 p c
  show Ideal.logistic (Ideal.div ((Ideal.log (wc1 * v22 (ix2 p c) + wc2) - Ideal.log1p (w0 - (wc1 * v22 (ix2 p c) + wc2)))
      + (_ * k1_pay3 (F := Ideal) v6 v7 (ix2 p c))) w1) = _
  rw [hs, hm, hu]
  rfl

/-- The low-pass weight at the block's row: the gate times the mask. -/
theorem k1_pay6_at (v0 : Vec Ideal S128x128 .f32) (v2 : Vec Ideal S4096x128 .f32) (v6 v7 v22 : Vec Ideal S128x4096 .f32)
    (e : Mat 4096 128) (A A2 U : Mat 4096 4096)
    (h0 : ∀ p h, v0 (ix2 p h) = e (rowAt o ho p) h) (h2 : ∀ r h, v2 (ix2 r h) = e r h)
    (h6 : ∀ p c, v6 (ix2 p c) = A (rowAt o ho p) c) (h7 : ∀ p c, v7 (ix2 p c) = A2 (rowAt o ho p) c)
    (h22 : ∀ p c, v22 (ix2 p c) = U (rowAt o ho p) c) (p : Fin 128) (c : Fin 4096) :
    k1_pay6 (F := Ideal) v0 v2 v6 v7 v22 (ix2 p c) = wlp e A A2 U (rowAt o ho p) c := by
  unfold k1_pay6
  rw [mulf_apply, k1_pay5_at o ho v0 v2 v6 v7 v22 e A A2 U h0 h2 h6 h7 h22, k1_pay4_at o ho v6 v7 A A2 h6 h7]
  rfl

/-- The high-pass weight at the block's row: one less the gate, times the mask. -/
theorem k1_pay7_at (v0 : Vec Ideal S128x128 .f32) (v2 : Vec Ideal S4096x128 .f32) (v6 v7 v22 : Vec Ideal S128x4096 .f32)
    (e : Mat 4096 128) (A A2 U : Mat 4096 4096)
    (h0 : ∀ p h, v0 (ix2 p h) = e (rowAt o ho p) h) (h2 : ∀ r h, v2 (ix2 r h) = e r h)
    (h6 : ∀ p c, v6 (ix2 p c) = A (rowAt o ho p) c) (h7 : ∀ p c, v7 (ix2 p c) = A2 (rowAt o ho p) c)
    (h22 : ∀ p c, v22 (ix2 p c) = U (rowAt o ho p) c) (p : Fin 128) (c : Fin 4096) :
    k1_pay7 (F := Ideal) v0 v2 v6 v7 v22 (ix2 p c) = whp e A A2 U (rowAt o ho p) c := by
  unfold k1_pay7
  rw [mulf_apply, subf_apply, broadcast_apply, k1_pay5_at o ho v0 v2 v6 v7 v22 e A A2 U h0 h2 h6 h7 h22,
    k1_pay4_at o ho v6 v7 A A2 h6 h7]
  rfl

end Block

/-- A degree column: the row sum of the weight block plus one. -/
theorem k1_pay1_at (v36 : FVec Ideal S128x4096 .f32) (p : Fin 128) (z : Fin 1) :
    k1_pay1 (F := Ideal) v36 (ix2 p z) = (∑ c : Fin 4096, v36 (ix2 p c)) + w1 := by
  unfold k1_pay1
  rw [addf_apply, broadcast_apply, Keepdims.shapeCast_a_a1_apply]
  refine congrArg (· + w1) ?_
  exact ReduceAt.row_sum_apply v36 _ reduces_S128x4096_S128 _ _ p

/-- The other degree column, the same way. -/
theorem k1_pay2_at (v39 : FVec Ideal S128x4096 .f32) (p : Fin 128) (z : Fin 1) :
    k1_pay2 (F := Ideal) v39 (ix2 p z) = (∑ c : Fin 4096, v39 (ix2 p c)) + w1 := by
  unfold k1_pay2
  rw [addf_apply, broadcast_apply, Keepdims.shapeCast_a_a1_apply]
  refine congrArg (· + w1) ?_
  exact ReduceAt.row_sum_apply v39 _ reduces_S128x4096_S128 _ _ p

end Cert.KernelIdeal.Pay

end
-- ==== Proof.KV1.lean ====
/-
  What the five result arrays hold after region 1, on the extended reals, as functions of the four arrays the region
  reads as it finds them: the two adjacencies, the noise and the embedding. The region has thirty-two grid points; at
  point t every row-blocked window (the three inputs, the embedding's row tile and the five results) holds rows 128·t
  to 128·t + 127 of its array, and the resident window holds the whole embedding. So the block written back at point
  t is rows 128·t … of one whole-array function, and the thirty-two blocks cover every row.
-/
import proofs.«116308_j1889785610729_2_alg».proof.Proof.KI.R1
import proofs.«116308_j1889785610729_2_alg».proof.Proof.Pay1
import proofs.«116308_j1889785610729_2_alg».proof.Proof.Spec
import Idealize.ShloMosaic.Lib.Pipeline.Value
import Idealize.ShloMosaic.Lib.ValueIdx

noncomputable section

namespace Cert.KernelIdeal.KV

open Cert.KernelIdeal Cert.KernelIdeal.Gen Cert.KernelIdeal.Frame Cert.KernelIdeal.Pay Cert.EdgeSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The block of 128 rows at point t lies inside the 4096 rows. -/
theorem off_le (t : Fin cfg1.N) : 128 * t.val + 128 ≤ 4096 := by
  have := t.isLt
  have hN : cfg1.N = 32 := N_1
  omega

/-! The printed index maps, decided over the thirty-two points: a row-blocked window's block index is the point's
    number on the row axis and zero on the column axis; the resident window's is zero on both. -/

theorem idx_facts1_0 : ∀ t : Fin cfg1.N, win1_0.index t (0 : Fin 2) = t.val ∧ win1_0.index t (1 : Fin 2) = 0 :=
  (by decide +kernel : ∀ t : Fin grid1.N, _)

theorem idx_facts1_1 : ∀ t : Fin cfg1.N, win1_1.index t (0 : Fin 2) = t.val ∧ win1_1.index t (1 : Fin 2) = 0 :=
  (by decide +kernel : ∀ t : Fin grid1.N, _)

theorem idx_facts1_2 : ∀ t : Fin cfg1.N, win1_2.index t (0 : Fin 2) = t.val ∧ win1_2.index t (1 : Fin 2) = 0 :=
  (by decide +kernel : ∀ t : Fin grid1.N, _)

theorem idx_facts1_3 : ∀ t : Fin cfg1.N, win1_3.index t (0 : Fin 2) = t.val ∧ win1_3.index t (1 : Fin 2) = 0 :=
  (by decide +kernel : ∀ t : Fin grid1.N, _)

theorem idx_facts1_5 : ∀ t : Fin cfg1.N, win1_5.index t (0 : Fin 2) = t.val ∧ win1_5.index t (1 : Fin 2) = 0 :=
  (by decide +kernel : ∀ t : Fin grid1.N, _)

theorem idx_facts1_6 : ∀ t : Fin cfg1.N, win1_6.index t (0 : Fin 2) = t.val ∧ win1_6.index t (1 : Fin 2) = 0 :=
  (by decide +kernel : ∀ t : Fin grid1.N, _)

theorem idx_facts1_7 : ∀ t : Fin cfg1.N, win1_7.index t (0 : Fin 2) = t.val ∧ win1_7.index t (1 : Fin 2) = 0 :=
  (by decide +kernel : ∀ t : Fin grid1.N, _)

theorem idx_facts1_8 : ∀ t : Fin cfg1.N, win1_8.index t (0 : Fin 2) = t.val ∧ win1_8.index t (1 : Fin 2) = 0 :=
  (by decide +kernel : ∀ t : Fin grid1.N, _)

theorem idx_facts1_9 : ∀ t : Fin cfg1.N, win1_9.index t (0 : Fin 2) = t.val ∧ win1_9.index t (1 : Fin 2) = 0 :=
  (by decide +kernel : ∀ t : Fin grid1.N, _)

theorem idx_facts1_4 : ∀ t : Fin cfg1.N, win1_4.index t (0 : Fin 2) = 0 ∧ win1_4.index t (1 : Fin 2) = 0 :=
  (by decide +kernel : ∀ t : Fin grid1.N, _)

/-- The first adjacency window's block at point t is rows 128·t … of the first adjacency. -/
theorem iblk1_0_at (c : Dev nD) (t : Fin cfg1.N) (p : Fin 128) (k : Fin 4096) :
    (iblk1 V c 0 t : Vec Ideal S128x4096 .f32) (ix2 p k)
      = toMat (a := 4096) (b := 4096) (V c main_arg1) (rowAt (128 * t.val) (off_le t) p) k := by
  obtain ⟨e0, e1⟩ := idx_facts1_0 t
  unfold iblk1 toMat
  rw [View.read_apply]
  show V c main_arg1 _ = V c main_arg1 _
  refine congrArg (V c main_arg1) (funext fun a => Fin.ext ?_)
  match a with
  | ⟨0, _⟩ => show win1_0.index t (0 : Fin 2) * 128 + 1 * p.val = 128 * t.val + p.val; rw [e0]; omega
  | ⟨1, _⟩ => show win1_0.index t (1 : Fin 2) * 4096 + 1 * k.val = k.val; rw [e1]; omega

/-- The second adjacency window's block likewise. -/
theorem iblk1_1_at (c : Dev nD) (t : Fin cfg1.N) (p : Fin 128) (k : Fin 4096) :
    (iblk1 V c 1 t : Vec Ideal S128x4096 .f32) (ix2 p k)
      = toMat (a := 4096) (b := 4096) (V c main_arg2) (rowAt (128 * t.val) (off_le t) p) k := by
  obtain ⟨e0, e1⟩ := idx_facts1_1 t
  unfold iblk1 toMat
  rw [View.read_apply]
  show V c main_arg2 _ = V c main_arg2 _
  refine congrArg (V c main_arg2) (funext fun a => Fin.ext ?_)
  match a with
  | ⟨0, _⟩ => show win1_1.index t (0 : Fin 2) * 128 + 1 * p.val = 128 * t.val + p.val; rw [e0]; omega
  | ⟨1, _⟩ => show win1_1.index t (1 : Fin 2) * 4096 + 1 * k.val = k.val; rw [e1]; omega

/-- The noise window's block likewise. -/
theorem iblk1_2_at (c : Dev nD) (t : Fin cfg1.N) (p : Fin 128) (k : Fin 4096) :
    (iblk1 V c 2 t : Vec Ideal S128x4096 .f32) (ix2 p k)
      = toMat (a := 4096) (b := 4096) (V c main_arg3) (rowAt (128 * t.val) (off_le t) p) k := by
  obtain ⟨e0, e1⟩ := idx_facts1_2 t
  unfold iblk1 toMat
  rw [View.read_apply]
  show V c main_arg3 _ = V c main_arg3 _
  refine congrArg (V c main_arg3) (funext fun a => Fin.ext ?_)
  match a with
  | ⟨0, _⟩ => show win1_2.index t (0 : Fin 2) * 128 + 1 * p.val = 128 * t.val + p.val; rw [e0]; omega
  | ⟨1, _⟩ => show win1_2.index t (1 : Fin 2) * 4096 + 1 * k.val = k.val; rw [e1]; omega

/-- The embedding's row tile likewise. -/
theorem iblk1_3_at (c : Dev nD) (t : Fin cfg1.N) (p : Fin 128) (k : Fin 128) :
    (iblk1 V c 3 t : Vec Ideal S128x128 .f32) (ix2 p k)
      = toMat (a := 4096) (b := 128) (V c main_v0) (rowAt (128 * t.val) (off_le t) p) k := by
  obtain ⟨e0, e1⟩ := idx_facts1_3 t
  unfold iblk1 toMat
  rw [View.read_apply]
  show V c main_v0 _ = V c main_v0 _
  refine congrArg (V c main_v0) (funext fun a => Fin.ext ?_)
  match a with
  | ⟨0, _⟩ => show win1_3.index t (0 : Fin 2) * 128 + 1 * p.val = 128 * t.val + p.val; rw [e0]; omega
  | ⟨1, _⟩ => show win1_3.index t (1 : Fin 2) * 128 + 1 * k.val = k.val; rw [e1]; omega

/-- The resident window's block is the whole embedding. -/
theorem iblk1_4_at (c : Dev nD) (t : Fin cfg1.N) (p : Fin 4096) (k : Fin 128) :
    (iblk1 V c 4 t : Vec Ideal S4096x128 .f32) (ix2 p k)
      = toMat (a := 4096) (b := 128) (V c main_v0) p k := by
  obtain ⟨e0, e1⟩ := idx_facts1_4 t
  unfold iblk1 toMat
  rw [View.read_apply]
  show V c main_v0 _ = V c main_v0 _
  refine congrArg (V c main_v0) (funext fun a => Fin.ext ?_)
  match a with
  | ⟨0, _⟩ => show win1_4.index t (0 : Fin 2) * 4096 + 1 * p.val = p.val; rw [e0]; omega
  | ⟨1, _⟩ => show win1_4.index t (1 : Fin 2) * 128 + 1 * k.val = k.val; rw [e1]; omega

/-- An entry of the block of result window 5 at point t sits in the array at row 128·t plus its row, same column. -/
theorem emb1_5 (t : Fin cfg1.N) (p : Fin 128) (k : Fin 4096) :
    ((cfg1.win 5).blk t).view.emb (ix2 p k) = (ix2 (rowAt (128 * t.val) (off_le t) p) k : S4096x4096.Idx) := by
  obtain ⟨e0, e1⟩ := idx_facts1_5 t
  funext a
  apply Fin.ext
  match a with
  | ⟨0, _⟩ => show win1_5.index t (0 : Fin 2) * 128 + 1 * p.val = 128 * t.val + p.val; rw [e0]; omega
  | ⟨1, _⟩ => show win1_5.index t (1 : Fin 2) * 4096 + 1 * k.val = k.val; rw [e1]; omega

/-- An entry of the array is in point t's block of result window 5 when each coordinate is in the block's range. -/
theorem mem_blk1_5 (t : Fin cfg1.N) (i : S4096x4096.Idx) :
    i ∈ ((cfg1.win 5).blk t).view.set ↔ ∀ a : Fin 2, win1_5.index t a * S128x4096.size a ≤ (i a).val
      ∧ (i a).val < win1_5.index t a * S128x4096.size a + S128x4096.size a := by
  show i ∈ ((View.whole main_v1_0).slice (win1_5.rect t)).set ↔ _
  rw [View.set_slice_whole, Rect.mem_set_unit]
  exact Iff.rfl

/-- Every entry is in some point's block: the point numbered by the entry's row divided by 128. -/
theorem cover1_5 (i : S4096x4096.Idx) :
    ∃ t : Fin cfg1.N, (cfg1.win 5).flush t = true ∧ i ∈ ((cfg1.win 5).blk t).view.set := by
  have h0 : (i 0).val < 4096 := (i 0).isLt
  have h1 : (i 1).val < 4096 := (i 1).isLt
  have hN : cfg1.N = 32 := N_1
  obtain ⟨t, ht⟩ : ∃ t : Fin cfg1.N, t.val = (i 0).val / 128 :=
    ⟨⟨(i 0).val / 128, lt_of_lt_of_eq (by omega : (i 0).val / 128 < 32) hN.symm⟩, rfl⟩
  obtain ⟨e0, e1⟩ := idx_facts1_5 t
  refine ⟨t, flush1_5 t, ?_⟩
  rw [mem_blk1_5]
  intro a
  match a with
  | ⟨0, _⟩ =>
    show win1_5.index t (0 : Fin 2) * 128 ≤ (i 0).val ∧ (i 0).val < win1_5.index t (0 : Fin 2) * 128 + 128
    rw [e0, ht]; omega
  | ⟨1, _⟩ =>
    show win1_5.index t (1 : Fin 2) * 4096 ≤ (i 1).val ∧ (i 1).val < win1_5.index t (1 : Fin 2) * 4096 + 4096
    rw [e1]; omega

/-- An entry of the block of result window 6 at point t sits in the array at row 128·t plus its row, same column. -/
theorem emb1_6 (t : Fin cfg1.N) (p : Fin 128) (k : Fin 4096) :
    ((cfg1.win 6).blk t).view.emb (ix2 p k) = (ix2 (rowAt (128 * t.val) (off_le t) p) k : S4096x4096.Idx) := by
  obtain ⟨e0, e1⟩ := idx_facts1_6 t
  funext a
  apply Fin.ext
  match a with
  | ⟨0, _⟩ => show win1_6.index t (0 : Fin 2) * 128 + 1 * p.val = 128 * t.val + p.val; rw [e0]; omega
  | ⟨1, _⟩ => show win1_6.index t (1 : Fin 2) * 4096 + 1 * k.val = k.val; rw [e1]; omega

/-- An entry of the array is in point t's block of result window 6 when each coordinate is in the block's range. -/
theorem mem_blk1_6 (t : Fin cfg1.N) (i : S4096x4096.Idx) :
    i ∈ ((cfg1.win 6).blk t).view.set ↔ ∀ a : Fin 2, win1_6.index t a * S128x4096.size a ≤ (i a).val
      ∧ (i a).val < win1_6.index t a * S128x4096.size a + S128x4096.size a := by
  show i ∈ ((View.whole main_v1_1).slice (win1_6.rect t)).set ↔ _
  rw [View.set_slice_whole, Rect.mem_set_unit]
  exact Iff.rfl

/-- Every entry is in some point's block: the point numbered by the entry's row divided by 128. -/
theorem cover1_6 (i : S4096x4096.Idx) :
    ∃ t : Fin cfg1.N, (cfg1.win 6).flush t = true ∧ i ∈ ((cfg1.win 6).blk t).view.set := by
  have h0 : (i 0).val < 4096 := (i 0).isLt
  have h1 : (i 1).val < 4096 := (i 1).isLt
  have hN : cfg1.N = 32 := N_1
  obtain ⟨t, ht⟩ : ∃ t : Fin cfg1.N, t.val = (i 0).val / 128 :=
    ⟨⟨(i 0).val / 128, lt_of_lt_of_eq (by omega : (i 0).val / 128 < 32) hN.symm⟩, rfl⟩
  obtain ⟨e0, e1⟩ := idx_facts1_6 t
  refine ⟨t, flush1_6 t, ?_⟩
  rw [mem_blk1_6]
  intro a
  match a with
  | ⟨0, _⟩ =>
    show win1_6.index t (0 : Fin 2) * 128 ≤ (i 0).val ∧ (i 0).val < win1_6.index t (0 : Fin 2) * 128 + 128
    rw [e0, ht]; omega
  | ⟨1, _⟩ =>
    show win1_6.index t (1 : Fin 2) * 4096 ≤ (i 1).val ∧ (i 1).val < win1_6.index t (1 : Fin 2) * 4096 + 4096
    rw [e1]; omega

/-- An entry of the block of result window 7 at point t sits in the array at row 128·t plus its row, same column. -/
theorem emb1_7 (t : Fin cfg1.N) (p : Fin 128) (k : Fin 4096) :
    ((cfg1.win 7).blk t).view.emb (ix2 p k) = (ix2 (rowAt (128 * t.val) (off_le t) p) k : S4096x4096.Idx) := by
  obtain ⟨e0, e1⟩ := idx_facts1_7 t
  funext a
  apply Fin.ext
  match a with
  | ⟨0, _⟩ => show win1_7.index t (0 : Fin 2) * 128 + 1 * p.val = 128 * t.val + p.val; rw [e0]; omega
  | ⟨1, _⟩ => show win1_7.index t (1 : Fin 2) * 4096 + 1 * k.val = k.val; rw [e1]; omega

/-- An entry of the array is in point t's block of result window 7 when each coordinate is in the block's range. -/
theorem mem_blk1_7 (t : Fin cfg1.N) (i : S4096x4096.Idx) :
    i ∈ ((cfg1.win 7).blk t).view.set ↔ ∀ a : Fin 2, win1_7.index t a * S128x4096.size a ≤ (i a).val
      ∧ (i a).val < win1_7.index t a * S128x4096.size a + S128x4096.size a := by
  show i ∈ ((View.whole main_v1_2).slice (win1_7.rect t)).set ↔ _
  rw [View.set_slice_whole, Rect.mem_set_unit]
  exact Iff.rfl

/-- Every entry is in some point's block: the point numbered by the entry's row divided by 128. -/
theorem cover1_7 (i : S4096x4096.Idx) :
    ∃ t : Fin cfg1.N, (cfg1.win 7).flush t = true ∧ i ∈ ((cfg1.win 7).blk t).view.set := by
  have h0 : (i 0).val < 4096 := (i 0).isLt
  have h1 : (i 1).val < 4096 := (i 1).isLt
  have hN : cfg1.N = 32 := N_1
  obtain ⟨t, ht⟩ : ∃ t : Fin cfg1.N, t.val = (i 0).val / 128 :=
    ⟨⟨(i 0).val / 128, lt_of_lt_of_eq (by omega : (i 0).val / 128 < 32) hN.symm⟩, rfl⟩
  obtain ⟨e0, e1⟩ := idx_facts1_7 t
  refine ⟨t, flush1_7 t, ?_⟩
  rw [mem_blk1_7]
  intro a
  match a with
  | ⟨0, _⟩ =>
    show win1_7.index t (0 : Fin 2) * 128 ≤ (i 0).val ∧ (i 0).val < win1_7.index t (0 : Fin 2) * 128 + 128
    rw [e0, ht]; omega
  | ⟨1, _⟩ =>
    show win1_7.index t (1 : Fin 2) * 4096 ≤ (i 1).val ∧ (i 1).val < win1_7.index t (1 : Fin 2) * 4096 + 4096
    rw [e1]; omega

/-- An entry of the block of result window 8 at point t sits in the array at row 128·t plus its row, same column. -/
theorem emb1_8 (t : Fin cfg1.N) (p : Fin 128) (k : Fin 1) :
    ((cfg1.win 8).blk t).view.emb (ix2 p k) = (ix2 (rowAt (128 * t.val) (off_le t) p) k : S4096x1.Idx) := by
  obtain ⟨e0, e1⟩ := idx_facts1_8 t
  funext a
  apply Fin.ext
  match a with
  | ⟨0, _⟩ => show win1_8.index t (0 : Fin 2) * 128 + 1 * p.val = 128 * t.val + p.val; rw [e0]; omega
  | ⟨1, _⟩ => show win1_8.index t (1 : Fin 2) * 1 + 1 * k.val = k.val; rw [e1]; omega

/-- An entry of the array is in point t's block of result window 8 when each coordinate is in the block's range. -/
theorem mem_blk1_8 (t : Fin cfg1.N) (i : S4096x1.Idx) :
    i ∈ ((cfg1.win 8).blk t).view.set ↔ ∀ a : Fin 2, win1_8.index t a * S128x1.size a ≤ (i a).val
      ∧ (i a).val < win1_8.index t a * S128x1.size a + S128x1.size a := by
  show i ∈ ((View.whole main_v1_3).slice (win1_8.rect t)).set ↔ _
  rw [View.set_slice_whole, Rect.mem_set_unit]
  exact Iff.rfl

/-- Every entry is in some point's block: the point numbered by the entry's row divided by 128. -/
theorem cover1_8 (i : S4096x1.Idx) :
    ∃ t : Fin cfg1.N, (cfg1.win 8).flush t = true ∧ i ∈ ((cfg1.win 8).blk t).view.set := by
  have h0 : (i 0).val < 4096 := (i 0).isLt
  have h1 : (i 1).val < 1 := (i 1).isLt
  have hN : cfg1.N = 32 := N_1
  obtain ⟨t, ht⟩ : ∃ t : Fin cfg1.N, t.val = (i 0).val / 128 :=
    ⟨⟨(i 0).val / 128, lt_of_lt_of_eq (by omega : (i 0).val / 128 < 32) hN.symm⟩, rfl⟩
  obtain ⟨e0, e1⟩ := idx_facts1_8 t
  refine ⟨t, flush1_8 t, ?_⟩
  rw [mem_blk1_8]
  intro a
  match a with
  | ⟨0, _⟩ =>
    show win1_8.index t (0 : Fin 2) * 128 ≤ (i 0).val ∧ (i 0).val < win1_8.index t (0 : Fin 2) * 128 + 128
    rw [e0, ht]; omega
  | ⟨1, _⟩ =>
    show win1_8.index t (1 : Fin 2) * 1 ≤ (i 1).val ∧ (i 1).val < win1_8.index t (1 : Fin 2) * 1 + 1
    rw [e1]; omega

/-- An entry of the block of result window 9 at point t sits in the array at row 128·t plus its row, same column. -/
theorem emb1_9 (t : Fin cfg1.N) (p : Fin 128) (k : Fin 1) :
    ((cfg1.win 9).blk t).view.emb (ix2 p k) = (ix2 (rowAt (128 * t.val) (off_le t) p) k : S4096x1.Idx) := by
  obtain ⟨e0, e1⟩ := idx_facts1_9 t
  funext a
  apply Fin.ext
  match a with
  | ⟨0, _⟩ => show win1_9.index t (0 : Fin 2) * 128 + 1 * p.val = 128 * t.val + p.val; rw [e0]; omega
  | ⟨1, _⟩ => show win1_9.index t (1 : Fin 2) * 1 + 1 * k.val = k.val; rw [e1]; omega

/-- An entry of the array is in point t's block of result window 9 when each coordinate is in the block's range. -/
theorem mem_blk1_9 (t : Fin cfg1.N) (i : S4096x1.Idx) :
    i ∈ ((cfg1.win 9).blk t).view.set ↔ ∀ a : Fin 2, win1_9.index t a * S128x1.size a ≤ (i a).val
      ∧ (i a).val < win1_9.index t a * S128x1.size a + S128x1.size a := by
  show i ∈ ((View.whole main_v1_4).slice (win1_9.rect t)).set ↔ _
  rw [View.set_slice_whole, Rect.mem_set_unit]
  exact Iff.rfl

/-- Every entry is in some point's block: the point numbered by the entry's row divided by 128. -/
theorem cover1_9 (i : S4096x1.Idx) :
    ∃ t : Fin cfg1.N, (cfg1.win 9).flush t = true ∧ i ∈ ((cfg1.win 9).blk t).view.set := by
  have h0 : (i 0).val < 4096 := (i 0).isLt
  have h1 : (i 1).val < 1 := (i 1).isLt
  have hN : cfg1.N = 32 := N_1
  obtain ⟨t, ht⟩ : ∃ t : Fin cfg1.N, t.val = (i 0).val / 128 :=
    ⟨⟨(i 0).val / 128, lt_of_lt_of_eq (by omega : (i 0).val / 128 < 32) hN.symm⟩, rfl⟩
  obtain ⟨e0, e1⟩ := idx_facts1_9 t
  refine ⟨t, flush1_9 t, ?_⟩
  rw [mem_blk1_9]
  intro a
  match a with
  | ⟨0, _⟩ =>
    show win1_9.index t (0 : Fin 2) * 128 ≤ (i 0).val ∧ (i 0).val < win1_9.index t (0 : Fin 2) * 128 + 128
    rw [e0, ht]; omega
  | ⟨1, _⟩ =>
    show win1_9.index t (1 : Fin 2) * 1 ≤ (i 1).val ∧ (i 1).val < win1_9.index t (1 : Fin 2) * 1 + 1
    rw [e1]; omega

/-- What point t writes back to the low-pass weights is rows 128·t … of the low-pass weight matrix. -/
theorem flushed1_5_eq (c : Dev nD) (t : Fin cfg1.N) :
    (dat1 (F := Ideal) V c).flushed 5 t = ((cfg1.win 5).blk t).view.read (Elt Ideal) (ofMat (wlp (toMat (a := 4096) (b := 128) (V c main_v0)) (toMat (a := 4096) (b := 4096) (V c main_arg1))
        (toMat (a := 4096) (b := 4096) (V c main_arg2)) (toMat (a := 4096) (b := 4096) (V c main_arg3)))) := by
  show (cfg1.win 5).cut (grid1.coords t) ((dat1 V c).after 5 t) = _
  rw [after1_5]
  unfold out1_5
  rw [View.canon_unit_zero hz2]
  simp only [View.ld_unit_zero (S := S128x4096) hz2, View.ld_unit_zero (S := S128x128) hz2, View.ld_unit_zero (S := S4096x128) hz2]
  funext j
  obtain ⟨p, k, rfl⟩ : ∃ (p : Fin 128) (k : Fin 4096), j = ix2 p k := ⟨j 0, j 1, eq_ix2 j⟩
  rw [View.read_apply]
  show k1_pay6 (F := Ideal) (iblk1 V c 3 t) (iblk1 V c 4 t) (iblk1 V c 0 t) (iblk1 V c 1 t) (iblk1 V c 2 t) (ix2 p k) = _
  rw [k1_pay6_at (128 * t.val) (off_le t) _ _ _ _ _ _ _ _ _ (fun p h => iblk1_3_at V c t p h) (fun r h => iblk1_4_at V c t r h)
    (fun p k => iblk1_0_at V c t p k) (fun p k => iblk1_1_at V c t p k) (fun p k => iblk1_2_at V c t p k), emb1_5]
  rfl

/-- What point t writes back to the high-pass weights is rows 128·t … of the high-pass weight matrix. -/
theorem flushed1_6_eq (c : Dev nD) (t : Fin cfg1.N) :
    (dat1 (F := Ideal) V c).flushed 6 t = ((cfg1.win 6).blk t).view.read (Elt Ideal) (ofMat (whp (toMat (a := 4096) (b := 128) (V c main_v0)) (toMat (a := 4096) (b := 4096) (V c main_arg1))
        (toMat (a := 4096) (b := 4096) (V c main_arg2)) (toMat (a := 4096) (b := 4096) (V c main_arg3)))) := by
  show (cfg1.win 6).cut (grid1.coords t) ((dat1 V c).after 6 t) = _
  rw [after1_6]
  unfold out1_6
  rw [View.canon_unit_zero hz2]
  simp only [View.ld_unit_zero (S := S128x4096) hz2, View.ld_unit_zero (S := S128x128) hz2, View.ld_unit_zero (S := S4096x128) hz2]
  funext j
  obtain ⟨p, k, rfl⟩ : ∃ (p : Fin 128) (k : Fin 4096), j = ix2 p k := ⟨j 0, j 1, eq_ix2 j⟩
  rw [View.read_apply]
  show k1_pay7 (F := Ideal) (iblk1 V c 3 t) (iblk1 V c 4 t) (iblk1 V c 0 t) (iblk1 V c 1 t) (iblk1 V c 2 t) (ix2 p k) = _
  rw [k1_pay7_at (128 * t.val) (off_le t) _ _ _ _ _ _ _ _ _ (fun p h => iblk1_3_at V c t p h) (fun r h => iblk1_4_at V c t r h)
    (fun p k => iblk1_0_at V c t p k) (fun p k => iblk1_1_at V c t p k) (fun p k => iblk1_2_at V c t p k), emb1_6]
  rfl

/-- What point t writes back to the edge mask is rows 128·t … of the edge mask. -/
theorem flushed1_7_eq (c : Dev nD) (t : Fin cfg1.N) :
    (dat1 (F := Ideal) V c).flushed 7 t = ((cfg1.win 7).blk t).view.read (Elt Ideal) (ofMat (mask (toMat (a := 4096) (b := 4096) (V c main_arg1)) (toMat (a := 4096) (b := 4096) (V c main_arg2)))) := by
  show (cfg1.win 7).cut (grid1.coords t) ((dat1 V c).after 7 t) = _
  rw [after1_7]
  unfold out1_7
  rw [View.canon_unit_zero hz2]
  simp only [View.ld_unit_zero (S := S128x4096) hz2, View.ld_unit_zero (S := S128x128) hz2, View.ld_unit_zero (S := S4096x128) hz2]
  funext j
  obtain ⟨p, k, rfl⟩ : ∃ (p : Fin 128) (k : Fin 4096), j = ix2 p k := ⟨j 0, j 1, eq_ix2 j⟩
  rw [View.read_apply]
  show k1_pay4 (F := Ideal) (iblk1 V c 0 t) (iblk1 V c 1 t) (ix2 p k) = _
  rw [k1_pay4_at (128 * t.val) (off_le t) _ _ _ _ (fun p k => iblk1_0_at V c t p k) (fun p k => iblk1_1_at V c t p k), emb1_7]
  rfl

/-- What point t writes back to the low-pass degrees is rows 128·t … of the low-pass degree column. -/
theorem flushed1_8_eq (c : Dev nD) (t : Fin cfg1.N) :
    (dat1 (F := Ideal) V c).flushed 8 t = ((cfg1.win 8).blk t).view.read (Elt Ideal)
      (fun i : S4096x1.Idx => deg (wlp (toMat (a := 4096) (b := 128) (V c main_v0)) (toMat (a := 4096) (b := 4096) (V c main_arg1))
        (toMat (a := 4096) (b := 4096) (V c main_arg2)) (toMat (a := 4096) (b := 4096) (V c main_arg3))) (i 0)) := by
  show (cfg1.win 8).cut (grid1.coords t) ((dat1 V c).after 8 t) = _
  rw [after1_8]
  unfold out1_8
  rw [View.canon_unit_zero hz2]
  simp only [View.ld_unit_zero (S := S128x4096) hz2, View.ld_unit_zero (S := S128x128) hz2, View.ld_unit_zero (S := S4096x128) hz2]
  funext j
  obtain ⟨p, z, rfl⟩ : ∃ (p : Fin 128) (z : Fin 1), j = ix2 p z := ⟨j 0, j 1, eq_ix2 j⟩
  rw [View.read_apply]
  show k1_pay1 (F := Ideal) (k1_pay6 (iblk1 V c 3 t) (iblk1 V c 4 t) (iblk1 V c 0 t) (iblk1 V c 1 t) (iblk1 V c 2 t)) (ix2 p z) = _
  rw [k1_pay1_at, emb1_8]
  simp only [k1_pay6_at (128 * t.val) (off_le t) _ _ _ _ _ _ _ _ _ (fun p h => iblk1_3_at V c t p h) (fun r h => iblk1_4_at V c t r h)
    (fun p k => iblk1_0_at V c t p k) (fun p k => iblk1_1_at V c t p k) (fun p k => iblk1_2_at V c t p k)]
  rfl

/-- What point t writes back to the high-pass degrees is rows 128·t … of the high-pass degree column. -/
theorem flushed1_9_eq (c : Dev nD) (t : Fin cfg1.N) :
    (dat1 (F := Ideal) V c).flushed 9 t = ((cfg1.win 9).blk t).view.read (Elt Ideal)
      (fun i : S4096x1.Idx => deg (whp (toMat (a := 4096) (b := 128) (V c main_v0)) (toMat (a := 4096) (b := 4096) (V c main_arg1))
        (toMat (a := 4096) (b := 4096) (V c main_arg2)) (toMat (a := 4096) (b := 4096) (V c main_arg3))) (i 0)) := by
  show (cfg1.win 9).cut (grid1.coords t) ((dat1 V c).after 9 t) = _
  rw [after1_9]
  unfold out1_9
  rw [View.canon_unit_zero hz2]
  simp only [View.ld_unit_zero (S := S128x4096) hz2, View.ld_unit_zero (S := S128x128) hz2, View.ld_unit_zero (S := S4096x128) hz2]
  funext j
  obtain ⟨p, z, rfl⟩ : ∃ (p : Fin 128) (z : Fin 1), j = ix2 p z := ⟨j 0, j 1, eq_ix2 j⟩
  rw [View.read_apply]
  show k1_pay2 (F := Ideal) (k1_pay7 (iblk1 V c 3 t) (iblk1 V c 4 t) (iblk1 V c 0 t) (iblk1 V c 1 t) (iblk1 V c 2 t)) (ix2 p z) = _
  rw [k1_pay2_at, emb1_9]
  simp only [k1_pay7_at (128 * t.val) (off_le t) _ _ _ _ _ _ _ _ _ (fun p h => iblk1_3_at V c t p h) (fun r h => iblk1_4_at V c t r h)
    (fun p k => iblk1_0_at V c t p k) (fun p k => iblk1_1_at V c t p k) (fun p k => iblk1_2_at V c t p k)]
  rfl

/-- The low-pass weight array after region 1. -/
theorem arrAt1_5 (c : Dev nD) :
    (dat1 (F := Ideal) V c).arrAt 5 cfg1.N = ofMat (wlp (toMat (a := 4096) (b := 128) (V c main_v0)) (toMat (a := 4096) (b := 4096) (V c main_arg1))
        (toMat (a := 4096) (b := 4096) (V c main_arg2)) (toMat (a := 4096) (b := 4096) (V c main_arg3))) :=
  (dat1 (F := Ideal) V c).arrAt_eq_of_cover 5 _ (fun t _ => flushed1_5_eq V c t) cover1_5

/-- The high-pass weight array after region 1. -/
theorem arrAt1_6 (c : Dev nD) :
    (dat1 (F := Ideal) V c).arrAt 6 cfg1.N = ofMat (whp (toMat (a := 4096) (b := 128) (V c main_v0)) (toMat (a := 4096) (b := 4096) (V c main_arg1))
        (toMat (a := 4096) (b := 4096) (V c main_arg2)) (toMat (a := 4096) (b := 4096) (V c main_arg3))) :=
  (dat1 (F := Ideal) V c).arrAt_eq_of_cover 6 _ (fun t _ => flushed1_6_eq V c t) cover1_6

/-- The edge mask array after region 1. -/
theorem arrAt1_7 (c : Dev nD) :
    (dat1 (F := Ideal) V c).arrAt 7 cfg1.N = ofMat (mask (toMat (a := 4096) (b := 4096) (V c main_arg1)) (toMat (a := 4096) (b := 4096) (V c main_arg2))) :=
  (dat1 (F := Ideal) V c).arrAt_eq_of_cover 7 _ (fun t _ => flushed1_7_eq V c t) cover1_7

/-- The low-pass degree column after region 1. -/
theorem arrAt1_8 (c : Dev nD) :
    (dat1 (F := Ideal) V c).arrAt 8 cfg1.N = fun i : S4096x1.Idx => deg (wlp (toMat (a := 4096) (b := 128) (V c main_v0)) (toMat (a := 4096) (b := 4096) (V c main_arg1))
        (toMat (a := 4096) (b := 4096) (V c main_arg2)) (toMat (a := 4096) (b := 4096) (V c main_arg3))) (i 0) :=
  (dat1 (F := Ideal) V c).arrAt_eq_of_cover 8 _ (fun t _ => flushed1_8_eq V c t) cover1_8

/-- The high-pass degree column after region 1. -/
theorem arrAt1_9 (c : Dev nD) :
    (dat1 (F := Ideal) V c).arrAt 9 cfg1.N = fun i : S4096x1.Idx => deg (whp (toMat (a := 4096) (b := 128) (V c main_v0)) (toMat (a := 4096) (b := 4096) (V c main_arg1))
        (toMat (a := 4096) (b := 4096) (V c main_arg2)) (toMat (a := 4096) (b := 4096) (V c main_arg3))) (i 0) :=
  (dat1 (F := Ideal) V c).arrAt_eq_of_cover 9 _ (fun t _ => flushed1_9_eq V c t) cover1_9

end Cert.KernelIdeal.KV

end
-- ==== Proof.Pay2.lean ====
/-
  The third kernel's values read at an index, on the extended reals: the identity's entry from the two coordinate
  counters, the recovered edge mask, the two normalised matrices and the last product of the high-pass result.
-/
import proofs.«116308_j1889785610729_2_alg».proof.Proof.Gen.KernelIdeal.Skeleton
import proofs.«116308_j1889785610729_2_alg».proof.Proof.Spec
import proofs.«116308_j1889785610729_2_alg».proof.Proof.LibCompareBit
import proofs.«116308_j1889785610729_2_alg».proof.Proof.LibKeepdims
import Idealize.ShloMosaic.Lib.ValueIdx
import Idealize.ShloMosaic.Lib.ValueLayout
import Idealize.ShloMosaic.Lib.Pipeline.Value
import Idealize.ShloMosaic.PureOps.Ideal

noncomputable section

namespace Cert.KernelIdeal.Pay

open Idealize.ShloMosaic Idealize.ShloMosaic.ValueIdx Cert.KernelIdeal Cert.KernelIdeal.Gen Cert.EdgeSpec

/-- The row of the whole array that row p of the block at grid point i holds: blocks of 256 rows, sixteen of them. -/
def rowOf (i : grid2.Coords) (p : Fin 256) : Fin 4096 :=
  ⟨256 * (i 0).val + p.val, by
    have h : (i 0).val < 16 := (i 0).isLt
    have := p.isLt
    omega⟩

/-- Below 4096 the 32-bit sum of 256 times the block number and the row inside the block does not wrap, so the words
    are equal exactly when the numbers are. -/
theorem word_eq_iff (a p c : ℕ) (ha : a < 16) (hp : p < 256) (hc : c < 4096) :
    BitVec.ofNat 32 a * 256#32 + BitVec.ofNat 32 p = BitVec.ofNat 32 c ↔ 256 * a + p = c := by
  rw [← BitVec.toNat_inj]
  simp only [BitVec.toNat_add, BitVec.toNat_mul, BitVec.toNat_ofNat]
  omega

/-- An equality test's bit, widened to 32 bits and read as a signed number, is 1 when the words are equal and 0 when
    they are not. -/
theorem eq_bit (x y : BitVec 32) :
    ((((IntOp.cmpi .eq x y).setWidth 32).toInt : ℝ) : EReal) = if x = y then 1 else 0 := by
  rw [CompareBit.bit_signed_eq]
  unfold IntOp.cmpi
  by_cases h : x = y
  · simp [h]
  · simp [h]

/-- The identity's entry: the row counter offset by 256 times the block number, tested against the column counter. -/
theorem k2_pay2_at (i : grid2.Coords) (p : Fin 256) (c : Fin 4096) :
    k2_pay2 (F := Ideal) i (ix2 p c) = delta (rowOf i p) c := by
  unfold k2_pay2
  rw [sitofp_apply, extui_apply]
  refine (eq_bit (IntOp.addi (Scalar.muli (BitVec.ofNat 32 (i 0).val) 256#32)
      (iota .tc S256x4096 32 [0] iota_S256x4096_d0_w32 (ix2 p c)))
    (iota .tc S256x4096 32 [1] iota_S256x4096_d1_w32 (ix2 p c))).trans ?_
  rw [iota_single_apply, iota_single_apply]
  unfold delta
  refine if_congr ?_ rfl rfl
  refine (word_eq_iff (i 0).val p.val c.val (i 0).isLt p.isLt c.isLt).trans ?_
  exact (Fin.ext_iff (a := rowOf i p) (b := c)).symm

/-- The recovered edge mask: the sum of the two weight blocks. -/
theorem k2_pay5_at (v8 v10 : Vec Ideal S256x4096 .f32) (p : Fin 256) (c : Fin 4096) :
    k2_pay5 (F := Ideal) v8 v10 (ix2 p c) = v8 (ix2 p c) + v10 (ix2 p c) := by
  unfold k2_pay5 k2_pay3 k2_pay4
  rw [addf_apply, shapeCast_self, shapeCast_self]

/-- The low-pass result: the weight plus the identity, scaled by the row's and the column's inverse root degree. -/
theorem k2_pay6_at (i : grid2.Coords) (v8 : Vec Ideal S256x4096 .f32) (v13 : Vec Ideal S256x1 .f32)
    (v18 : Vec Ideal S1x4096 .f32) (p : Fin 256) (c : Fin 4096) :
    k2_pay6 (F := Ideal) i v8 v13 v18 (ix2 p c)
      = ((v8 (ix2 p c) + delta (rowOf i p) c) * Ideal.rsqrt (v13 (ix2 p 0) + wEta))
          * Ideal.rsqrt (v18 (ix2 0 c) + wEta) := by
  unfold k2_pay6 k2_pay3
  rw [mulf_apply, mulf_apply, addf_apply, k2_pay2_at, Keepdims.broadcastTo_a1_ab_apply, broadcastTo_1b_ab_apply,
    shapeCast_self, shapeCast_self, shapeCast_self]
  rfl

/-- The high-pass product before the column scale: the weight plus the identity, scaled by the row's inverse root
    degree. -/
theorem k2_pay7_at (i : grid2.Coords) (v10 : Vec Ideal S256x4096 .f32) (v23 : Vec Ideal S256x1 .f32)
    (p : Fin 256) (c : Fin 4096) :
    k2_pay7 (F := Ideal) i v10 v23 (ix2 p c)
      = (v10 (ix2 p c) + delta (rowOf i p) c) * Ideal.rsqrt (v23 (ix2 p 0) + wEta) := by
  unfold k2_pay7 k2_pay4
  rw [mulf_apply, addf_apply, k2_pay2_at, Keepdims.broadcastTo_a1_ab_apply, shapeCast_self, shapeCast_self]
  rfl

/-- The column's inverse root degree, spread over the rows. -/
theorem k2_pay8_at (v28 : Vec Ideal S1x4096 .f32) (p : Fin 256) (c : Fin 4096) :
    k2_pay8 (F := Ideal) v28 (ix2 p c) = Ideal.rsqrt (v28 (ix2 0 c) + wEta) := by
  unfold k2_pay8
  rw [broadcastTo_1b_ab_apply, shapeCast_self]
  rfl

/-- The high-pass result: the identity less the scaled product times the mask times the constant. -/
theorem k2_pay1_at (v7 v12 v40 v41 : FVec Ideal S256x4096 .f32) (p : Fin 256) (c : Fin 4096) :
    k2_pay1 (F := Ideal) v7 v12 v40 v41 (ix2 p c)
      = v7 (ix2 p c) - ((v40 (ix2 p c) * v41 (ix2 p c)) * v12 (ix2 p c)) * wAlpha := by
  unfold k2_pay1
  rfl

end Cert.KernelIdeal.Pay

end
-- ==== Proof.KV2.lean ====
/-
  What the two result arrays hold after region 2, on the extended reals, as functions of the six arrays the region
  reads as it finds them. The region has sixteen grid points; at point t the two weight windows, the two degree-column
  windows and the two result windows hold rows 256·t to 256·t + 255 of their arrays, and the two degree-row windows
  hold their whole one-row arrays. So the block written back at point t is rows 256·t … of one whole-array function,
  and the sixteen blocks cover every row.
-/
import proofs.«116308_j1889785610729_2_alg».proof.Proof.KI.R2
import proofs.«116308_j1889785610729_2_alg».proof.Proof.Pay2
import proofs.«116308_j1889785610729_2_alg».proof.Proof.Spec
import Idealize.ShloMosaic.Lib.Pipeline.Value
import Idealize.ShloMosaic.Lib.ValueIdx

noncomputable section

namespace Cert.KernelIdeal.KV

open Cert.KernelIdeal Cert.KernelIdeal.Gen Cert.KernelIdeal.Frame Cert.KernelIdeal.Pay Cert.EdgeSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-! The printed index maps, decided over the sixteen points: a row-blocked window's block index is the point's number
    on the row axis and zero on the column axis, a resident window's is zero on both, and the point's one coordinate
    is its number. -/

theorem idx_facts2_0 : ∀ t : Fin cfg2.N, win2_0.index t (0 : Fin 2) = t.val ∧ win2_0.index t (1 : Fin 2) = 0
    ∧ (grid2.coords t 0).val = t.val :=
  (by decide +kernel : ∀ t : Fin grid2.N, _)

theorem idx_facts2_1 : ∀ t : Fin cfg2.N, win2_1.index t (0 : Fin 2) = t.val ∧ win2_1.index t (1 : Fin 2) = 0
    ∧ (grid2.coords t 0).val = t.val :=
  (by decide +kernel : ∀ t : Fin grid2.N, _)

theorem idx_facts2_2 : ∀ t : Fin cfg2.N, win2_2.index t (0 : Fin 2) = t.val ∧ win2_2.index t (1 : Fin 2) = 0
    ∧ (grid2.coords t 0).val = t.val :=
  (by decide +kernel : ∀ t : Fin grid2.N, _)

theorem idx_facts2_4 : ∀ t : Fin cfg2.N, win2_4.index t (0 : Fin 2) = t.val ∧ win2_4.index t (1 : Fin 2) = 0
    ∧ (grid2.coords t 0).val = t.val :=
  (by decide +kernel : ∀ t : Fin grid2.N, _)

theorem idx_facts2_6 : ∀ t : Fin cfg2.N, win2_6.index t (0 : Fin 2) = t.val ∧ win2_6.index t (1 : Fin 2) = 0
    ∧ (grid2.coords t 0).val = t.val :=
  (by decide +kernel : ∀ t : Fin grid2.N, _)

theorem idx_facts2_7 : ∀ t : Fin cfg2.N, win2_7.index t (0 : Fin 2) = t.val ∧ win2_7.index t (1 : Fin 2) = 0
    ∧ (grid2.coords t 0).val = t.val :=
  (by decide +kernel : ∀ t : Fin grid2.N, _)

theorem idx_facts2_3 : ∀ t : Fin cfg2.N, win2_3.index t (0 : Fin 2) = 0 ∧ win2_3.index t (1 : Fin 2) = 0
    ∧ (grid2.coords t 0).val = t.val :=
  (by decide +kernel : ∀ t : Fin grid2.N, _)

theorem idx_facts2_5 : ∀ t : Fin cfg2.N, win2_5.index t (0 : Fin 2) = 0 ∧ win2_5.index t (1 : Fin 2) = 0
    ∧ (grid2.coords t 0).val = t.val :=
  (by decide +kernel : ∀ t : Fin grid2.N, _)

/-- The low-pass weight window's block at point t is rows 256·t … of the low-pass weight array. -/
theorem iblk2_0_at (c : Dev nD) (t : Fin cfg2.N) (p : Fin 256) (k : Fin 4096) :
    (iblk2 V c 0 t : Vec Ideal S256x4096 .f32) (ix2 p k) = V c main_v1_0 (ix2 (rowOf (grid2.coords t) p) k) := by
  obtain ⟨e0, e1, eg⟩ := idx_facts2_0 t
  unfold iblk2
  rw [View.read_apply]
  show V c main_v1_0 _ = V c main_v1_0 _
  refine congrArg (V c main_v1_0) (funext fun a => Fin.ext ?_)
  match a with
  | ⟨0, _⟩ => show win2_0.index t (0 : Fin 2) * 256 + 1 * p.val = 256 * (grid2.coords t 0).val + p.val; rw [e0, eg]; omega
  | ⟨1, _⟩ => show win2_0.index t (1 : Fin 2) * 4096 + 1 * k.val = k.val; rw [e1]; omega

/-- The high-pass weight window's block likewise. -/
theorem iblk2_1_at (c : Dev nD) (t : Fin cfg2.N) (p : Fin 256) (k : Fin 4096) :
    (iblk2 V c 1 t : Vec Ideal S256x4096 .f32) (ix2 p k) = V c main_v1_1 (ix2 (rowOf (grid2.coords t) p) k) := by
  obtain ⟨e0, e1, eg⟩ := idx_facts2_1 t
  unfold iblk2
  rw [View.read_apply]
  show V c main_v1_1 _ = V c main_v1_1 _
  refine congrArg (V c main_v1_1) (funext fun a => Fin.ext ?_)
  match a with
  | ⟨0, _⟩ => show win2_1.index t (0 : Fin 2) * 256 + 1 * p.val = 256 * (grid2.coords t 0).val + p.val; rw [e0, eg]; omega
  | ⟨1, _⟩ => show win2_1.index t (1 : Fin 2) * 4096 + 1 * k.val = k.val; rw [e1]; omega

/-- The low-pass degree column's block likewise. -/
theorem iblk2_2_at (c : Dev nD) (t : Fin cfg2.N) (p : Fin 256) (k : Fin 1) :
    (iblk2 V c 2 t : Vec Ideal S256x1 .f32) (ix2 p k) = V c main_v1_3 (ix2 (rowOf (grid2.coords t) p) k) := by
  obtain ⟨e0, e1, eg⟩ := idx_facts2_2 t
  unfold iblk2
  rw [View.read_apply]
  show V c main_v1_3 _ = V c main_v1_3 _
  refine congrArg (V c main_v1_3) (funext fun a => Fin.ext ?_)
  match a with
  | ⟨0, _⟩ => show win2_2.index t (0 : Fin 2) * 256 + 1 * p.val = 256 * (grid2.coords t 0).val + p.val; rw [e0, eg]; omega
  | ⟨1, _⟩ => show win2_2.index t (1 : Fin 2) * 1 + 1 * k.val = k.val; rw [e1]; omega

/-- The high-pass degree column's block likewise. -/
theorem iblk2_4_at (c : Dev nD) (t : Fin cfg2.N) (p : Fin 256) (k : Fin 1) :
    (iblk2 V c 4 t : Vec Ideal S256x1 .f32) (ix2 p k) = V c main_v1_4 (ix2 (rowOf (grid2.coords t) p) k) := by
  obtain ⟨e0, e1, eg⟩ := idx_facts2_4 t
  unfold iblk2
  rw [View.read_apply]
  show V c main_v1_4 _ = V c main_v1_4 _
  refine congrArg (V c main_v1_4) (funext fun a => Fin.ext ?_)
  match a with
  | ⟨0, _⟩ => show win2_4.index t (0 : Fin 2) * 256 + 1 * p.val = 256 * (grid2.coords t 0).val + p.val; rw [e0, eg]; omega
  | ⟨1, _⟩ => show win2_4.index t (1 : Fin 2) * 1 + 1 * k.val = k.val; rw [e1]; omega

/-- The low-pass degree row's block is the whole one-row array. -/
theorem iblk2_3_at (c : Dev nD) (t : Fin cfg2.N) (p : Fin 1) (k : Fin 4096) :
    (iblk2 V c 3 t : Vec Ideal S1x4096 .f32) (ix2 p k) = V c main_v2 (ix2 p k) := by
  obtain ⟨e0, e1, eg⟩ := idx_facts2_3 t
  unfold iblk2
  rw [View.read_apply]
  show V c main_v2 _ = V c main_v2 _
  refine congrArg (V c main_v2) (funext fun a => Fin.ext ?_)
  match a with
  | ⟨0, _⟩ => show win2_3.index t (0 : Fin 2) * 1 + 1 * p.val = p.val; rw [e0]; omega
  | ⟨1, _⟩ => show win2_3.index t (1 : Fin 2) * 4096 + 1 * k.val = k.val; rw [e1]; omega

/-- The high-pass degree row's block likewise. -/
theorem iblk2_5_at (c : Dev nD) (t : Fin cfg2.N) (p : Fin 1) (k : Fin 4096) :
    (iblk2 V c 5 t : Vec Ideal S1x4096 .f32) (ix2 p k) = V c main_v3 (ix2 p k) := by
  obtain ⟨e0, e1, eg⟩ := idx_facts2_5 t
  unfold iblk2
  rw [View.read_apply]
  show V c main_v3 _ = V c main_v3 _
  refine congrArg (V c main_v3) (funext fun a => Fin.ext ?_)
  match a with
  | ⟨0, _⟩ => show win2_5.index t (0 : Fin 2) * 1 + 1 * p.val = p.val; rw [e0]; omega
  | ⟨1, _⟩ => show win2_5.index t (1 : Fin 2) * 4096 + 1 * k.val = k.val; rw [e1]; omega

/-- An entry of the block of result window 6 at point t sits in the array at row 256·t plus its row, same column. -/
theorem emb2_6 (t : Fin cfg2.N) (p : Fin 256) (k : Fin 4096) :
    ((cfg2.win 6).blk t).view.emb (ix2 p k) = (ix2 (rowOf (grid2.coords t) p) k : S4096x4096.Idx) := by
  obtain ⟨e0, e1, eg⟩ := idx_facts2_6 t
  funext a
  apply Fin.ext
  match a with
  | ⟨0, _⟩ => show win2_6.index t (0 : Fin 2) * 256 + 1 * p.val = 256 * (grid2.coords t 0).val + p.val; rw [e0, eg]; omega
  | ⟨1, _⟩ => show win2_6.index t (1 : Fin 2) * 4096 + 1 * k.val = k.val; rw [e1]; omega

/-- An entry of the array is in point t's block of result window 6 when each coordinate is in the block's range. -/
theorem mem_blk2_6 (t : Fin cfg2.N) (i : S4096x4096.Idx) :
    i ∈ ((cfg2.win 6).blk t).view.set ↔ ∀ a : Fin 2, win2_6.index t a * S256x4096.size a ≤ (i a).val
      ∧ (i a).val < win2_6.index t a * S256x4096.size a + S256x4096.size a := by
  show i ∈ ((View.whole main_v4_0).slice (win2_6.rect t)).set ↔ _
  rw [View.set_slice_whole, Rect.mem_set_unit]
  exact Iff.rfl

/-- Every entry is in some point's block: the point numbered by the entry's row divided by 256. -/
theorem cover2_6 (i : S4096x4096.Idx) :
    ∃ t : Fin cfg2.N, (cfg2.win 6).flush t = true ∧ i ∈ ((cfg2.win 6).blk t).view.set := by
  have h0 : (i 0).val < 4096 := (i 0).isLt
  have h1 : (i 1).val < 4096 := (i 1).isLt
  have hN : cfg2.N = 16 := N_2
  obtain ⟨t, ht⟩ : ∃ t : Fin cfg2.N, t.val = (i 0).val / 256 :=
    ⟨⟨(i 0).val / 256, lt_of_lt_of_eq (by omega : (i 0).val / 256 < 16) hN.symm⟩, rfl⟩
  obtain ⟨e0, e1, -⟩ := idx_facts2_6 t
  refine ⟨t, flush2_6 t, ?_⟩
  rw [mem_blk2_6]
  intro a
  match a with
  | ⟨0, _⟩ =>
    show win2_6.index t (0 : Fin 2) * 256 ≤ (i 0).val ∧ (i 0).val < win2_6.index t (0 : Fin 2) * 256 + 256
    rw [e0, ht]; omega
  | ⟨1, _⟩ =>
    show win2_6.index t (1 : Fin 2) * 4096 ≤ (i 1).val ∧ (i 1).val < win2_6.index t (1 : Fin 2) * 4096 + 4096
    rw [e1]; omega

/-- An entry of the block of result window 7 at point t sits in the array at row 256·t plus its row, same column. -/
theorem emb2_7 (t : Fin cfg2.N) (p : Fin 256) (k : Fin 4096) :
    ((cfg2.win 7).blk t).view.emb (ix2 p k) = (ix2 (rowOf (grid2.coords t) p) k : S4096x4096.Idx) := by
  obtain ⟨e0, e1, eg⟩ := idx_facts2_7 t
  funext a
  apply Fin.ext
  match a with
  | ⟨0, _⟩ => show win2_7.index t (0 : Fin 2) * 256 + 1 * p.val = 256 * (grid2.coords t 0).val + p.val; rw [e0, eg]; omega
  | ⟨1, _⟩ => show win2_7.index t (1 : Fin 2) * 4096 + 1 * k.val = k.val; rw [e1]; omega

/-- An entry of the array is in point t's block of result window 7 when each coordinate is in the block's range. -/
theorem mem_blk2_7 (t : Fin cfg2.N) (i : S4096x4096.Idx) :
    i ∈ ((cfg2.win 7).blk t).view.set ↔ ∀ a : Fin 2, win2_7.index t a * S256x4096.size a ≤ (i a).val
      ∧ (i a).val < win2_7.index t a * S256x4096.size a + S256x4096.size a := by
  show i ∈ ((View.whole main_v4_1).slice (win2_7.rect t)).set ↔ _
  rw [View.set_slice_whole, Rect.mem_set_unit]
  exact Iff.rfl

/-- Every entry is in some point's block: the point numbered by the entry's row divided by 256. -/
theorem cover2_7 (i : S4096x4096.Idx) :
    ∃ t : Fin cfg2.N, (cfg2.win 7).flush t = true ∧ i ∈ ((cfg2.win 7).blk t).view.set := by
  have h0 : (i 0).val < 4096 := (i 0).isLt
  have h1 : (i 1).val < 4096 := (i 1).isLt
  have hN : cfg2.N = 16 := N_2
  obtain ⟨t, ht⟩ : ∃ t : Fin cfg2.N, t.val = (i 0).val / 256 :=
    ⟨⟨(i 0).val / 256, lt_of_lt_of_eq (by omega : (i 0).val / 256 < 16) hN.symm⟩, rfl⟩
  obtain ⟨e0, e1, -⟩ := idx_facts2_7 t
  refine ⟨t, flush2_7 t, ?_⟩
  rw [mem_blk2_7]
  intro a
  match a with
  | ⟨0, _⟩ =>
    show win2_7.index t (0 : Fin 2) * 256 ≤ (i 0).val ∧ (i 0).val < win2_7.index t (0 : Fin 2) * 256 + 256
    rw [e0, ht]; omega
  | ⟨1, _⟩ =>
    show win2_7.index t (1 : Fin 2) * 4096 ≤ (i 1).val ∧ (i 1).val < win2_7.index t (1 : Fin 2) * 4096 + 4096
    rw [e1]; omega

/-- The low-pass result as one function of the arrays the region reads. -/
abbrev lpArr (c : Dev nD) : S4096x4096.Idx → EReal :=
  ofMat (fun r k => ((toMat (a := 4096) (b := 4096) (V c main_v1_0) r k + delta r k)
        * Ideal.rsqrt (toMat (a := 4096) (b := 1) (V c main_v1_3) r 0 + wEta)) * Ideal.rsqrt (toMat (a := 1) (b := 4096) (V c main_v2) 0 k + wEta))

/-- The high-pass result as one function of the arrays the region reads. -/
abbrev hpArr (c : Dev nD) : S4096x4096.Idx → EReal :=
  ofMat (fun r k => delta r k - ((((toMat (a := 4096) (b := 4096) (V c main_v1_1) r k + delta r k)
        * Ideal.rsqrt (toMat (a := 4096) (b := 1) (V c main_v1_4) r 0 + wEta)) * Ideal.rsqrt (toMat (a := 1) (b := 4096) (V c main_v3) 0 k + wEta))
        * (toMat (a := 4096) (b := 4096) (V c main_v1_0) r k + toMat (a := 4096) (b := 4096) (V c main_v1_1) r k)) * wAlpha)

/-- What point t writes back to the low-pass result is rows 256·t … of that function. -/
theorem flushed2_6_eq (c : Dev nD) (t : Fin cfg2.N) :
    (dat2 (F := Ideal) V c).flushed 6 t = ((cfg2.win 6).blk t).view.read (Elt Ideal) (lpArr V c) := by
  show (cfg2.win 6).cut (grid2.coords t) ((dat2 V c).after 6 t) = _
  rw [after2_6]
  unfold out2_6
  rw [View.canon_unit_zero hz2]
  simp only [View.ld_unit_zero (S := S256x4096) hz2, View.ld_unit_zero (S := S256x1) hz2, View.ld_unit_zero (S := S1x4096) hz2]
  funext j
  obtain ⟨p, k, rfl⟩ : ∃ (p : Fin 256) (k : Fin 4096), j = ix2 p k := ⟨j 0, j 1, eq_ix2 j⟩
  rw [View.read_apply]
  show k2_pay6 (F := Ideal) (grid2.coords t) (iblk2 V c 0 t) (iblk2 V c 2 t) (iblk2 V c 3 t) (ix2 p k) = _
  rw [k2_pay6_at, iblk2_0_at, iblk2_2_at, iblk2_3_at, emb2_6]
  rfl

/-- What point t writes back to the high-pass result is rows 256·t … of that function. -/
theorem flushed2_7_eq (c : Dev nD) (t : Fin cfg2.N) :
    (dat2 (F := Ideal) V c).flushed 7 t = ((cfg2.win 7).blk t).view.read (Elt Ideal) (hpArr V c) := by
  show (cfg2.win 7).cut (grid2.coords t) ((dat2 V c).after 7 t) = _
  rw [after2_7]
  unfold out2_7
  rw [View.canon_unit_zero hz2]
  simp only [View.ld_unit_zero (S := S256x4096) hz2, View.ld_unit_zero (S := S256x1) hz2, View.ld_unit_zero (S := S1x4096) hz2]
  funext j
  obtain ⟨p, k, rfl⟩ : ∃ (p : Fin 256) (k : Fin 4096), j = ix2 p k := ⟨j 0, j 1, eq_ix2 j⟩
  rw [View.read_apply]
  show k2_pay1 (F := Ideal) (k2_pay2 (F := Ideal) (grid2.coords t)) (k2_pay5 (iblk2 V c 0 t) (iblk2 V c 1 t))
    (k2_pay7 (grid2.coords t) (iblk2 V c 1 t) (iblk2 V c 4 t)) (k2_pay8 (iblk2 V c 5 t)) (ix2 p k) = _
  rw [k2_pay1_at, k2_pay2_at, k2_pay5_at, k2_pay7_at, k2_pay8_at, iblk2_0_at, iblk2_1_at, iblk2_4_at, iblk2_5_at, emb2_7]
  rfl

/-- The low-pass result array after region 2. -/
theorem arrAt2_6 (c : Dev nD) :
    (dat2 (F := Ideal) V c).arrAt 6 cfg2.N
      = ofMat (fun r k => ((toMat (a := 4096) (b := 4096) (V c main_v1_0) r k + delta r k)
        * Ideal.rsqrt (toMat (a := 4096) (b := 1) (V c main_v1_3) r 0 + wEta)) * Ideal.rsqrt (toMat (a := 1) (b := 4096) (V c main_v2) 0 k + wEta)) :=
  (dat2 (F := Ideal) V c).arrAt_eq_of_cover 6 (lpArr V c) (fun t _ => flushed2_6_eq V c t) cover2_6

/-- The high-pass result array after region 2. -/
theorem arrAt2_7 (c : Dev nD) :
    (dat2 (F := Ideal) V c).arrAt 7 cfg2.N
      = ofMat (fun r k => delta r k - ((((toMat (a := 4096) (b := 4096) (V c main_v1_1) r k + delta r k)
        * Ideal.rsqrt (toMat (a := 4096) (b := 1) (V c main_v1_4) r 0 + wEta)) * Ideal.rsqrt (toMat (a := 1) (b := 4096) (V c main_v3) 0 k + wEta))
        * (toMat (a := 4096) (b := 4096) (V c main_v1_0) r k + toMat (a := 4096) (b := 4096) (V c main_v1_1) r k)) * wAlpha) :=
  (dat2 (F := Ideal) V c).arrAt_eq_of_cover 7 (hpArr V c) (fun t _ => flushed2_7_eq V c t) cover2_7

end Cert.KernelIdeal.KV

end
-- ==== Proof.KernelValue.lean ====
/-
  What the kernel's program leaves in its five result arrays, as the specification's functions of the six argument
  arrays, at the ideal instance.

  The chain follows the program. Region 0 writes the embedding e of (features, W1, b1). Region 1 reads the three
  4096 × 4096 arguments as launched and the embedding, and writes w_lp, w_hp, the edge mask and the two degree columns
  d_lp, d_hp (the row sum plus one). The host reshapes each degree column [4096, 1] to a row [1, 4096]: entry (0, k) of
  the row is entry (k, 0) of the column. Region 2 reads w_lp, w_hp, the degree columns and rows and writes the two
  normalised arrays. Nothing writes w_lp, w_hp or the mask after region 1, and nothing writes an argument.
-/
import proofs.«116308_j1889785610729_2_alg».proof.Proof.KI.Run
import proofs.«116308_j1889785610729_2_alg».proof.Proof.KV0
import proofs.«116308_j1889785610729_2_alg».proof.Proof.KV1
import proofs.«116308_j1889785610729_2_alg».proof.Proof.KV2
import proofs.«116308_j1889785610729_2_alg».proof.Proof.Spec
import Idealize.ShloMosaic.Lib.Pipeline.Value
import Idealize.ShloMosaic.Lib.StableHlo.Run

set_option maxRecDepth 16384

noncomputable section

namespace Cert.KernelIdeal.KV

open Cert.KernelIdeal Cert.KernelIdeal.Gen Cert.KernelIdeal.Frame Cert.EdgeSpec
open Idealize.ShloMosaic Idealize.ShloMosaic.TcCoe Idealize.ShloMosaic.ValueIdx Idealize.SL.Sem Idealize.ShloMosaic.StableHlo

/-- A column [n, 1] reshaped to a row [1, n]: entry (0, k) of the row is entry (k, 0) of the column. -/
theorem col_as_row {α : Type} {n : ℕ} (x : (⟨2, ![n, 1]⟩ : Shape).Idx → α) (h : (⟨2, ![n, 1]⟩ : Shape).ShapeCasts ⟨2, ![1, n]⟩)
    (p : Fin 1) (k : Fin n) : shapeCast ⟨2, ![1, n]⟩ x h (ix2 p k) = x (ix2 k (0 : Fin 1)) :=
  shapeCast_apply x h (ix2 p k) (ix2 k 0) (by
    rw [Shape.rowMajor_val_two, Shape.rowMajor_val_two]
    have hp : p = 0 := Fin.ext (by have := p.isLt; omega)
    subst hp
    show k.val * 1 + 0 = 0 * n + k.val
    omega)

variable (m : (ℓ : Loc nD τ sig) → Buf (Elt Ideal) ℓ) (ρ : Dev nD → PrngReg) (c : Dev nD)

/-- The six argument arrays of core c as launched. -/
abbrev a0 : (⟨2, ![4096, 512]⟩ : Shape).Idx → EReal := m ((c.tc : Thread nD τ).loc main_arg0)
abbrev a1 : (⟨2, ![4096, 4096]⟩ : Shape).Idx → EReal := m ((c.tc : Thread nD τ).loc main_arg1)
abbrev a2 : (⟨2, ![4096, 4096]⟩ : Shape).Idx → EReal := m ((c.tc : Thread nD τ).loc main_arg2)
abbrev a3 : (⟨2, ![4096, 4096]⟩ : Shape).Idx → EReal := m ((c.tc : Thread nD τ).loc main_arg3)
abbrev a4 : (⟨2, ![512, 128]⟩ : Shape).Idx → EReal := m ((c.tc : Thread nD τ).loc main_arg4)
abbrev a5 : (⟨1, ![128]⟩ : Shape).Idx → EReal := m ((c.tc : Thread nD τ).loc main_arg5)

/-- The embedding, the three square arguments as matrices. -/
abbrev E : Mat 4096 128 := emb (toMat (a0 m c)) (toMat (a4 m c)) (toVec (a5 m c))
abbrev A : Mat 4096 4096 := toMat (a1 m c)
abbrev A2 : Mat 4096 4096 := toMat (a2 m c)
abbrev Un : Mat 4096 4096 := toMat (a3 m c)

/-! ## Region 0 and region 1's entry -/

theorem U1_emb : U1 m ρ c main_v0 = ofMat (E m c) :=
  (show U1 m ρ c (Pipeline.arrRef spec0 3) = _ from (hF0 m ρ c 3).symm).trans (arrAt0_3 (U0 m ρ) c)
theorem U1_a1 : U1 m ρ c main_arg1 = a1 m c := W1_keep m ρ c main_arg1 (by decide)
theorem U1_a2 : U1 m ρ c main_arg2 = a2 m c := W1_keep m ρ c main_arg2 (by decide)
theorem U1_a3 : U1 m ρ c main_arg3 = a3 m c := W1_keep m ρ c main_arg3 (by decide)

/-! ## Region 1's results -/

theorem U2_wlp : U2 m ρ c main_v1_0 = ofMat (wlp (E m c) (A m c) (A2 m c) (Un m c)) := by
  refine (show U2 m ρ c (Pipeline.arrRef spec1 5) = _ from (hF1 m ρ c 5).symm).trans ((arrAt1_5 (U1 m ρ) c).trans ?_)
  rw [U1_emb, U1_a1, U1_a2, U1_a3, toMat_ofMat]
theorem U2_whp : U2 m ρ c main_v1_1 = ofMat (whp (E m c) (A m c) (A2 m c) (Un m c)) := by
  refine (show U2 m ρ c (Pipeline.arrRef spec1 6) = _ from (hF1 m ρ c 6).symm).trans ((arrAt1_6 (U1 m ρ) c).trans ?_)
  rw [U1_emb, U1_a1, U1_a2, U1_a3, toMat_ofMat]
theorem U2_mask : U2 m ρ c main_v1_2 = ofMat (mask (A m c) (A2 m c)) := by
  refine (show U2 m ρ c (Pipeline.arrRef spec1 7) = _ from (hF1 m ρ c 7).symm).trans ((arrAt1_7 (U1 m ρ) c).trans ?_)
  rw [U1_a1, U1_a2]
theorem U2_dlp : (U2 m ρ c main_v1_3 : (⟨2, ![4096, 1]⟩ : Shape).Idx → EReal) = fun i => deg (wlp (E m c) (A m c) (A2 m c) (Un m c)) (i 0) := by
  refine (show U2 m ρ c (Pipeline.arrRef spec1 8) = _ from (hF1 m ρ c 8).symm).trans ((arrAt1_8 (U1 m ρ) c).trans ?_)
  rw [U1_emb, U1_a1, U1_a2, U1_a3, toMat_ofMat]
  rfl
theorem U2_dhp : (U2 m ρ c main_v1_4 : (⟨2, ![4096, 1]⟩ : Shape).Idx → EReal) = fun i => deg (whp (E m c) (A m c) (A2 m c) (Un m c)) (i 0) := by
  refine (show U2 m ρ c (Pipeline.arrRef spec1 9) = _ from (hF1 m ρ c 9).symm).trans ((arrAt1_9 (U1 m ρ) c).trans ?_)
  rw [U1_emb, U1_a1, U1_a2, U1_a3, toMat_ofMat]
  rfl

/-! ## The reshapes -/

theorem U3_v2 : (U3 m ρ c main_v2 : (⟨2, ![1, 4096]⟩ : Shape).Idx → EReal)
    = shapeCast S1x4096 (U2 m ρ c main_v1_3 : (⟨2, ![4096, 1]⟩ : Shape).Idx → EReal) shapeCasts_S4096x1_S1x4096 := by
  show StableHlo.after hostOps2 (W2 m ρ c) (Proc.devRef .tc main_v2) = _
  after_results; rfl
theorem U3_v3 : (U3 m ρ c main_v3 : (⟨2, ![1, 4096]⟩ : Shape).Idx → EReal)
    = shapeCast S1x4096 (U2 m ρ c main_v1_4 : (⟨2, ![4096, 1]⟩ : Shape).Idx → EReal) shapeCasts_S4096x1_S1x4096 := by
  show StableHlo.after hostOps2 (W2 m ρ c) (Proc.devRef .tc main_v3) = _
  after_results; rfl
theorem U3_keep (b : Ref sig .tc) (h2 : b ≠ main_v2) (h3 : b ≠ main_v3) : U3 m ρ c b = U2 m ρ c b := W3_keep m ρ c b h2 h3

theorem U3_row_lp' (k : Fin 4096) : (U3 m ρ c main_v2 : (⟨2, ![1, 4096]⟩ : Shape).Idx → EReal) (ix2 0 k)
    = deg (wlp (E m c) (A m c) (A2 m c) (Un m c)) k := by
  rw [U3_v2]; refine (col_as_row _ _ 0 k).trans ?_; rw [U2_dlp]; rfl
theorem U3_row_hp' (k : Fin 4096) : (U3 m ρ c main_v3 : (⟨2, ![1, 4096]⟩ : Shape).Idx → EReal) (ix2 0 k)
    = deg (whp (E m c) (A m c) (A2 m c) (Un m c)) k := by
  rw [U3_v3]; refine (col_as_row _ _ 0 k).trans ?_; rw [U2_dhp]; rfl
theorem U3_col_lp' (r : Fin 4096) : (U3 m ρ c main_v1_3 : (⟨2, ![4096, 1]⟩ : Shape).Idx → EReal) (ix2 r 0)
    = deg (wlp (E m c) (A m c) (A2 m c) (Un m c)) r := by
  rw [U3_keep m ρ c main_v1_3 (by decide) (by decide), U2_dlp]; rfl
theorem U3_col_hp' (r : Fin 4096) : (U3 m ρ c main_v1_4 : (⟨2, ![4096, 1]⟩ : Shape).Idx → EReal) (ix2 r 0)
    = deg (whp (E m c) (A m c) (A2 m c) (Un m c)) r := by
  rw [U3_keep m ρ c main_v1_4 (by decide) (by decide), U2_dhp]; rfl

/-- The same four reads through coordinates. -/
theorem U3_row_lp (k : Fin 4096) : toMat (a := 1) (b := 4096) (U3 m ρ c main_v2) 0 k = deg (wlp (E m c) (A m c) (A2 m c) (Un m c)) k := U3_row_lp' m ρ c k
theorem U3_row_hp (k : Fin 4096) : toMat (a := 1) (b := 4096) (U3 m ρ c main_v3) 0 k = deg (whp (E m c) (A m c) (A2 m c) (Un m c)) k := U3_row_hp' m ρ c k
theorem U3_col_lp (r : Fin 4096) : toMat (a := 4096) (b := 1) (U3 m ρ c main_v1_3) r 0 = deg (wlp (E m c) (A m c) (A2 m c) (Un m c)) r := U3_col_lp' m ρ c r
theorem U3_col_hp (r : Fin 4096) : toMat (a := 4096) (b := 1) (U3 m ρ c main_v1_4) r 0 = deg (whp (E m c) (A m c) (A2 m c) (Un m c)) r := U3_col_hp' m ρ c r
theorem U3_wlp : U3 m ρ c main_v1_0 = ofMat (wlp (E m c) (A m c) (A2 m c) (Un m c)) :=
  (U3_keep m ρ c main_v1_0 (by decide) (by decide)).trans (U2_wlp m ρ c)
theorem U3_whp : U3 m ρ c main_v1_1 = ofMat (whp (E m c) (A m c) (A2 m c) (Un m c)) :=
  (U3_keep m ρ c main_v1_1 (by decide) (by decide)).trans (U2_whp m ρ c)

/-! ## Region 2's results, and the five results at the end -/

theorem U4_adjLp : U4 m ρ c main_v4_0 = resAdjLp (a0 m c) (a1 m c) (a2 m c) (a3 m c) (a4 m c) (a5 m c) := by
  refine (show U4 m ρ c (Pipeline.arrRef spec2 6) = _ from (hF2 m ρ c 6).symm).trans ((arrAt2_6 (U3 m ρ) c).trans ?_)
  unfold resAdjLp adjLp symNorm
  refine congrArg ofMat (funext fun r => funext fun k => ?_)
  rw [U3_wlp, toMat_ofMat, U3_col_lp, U3_row_lp]

theorem U4_adjHp : U4 m ρ c main_v4_1 = resAdjHp (a0 m c) (a1 m c) (a2 m c) (a3 m c) (a4 m c) (a5 m c) := by
  refine (show U4 m ρ c (Pipeline.arrRef spec2 7) = _ from (hF2 m ρ c 7).symm).trans ((arrAt2_7 (U3 m ρ) c).trans ?_)
  unfold resAdjHp adjHp symNorm
  refine congrArg ofMat (funext fun r => funext fun k => ?_)
  rw [U3_wlp, U3_whp, toMat_ofMat, toMat_ofMat, U3_col_hp, U3_row_hp]

theorem U4_keep (b : Ref sig .tc) (h6 : Pipeline.arrRef spec2 6 ≠ b) (h7 : Pipeline.arrRef spec2 7 ≠ b) : U4 m ρ c b = U3 m ρ c b :=
  W4_keep m ρ c b h6 h7

theorem U4_wlp : U4 m ρ c main_v1_0 = resWlp (a0 m c) (a1 m c) (a2 m c) (a3 m c) (a4 m c) (a5 m c) :=
  (U4_keep m ρ c main_v1_0 (by decide) (by decide)).trans (U3_wlp m ρ c)
theorem U4_whp : U4 m ρ c main_v1_1 = resWhp (a0 m c) (a1 m c) (a2 m c) (a3 m c) (a4 m c) (a5 m c) :=
  (U4_keep m ρ c main_v1_1 (by decide) (by decide)).trans (U3_whp m ρ c)
theorem U4_mask : U4 m ρ c main_v1_2 = resMask (a1 m c) (a2 m c) :=
  (U4_keep m ρ c main_v1_2 (by decide) (by decide)).trans ((U3_keep m ρ c main_v1_2 (by decide) (by decide)).trans (U2_mask m ρ c))

/-! ## The kernel's run with its results named -/

/-- Every weakly fair execution of the kernel's program at the ideal instance terminates, nothing faulting, with the
    five result arrays at the specification's functions of the argument arrays and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4_0) = resAdjLp (a0 m c) (a1 m c) (a2 m c) (a3 m c) (a4 m c) (a5 m c)
      ∧ r.2.mem ((c.tc : Thread nD τ).loc main_v4_1) = resAdjHp (a0 m c) (a1 m c) (a2 m c) (a3 m c) (a4 m c) (a5 m c)
      ∧ r.2.mem ((c.tc : Thread nD τ).loc main_v1_0) = resWlp (a0 m c) (a1 m c) (a2 m c) (a3 m c) (a4 m c) (a5 m c)
      ∧ r.2.mem ((c.tc : Thread nD τ).loc main_v1_1) = resWhp (a0 m c) (a1 m c) (a2 m c) (a3 m c) (a4 m c) (a5 m c)
      ∧ r.2.mem ((c.tc : Thread nD τ).loc main_v1_2) = resMask (a1 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
    (h c _ (mem_uc main_v4_0 (by decide))).trans (U4_adjLp m ρ c),
    (h c _ (mem_uc main_v4_1 (by decide))).trans (U4_adjHp m ρ c),
    (h c _ (mem_uc main_v1_0 (by decide))).trans (U4_wlp m ρ c),
    (h c _ (mem_uc main_v1_1 (by decide))).trans (U4_whp m ρ c),
    (h c _ (mem_uc main_v1_2 (by decide))).trans (U4_mask m ρ c),
    (h c _ (mem_uc main_arg0 (by decide))).trans (W4_launch m ρ c main_arg0 (by decide) (by decide) (by decide) (by decide) (by decide) (by decide) (by decide) (by decide) (by decide) (by decide)),
    (h c _ (mem_uc main_arg1 (by decide))).trans (W4_launch m ρ c main_arg1 (by decide) (by decide) (by decide) (by decide) (by decide) (by decide) (by decide) (by decide) (by decide) (by decide)),
    (h c _ (mem_uc main_arg2 (by decide))).trans (W4_launch m ρ c main_arg2 (by decide) (by decide) (by decide) (by decide) (by decide) (by decide) (by decide) (by decide) (by decide) (by decide)),
    (h c _ (mem_uc main_arg3 (by decide))).trans (W4_launch m ρ c main_arg3 (by decide) (by decide) (by decide) (by decide) (by decide) (by decide) (by decide) (by decide) (by decide) (by decide)),
    (h c _ (mem_uc main_arg4 (by decide))).trans (W4_launch m ρ c main_arg4 (by decide) (by decide) (by decide) (by decide) (by decide) (by decide) (by decide) (by decide) (by decide) (by decide)),
    (h c _ (mem_uc main_arg5 (by decide))).trans (W4_launch m ρ c main_arg5 (by decide) (by decide) (by decide) (by decide) (by decide) (by decide) (by decide) (by decide) (by decide) (by decide))⟩)
    (run_all m ρ)

end Cert.KernelIdeal.KV

end
-- ==== Proof.RefLaws.lean ====
/-
  The laws on the extended reals that join the two arrangements of the edge-weight computation.

  A row of w + δ, δ the identity matrix's row, sums to the row of w plus one: a finite sum in a commutative monoid
  splits over +, and the row of δ has a single one. A logistic value is a real number at every extended real, so
  with k a comparison's bit (0 or 1), σ·k + (1 − σ)·k = k. The expanded sigmoid 1 / (1 + exp(−x)) is the logistic
  function by definition, and 0 − x is −x.
-/
import Idealize.ShloMosaic.PureOps.Ideal
import Idealize.ShloMosaic.PureOps.Ideal.Laws
import proofs.«116308_j1889785610729_2_alg».proof.Proof.LibCompareBit

noncomputable section

namespace Cert.ReferenceIdeal.RefLaws

open Idealize.ShloMosaic Idealize.ShloMosaic.CompareBit

/-- A row of w + δ sums to the row of w plus one. -/
theorem sum_add_delta {n : ℕ} (w : Fin n → EReal) (r : Fin n) :
    ∑ c : Fin n, (w c + (if r = c then (1 : EReal) else 0)) = (∑ c : Fin n, w c) + 1 := by
  rw [Finset.sum_add_distrib, Finset.sum_ite_eq Finset.univ r (fun _ => (1 : EReal)), if_pos (Finset.mem_univ r)]

/-- A logistic value is a real number, whatever the extended real it is taken at. -/
theorem logistic_real (g : EReal) : ∃ s : ℝ, Ideal.logistic g = (s : EReal) := by
  induction g using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- With σ a logistic value and k zero or one, σ·k + (1 − σ)·k = k. -/
theorem logistic_split (g k : EReal) (hk : k = 0 ∨ k = 1) :
    Ideal.logistic g * k + (1 - Ideal.logistic g) * k = k := by
  obtain ⟨s, hs⟩ := logistic_real g
  rw [hs]
  rcases hk with rfl | rfl
  · rw [mul_zero, mul_zero, add_zero]
  · rw [mul_one, mul_one, ← EReal.coe_one, ← EReal.coe_sub, ← EReal.coe_add]
    congr 1
    ring

/-- A comparison's bit as a number is zero or one. -/
theorem cmpBit_zero_or_one (p : CmpFPredicate) (u v : EReal) : cmpBit p u v = 0 ∨ cmpBit p u v = 1 := by
  unfold cmpBit
  rcases BitVec.eq_zero_or_eq_one (Ideal.cmp p u v) with h | h <;> rw [h]
  · left; simp
  · right; simp

/-- The host compares with the unordered "not equal"; on a linear order it is the ordered one. -/
theorem cmpBit_une (u v : EReal) : cmpBit .une u v = cmpBit .one u v := rfl

/-- The expanded sigmoid is the logistic function. -/
theorem sigmoid_expand (x : EReal) : Ideal.div 1 (1 + Ideal.exp (-x)) = Ideal.logistic x := rfl

end Cert.ReferenceIdeal.RefLaws

end
-- ==== Proof.RefValueA.lean ====
/-
  The reference's elementwise stages, read at a coordinate pair, are the specification's functions: the node
  embedding, the pair score, the edge multiplicity and mask, the noise, the gate and its logistic value, the two
  weight matrices and the identity matrix. The expanded sigmoid is the logistic function by definition, the negation
  is the difference from zero, and the iota comparison is equality of the two coordinates because both are below 2^32.
-/
import proofs.«116308_j1889785610729_2_alg».proof.Proof.RefReadP
import proofs.«116308_j1889785610729_2_alg».proof.Proof.Spec
import proofs.«116308_j1889785610729_2_alg».proof.Proof.RefLaws
import Idealize.ShloMosaic.Lib.ValueIdx
import Idealize.ShloMosaic.PureOps.Ideal.Laws

noncomputable section

namespace Cert.ReferenceIdeal.RefValue

open Idealize.ShloMosaic Idealize.ShloMosaic.ValueIdx Idealize.ShloMosaic.CompareBit Cert.EdgeSpec
open Cert.ReferenceIdeal Cert.ReferenceIdeal.ReadP Cert.ReferenceIdeal.RefLaws

/-! ## Operand indices at a coordinate pair -/

theorem lidx0 (r : Fin 4096) (h : Fin 128) (k : Fin 512) : lidx_main_v0 (ix2 r h) k = ix2 r k := by
  funext a; match a with | ⟨0, _⟩ => rfl | ⟨1, _⟩ => rfl
theorem ridx0 (r : Fin 4096) (h : Fin 128) (k : Fin 512) : ridx_main_v0 (ix2 r h) k = ix2 k h := by
  funext a; match a with | ⟨0, _⟩ => rfl | ⟨1, _⟩ => rfl
theorem bidx (r : Fin 4096) (h : Fin 128) : idx_main_v1 (idx_main_v2 (ix2 r h)) = ix1 h := by
  funext a; match a with | ⟨0, _⟩ => rfl
theorem lidx6 (r c : Fin 4096) (k : Fin 128) : lidx_main_v6 (ix2 r c) k = ix2 r k := by
  funext a; match a with | ⟨0, _⟩ => rfl | ⟨1, _⟩ => rfl
theorem ridx6 (r c : Fin 4096) (k : Fin 128) : idx_main_v5 (ridx_main_v6 (ix2 r c) k) = ix2 c k := by
  funext a; match a with | ⟨0, _⟩ => rfl | ⟨1, _⟩ => rfl

variable (x0 : (⟨S4096x512, .f32⟩ : BufTy).Contents (Elt Ideal)) (x1 x2 x3 : (⟨S4096x4096, .f32⟩ : BufTy).Contents (Elt Ideal))
  (x4 : (⟨S512x128, .f32⟩ : BufTy).Contents (Elt Ideal)) (x5 : (⟨S128, .f32⟩ : BufTy).Contents (Elt Ideal))

/-! ## The embedding and the score -/

/-- The embedding stage: relu of the affine map. -/
theorem emb_at (r : Fin 4096) (h : Fin 128) :
    val_main_v4 (F := Ideal) x0 x4 x5 (ix2 r h) = emb (toMat x0) (toMat x4) (toVec x5) r h := by
  rw [val_main_v4_apply, val_main_v3_apply, val_main_v0_apply, val_main_v2_apply, val_main_v1_apply,
    val_main_call0_v0_apply, val_main_call0_cst_apply]
  simp only [lidx0, ridx0, bidx]
  rfl

/-- The score stage: the inner product of two rows of the embedding. -/
theorem score_at (r c : Fin 4096) :
    val_main_v6 (F := Ideal) x0 x4 x5 (ix2 r c) = score (emb (toMat x0) (toMat x4) (toVec x5)) r c := by
  rw [val_main_v6_apply]
  simp only [val_main_v5_apply, lidx6, ridx6, emb_at]
  rfl

/-! ## The multiplicity and the mask -/

theorem mult_at (r c : Fin 4096) :
    val_main_v13 (F := Ideal) x1 x2 (ix2 r c) = mult (toMat x1) (toMat x2) r c := by
  rw [val_main_v13_apply, val_main_v9_apply, val_main_v12_apply, val_main_v8_apply, val_main_v11_apply,
    val_main_v7_apply, val_main_v10_apply, val_main_cst_apply, val_main_cst_0_apply]
  rfl

theorem mask_at (r c : Fin 4096) :
    val_main_v16 (F := Ideal) x1 x2 (ix2 r c) = mask (toMat x1) (toMat x2) r c := by
  rw [val_main_v16_apply, val_main_v15_apply, mult_at, val_main_v14_apply, val_main_cst_1_apply]
  rfl

/-! ## The noise, the gate and the logistic value -/

theorem eps_at (r c : Fin 4096) :
    val_main_v21 (F := Ideal) x3 (ix2 r c) = eps (toMat x3) r c := by
  rw [val_main_v21_apply, val_main_v19_apply, val_main_v18_apply, val_main_cst_2_apply, val_main_v20_apply,
    val_main_cst_3_apply]
  rfl

theorem gate_at (r c : Fin 4096) :
    val_main_v28 (F := Ideal) x0 x1 x2 x3 x4 x5 (ix2 r c)
      = gate (emb (toMat x0) (toMat x4) (toVec x5)) (toMat x1) (toMat x2) (toMat x3) r c := by
  rw [val_main_v28_apply, val_main_v26_apply, val_main_v25_apply, val_main_v22_apply, val_main_v24_apply,
    val_main_v23_apply, eps_at, val_main_v17_apply, score_at, mult_at, val_main_v27_apply, val_main_cst_4_apply]
  unfold gate
  rw [w0_eq, zero_sub]
  rfl

theorem sg_at (r c : Fin 4096) :
    val_main_v34 (F := Ideal) x0 x1 x2 x3 x4 x5 (ix2 r c)
      = sg (emb (toMat x0) (toMat x4) (toVec x5)) (toMat x1) (toMat x2) (toMat x3) r c := by
  rw [val_main_v34_apply, val_main_v33_apply, val_main_cst_6_apply, val_main_v32_apply, val_main_v31_apply,
    val_main_cst_5_apply, val_main_v30_apply, val_main_v29_apply, gate_at]
  unfold sg
  rw [← sigmoid_expand, ← w1_eq]
  rfl

/-! ## The two weight matrices -/

theorem wlp_at (r c : Fin 4096) :
    val_main_v35 (F := Ideal) x0 x1 x2 x3 x4 x5 (ix2 r c)
      = wlp (emb (toMat x0) (toMat x4) (toVec x5)) (toMat x1) (toMat x2) (toMat x3) r c := by
  rw [val_main_v35_apply, sg_at, mask_at]
  rfl

theorem whp_at (r c : Fin 4096) :
    val_main_v38 (F := Ideal) x0 x1 x2 x3 x4 x5 (ix2 r c)
      = whp (emb (toMat x0) (toMat x4) (toVec x5)) (toMat x1) (toMat x2) (toMat x3) r c := by
  rw [val_main_v38_apply, val_main_v37_apply, val_main_v36_apply, val_main_cst_7_apply, sg_at, mask_at]
  rfl

/-! ## The identity matrix -/

/-- Two coordinates below 4096 with the same 32-bit word are equal. -/
theorem ofNat32_inj (r c : Fin 4096) (h : BitVec.ofNat 32 r.val = BitVec.ofNat 32 c.val) : r = c := by
  have h' := congrArg BitVec.toNat h
  simp only [BitVec.toNat_ofNat] at h'
  have hr := r.isLt
  have hc := c.isLt
  exact Fin.ext (by omega)

theorem delta_at (r c : Fin 4096) : val_main_v44 (F := Ideal) (ix2 r c) = delta r c := by
  rw [val_main_v44_apply, val_main_v43_apply, val_main_v42_apply, val_main_v39_apply, val_main_v41_apply,
    val_main_v40_apply, val_main_c_apply]
  show (((BitVec.ofBool (BitVec.ofNat 32 r.val + 0#32 == BitVec.ofNat 32 c.val)).toNat : ℝ) : EReal) = if r = c then 1 else 0
  rw [BitVec.add_zero]
  by_cases h : r = c
  · subst h
    simp
  · have hne : BitVec.ofNat 32 r.val ≠ BitVec.ofNat 32 c.val := fun e => h (ofNat32_inj r c e)
    rw [if_neg h, beq_eq_false_iff_ne.mpr hne]
    simp

/-! ## Three results as arrays -/

theorem mask_eq : val_main_v16 (F := Ideal) x1 x2 = resMask x1 x2 := by
  funext i
  rw [eq_ix2 i]
  exact mask_at x1 x2 _ _

theorem wlp_eq : val_main_v35 (F := Ideal) x0 x1 x2 x3 x4 x5 = resWlp x0 x1 x2 x3 x4 x5 := by
  funext i
  rw [eq_ix2 i]
  exact wlp_at x0 x1 x2 x3 x4 x5 _ _

theorem whp_eq : val_main_v38 (F := Ideal) x0 x1 x2 x3 x4 x5 = resWhp x0 x1 x2 x3 x4 x5 := by
  funext i
  rw [eq_ix2 i]
  exact whp_at x0 x1 x2 x3 x4 x5 _ _

end Cert.ReferenceIdeal.RefValue

end
-- ==== Proof.RefValue.lean ====
/-
  The reference's five results, read index by index, are the specification's functions of the argument arrays.

  The degree the reference forms is the row sum of w + δ; the specification's is the row sum of w plus one: the two
  agree because a finite sum splits over + and the row of δ holds a single one. The reference multiplies the
  high-pass matrix by the edge mask; the specification multiplies by w_lp + w_hp = σ·k + (1 − σ)·k, which is k
  because σ is a real number and k is zero or one.
-/
import proofs.«116308_j1889785610729_2_alg».proof.Proof.RefValueA

noncomputable section

namespace Cert.ReferenceIdeal.RefValue

open Idealize.ShloMosaic Idealize.ShloMosaic.ValueIdx Idealize.ShloMosaic.CompareBit Cert.EdgeSpec
open Idealize.ShloMosaic.TcCoe Idealize.SL.Sem
open Cert.ReferenceIdeal Cert.ReferenceIdeal.ReadP Cert.ReferenceIdeal.RefLaws

/-! ## Two laws at the specification's names -/

/-- The row sum of w + δ is the specification's degree. -/
theorem deg_eq (w : Mat 4096 4096) (r : Fin 4096) : ∑ c : Fin 4096, (w r c + delta r c) = deg w r := by
  unfold deg delta
  rw [w1_eq]
  exact sum_add_delta (w r) r

/-- The two weight matrices add up to the edge mask. -/
theorem wlp_add_whp (e : Mat 4096 128) (a a2 u : Mat 4096 4096) (r c : Fin 4096) :
    wlp e a a2 u r c + whp e a a2 u r c = mask a a2 r c := by
  unfold wlp whp sg
  rw [w1_eq]
  exact logistic_split _ _ (cmpBit_zero_or_one _ _ _)

/-! ## Operand indices of the row sums and of the row and column broadcasts -/

theorem idx46 (r k : Fin 4096) : idx_main_v46 (ix1 r) k = ix2 r k := by
  funext a; match a with | ⟨0, _⟩ => rfl | ⟨1, _⟩ => rfl
theorem idx57 (r k : Fin 4096) : idx_main_v57 (ix1 r) k = ix2 r k := by
  funext a; match a with | ⟨0, _⟩ => rfl | ⟨1, _⟩ => rfl
theorem idx51 (r c : Fin 4096) : idx_main_v50 (idx_main_v51 (ix2 r c)) = ix1 r := by
  funext a; match a with | ⟨0, _⟩ => rfl
theorem idx54 (r c : Fin 4096) : idx_main_v53 (idx_main_v54 (ix2 r c)) = ix1 c := by
  funext a; match a with | ⟨0, _⟩ => rfl
theorem idx62 (r c : Fin 4096) : idx_main_v61 (idx_main_v62 (ix2 r c)) = ix1 r := by
  funext a; match a with | ⟨0, _⟩ => rfl
theorem idx65 (r c : Fin 4096) : idx_main_v64 (idx_main_v65 (ix2 r c)) = ix1 c := by
  funext a; match a with | ⟨0, _⟩ => rfl

variable (x0 : (⟨S4096x512, .f32⟩ : BufTy).Contents (Elt Ideal)) (x1 x2 x3 : (⟨S4096x4096, .f32⟩ : BufTy).Contents (Elt Ideal))
  (x4 : (⟨S512x128, .f32⟩ : BufTy).Contents (Elt Ideal)) (x5 : (⟨S128, .f32⟩ : BufTy).Contents (Elt Ideal))

/-! ## The low-pass matrix -/

theorem lpI_at (r c : Fin 4096) :
    val_main_v45 (F := Ideal) x0 x1 x2 x3 x4 x5 (ix2 r c)
      = wlp (emb (toMat x0) (toMat x4) (toVec x5)) (toMat x1) (toMat x2) (toMat x3) r c + delta r c := by
  rw [val_main_v45_apply, wlp_at, delta_at]
  rfl

/-- The reciprocal root of the low-pass degree. -/
theorem rsLp_at (r : Fin 4096) :
    val_main_v49 (F := Ideal) x0 x1 x2 x3 x4 x5 (ix1 r)
      = Ideal.rsqrt (deg (wlp (emb (toMat x0) (toMat x4) (toVec x5)) (toMat x1) (toMat x2) (toMat x3)) r + wEta) := by
  rw [val_main_v49_apply, val_main_v48_apply, val_main_v46_apply, val_main_cst_8_apply, val_main_v47_apply,
    val_main_cst_9_apply]
  simp only [idx46, lpI_at]
  rw [deg_eq, Ideal.ofBits_def, Ideal.ofBits_zero_f32, zero_add]
  rfl

theorem adjLp_at (r c : Fin 4096) :
    val_main_v55 (F := Ideal) x0 x1 x2 x3 x4 x5 (ix2 r c)
      = adjLp (emb (toMat x0) (toMat x4) (toVec x5)) (toMat x1) (toMat x2) (toMat x3) r c := by
  rw [val_main_v55_apply, val_main_v52_apply, lpI_at, val_main_v51_apply, val_main_v50_apply, idx51,
    val_main_v54_apply, val_main_v53_apply, idx54]
  simp only [rsLp_at]
  rfl

/-! ## The high-pass matrix -/

theorem hpI_at (r c : Fin 4096) :
    val_main_v56 (F := Ideal) x0 x1 x2 x3 x4 x5 (ix2 r c)
      = whp (emb (toMat x0) (toMat x4) (toVec x5)) (toMat x1) (toMat x2) (toMat x3) r c + delta r c := by
  rw [val_main_v56_apply, whp_at, delta_at]
  rfl

/-- The reciprocal root of the high-pass degree. -/
theorem rsHp_at (r : Fin 4096) :
    val_main_v60 (F := Ideal) x0 x1 x2 x3 x4 x5 (ix1 r)
      = Ideal.rsqrt (deg (whp (emb (toMat x0) (toMat x4) (toVec x5)) (toMat x1) (toMat x2) (toMat x3)) r + wEta) := by
  rw [val_main_v60_apply, val_main_v59_apply, val_main_v57_apply, val_main_cst_10_apply, val_main_v58_apply,
    val_main_cst_11_apply]
  simp only [idx57, hpI_at]
  rw [deg_eq, Ideal.ofBits_def, Ideal.ofBits_zero_f32, zero_add]
  rfl

theorem adjHp_at (r c : Fin 4096) :
    val_main_v70 (F := Ideal) x0 x1 x2 x3 x4 x5 (ix2 r c)
      = adjHp (emb (toMat x0) (toMat x4) (toVec x5)) (toMat x1) (toMat x2) (toMat x3) r c := by
  rw [val_main_v70_apply, delta_at, val_main_v69_apply, val_main_v67_apply, val_main_v66_apply, val_main_v63_apply,
    hpI_at, val_main_v62_apply, val_main_v61_apply, idx62, val_main_v65_apply, val_main_v64_apply, idx65, mask_at,
    val_main_v68_apply, val_main_cst_12_apply]
  simp only [rsHp_at]
  unfold adjHp
  rw [wlp_add_whp]
  rfl

/-! ## The two results as arrays -/

theorem adjLp_eq : val_main_v55 (F := Ideal) x0 x1 x2 x3 x4 x5 = resAdjLp x0 x1 x2 x3 x4 x5 := by
  funext i
  rw [eq_ix2 i]
  exact adjLp_at x0 x1 x2 x3 x4 x5 _ _

theorem adjHp_eq : val_main_v70 (F := Ideal) x0 x1 x2 x3 x4 x5 = resAdjHp x0 x1 x2 x3 x4 x5 := by
  funext i
  rw [eq_ix2 i]
  exact adjHp_at x0 x1 x2 x3 x4 x5 _ _

/-! ## The reference's run with the specification's posts -/

/-- Every weakly fair execution of the reference ends with its five results at the specification's functions of the
    six argument arrays, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v55) = resAdjLp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v70) = resAdjHp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v35) = resWlp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v38) = resWhp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v16) = resMask (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).1.trans ((val_main_v55_eq m c).trans (adjLp_eq _ _ _ _ _ _)),
     (h c).2.1.trans ((val_main_v70_eq m c).trans (adjHp_eq _ _ _ _ _ _)),
     (h c).2.2.1.trans ((val_main_v35_eq _ _ _ _ _ _).trans (wlp_eq _ _ _ _ _ _)),
     (h c).2.2.2.1.trans ((val_main_v38_eq _ _ _ _ _ _).trans (whp_eq _ _ _ _ _ _)),
     (h c).2.2.2.2.1.trans ((val_main_v16_eq _ _).trans (mask_eq _ _)),
     (h c).2.2.2.2.2⟩)
    (Cert.ReferenceIdeal.ValueP.run (F := Ideal) m ρ)

end Cert.ReferenceIdeal.RefValue

end
-- ==== Proof.lean ====
/-
  The kernel (three row-blocked passes: the node embedding, the gated edge weights with their degree sums, the
  symmetric normalisation) against its reference, on the extended reals.

  Both programs compute, from features f, adjacencies a, a₂, noise u, weights W and bias b: the embedding
  e = max(f·W + b, 0); the score s = e·eᵀ; the multiplicity q = [a ≠ 0] + [a₂ ≠ 0] and mask k = [q > 0]; the gate
  σ = logistic((log ε − log(1 + (0 − ε)) + s·q)/1), ε = c₁·u + c₂; w_lp = σ·k, w_hp = (1 − σ)·k; and the two normalised
  matrices (w + I)·rsqrt(d + η)·rsqrt(dᵀ + η) with d the row sums of w + I. The kernel computes the degree as the row
  sum of w plus one and recovers the mask inside the last pass as w_lp + w_hp; the reference sums w + I and reads the
  mask. The two agree at every extended real input: Σ_c (w(r,c) + δ(r,c)) = Σ_c w(r,c) + 1 is a rearrangement of a
  finite sum in a commutative monoid, and σ·k + (1 − σ)·k = k because a logistic value is a real number and k is 0 or 1.
  No finiteness of the inputs is used.

  The frames: each kernel pass is a pipeline over row blocks whose body loads whole staging buffers and stores whole
  staging buffers, so its run is read off its stores; the second pass reads the embedding through two windows (a row
  tile and the whole array), which hold complementary halves of the array's permission. The ideal pass rewrote no
  operation, so the idealized kernel is the kernel's own text read on the extended reals.
-/
import proofs.«116308_j1889785610729_2_alg».proof.Defs
import proofs.«116308_j1889785610729_2_alg».proof.Proof.Gen.Kernel
import proofs.«116308_j1889785610729_2_alg».proof.Proof.Gen.KernelIdeal
import proofs.«116308_j1889785610729_2_alg».proof.Proof.Gen.ReferenceIdeal
import proofs.«116308_j1889785610729_2_alg».proof.Proof.Gen.Pre_finite_inputs
import proofs.«116308_j1889785610729_2_alg».proof.Proof.K.Run
import proofs.«116308_j1889785610729_2_alg».proof.Proof.KI.Run
import proofs.«116308_j1889785610729_2_alg».proof.Proof.KernelValue
import proofs.«116308_j1889785610729_2_alg».proof.Proof.RefValue
import Idealize.ShloMosaic.Adequacy
import Idealize.ShloMosaic.Init

noncomputable section

namespace Cert.Proof

open Idealize.ShloMosaic Idealize.SL.Sem

/-- The kernel's program, as printed, runs to the end and leaves its arguments unchanged. -/
theorem frame_kernel : Cert.frame_Kernel (hKernel := Cert.Kernel.Gen.facts) (hPre_finite_inputs := Cert.Pre_finite_inputs.Gen.facts) :=
  fun m ρ _ => Cert.Kernel.Frame.frame m ρ

/-- So does its reading on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Frame.frame m ρ

/-- The reference is a straight line of host operations: its run with the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2) (Cert.ReferenceIdeal.RefValue.run_spec m ρ)

/-- Both programs end with the specification's five functions of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, _, _, Cert.KernelIdeal.KV.run_spec m ρ, ?_⟩
  refine (θ_run Cert.ReferenceIdeal.defs _ _).mono (fun r h c => ?_) (Cert.ReferenceIdeal.RefValue.run_spec m' ρ')
  obtain ⟨h0, h1, h2, h3, h4, hargs⟩ := h c
  obtain ⟨e0, e1, e2, e3, e4, e5⟩ := hagree c
  exact ⟨h0.trans (by rw [e0, e1, e2, e3, e4, e5]), h1.trans (by rw [e0, e1, e2, e3, e4, e5]),
    h2.trans (by rw [e0, e1, e2, e3, e4, e5]), h3.trans (by rw [e0, e1, e2, e3, e4, e5]), h4.trans (by rw [e1, e2]), hargs⟩

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
